-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096x4096 : Shape := ⟨2, ![4096, 4096]⟩
abbrev S512x512 : Shape := ⟨2, ![512, 512]⟩
abbrev S512 : Shape := ⟨1, ![512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S512 .f32) (main_arg12 : FVec F S512 .f32) (main_arg13 : FVec F S512 .f32) (main_v48 : IVec S_ 1) (main_v49 : FVec F S512x512 .f32) (main_v50 : FVec F S512x512 .f32) : IVec S_ 1 :=
  let main_v51 : IVec S512x512 1 := cmpf .olt main_v49 main_v50
  let main_c_19 : IVec S_ 1 := constantI S_ 1 1#1
  let main_v52 : IVec S_ 1 := (fun x v => Host.reduce IntOp.andi x v reducesTo_S512x512_S_d0_1 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512 .f32 := Host.absf main_arg12
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S512 .f32 := Host.absf main_arg13
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_v63 main_v67

def fn_part2 {F : FTy → Type} [FloatOps F] (main_arg7 : FVec F S512 .f32) (main_arg8 : FVec F S512 .f32) (main_arg9 : FVec F S512 .f32) (main_arg10 : FVec F S512x512 .f32) (main_arg11 : FVec F S512 .f32) (main_arg12 : FVec F S512 .f32) (main_arg13 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512x512 .f32 := Host.absf main_arg10
  let main_cst_18 : FVec F S_ .f32 := constant S_ .f32 0x7F800000#32
  let main_v50 : FVec F S512x512 .f32 := broadcastInDim S512x512 ![] bcast_S_S512x512 main_cst_18
  fn_part3 (F := F) main_arg11 main_arg12 main_arg13 main_v48 main_v49 main_v50

def fn_part1 {F : FTy → Type} [FloatOps F] (main_arg4 : FVec F S512 .f32) (main_arg5 : FVec F S512 .f32) (main_arg6 : FVec F S512x512 .f32) (main_arg7 : FVec F S512 .f32) (main_arg8 : FVec F S512 .f32) (main_arg9 : FVec F S512 .f32) (main_arg10 : FVec F S512x512 .f32) (main_arg11 : FVec F S512 .f32) (main_arg12 : FVec F S512 .f32) (main_arg13 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S4096x512 .f32) (main_arg1 : FVec F S4096x4096 .f32) (main_arg2 : FVec F S512x512 .f32) (main_arg3 : FVec F S512 .f32) (main_arg4 : FVec F S512 .f32) (main_arg5 : FVec F S512 .f32) (main_arg6 : FVec F S512x512 .f32) (main_arg7 : FVec F S512 .f32) (main_arg8 : FVec F S512 .f32) (main_arg9 : FVec F S512 .f32) (main_arg10 : FVec F S512x512 .f32) (main_arg11 : FVec F S512 .f32) (main_arg12 : FVec F S512 .f32) (main_arg13 : FVec F S512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_arg10 main_arg11 main_arg12 main_arg13 main_v13 main_v16
-- ==== Kernel.lean ====
abbrev S4096x512 : Shape := ⟨2, ![4096, 512]⟩
abbrev S4096x4096 : Shape := ⟨2, ![4096, 4096]⟩
abbrev S512x512 : Shape := ⟨2, ![512, 512]⟩
abbrev S512 : Shape := ⟨1, ![512]⟩
abbrev S1x512 : Shape := ⟨2, ![1, 512]⟩
abbrev S_ : Shape := ⟨0, ![]⟩
abbrev S4x8x512 : Shape := ⟨3, ![4, 8, 512]⟩
abbrev S1024x4096 : Shape := ⟨2, ![1024, 4096]⟩
abbrev S1024x512 : Shape := ⟨2, ![1024, 512]⟩
abbrev S1x8x512 : Shape := ⟨3, ![1, 8, 512]⟩
abbrev S6x512 : Shape := ⟨2, ![6, 512]⟩
abbrev S8x512 : Shape := ⟨2, ![8, 512]⟩
abbrev S4x1x512 : Shape := ⟨3, ![4, 1, 512]⟩
abbrev S4x512 : Shape := ⟨2, ![4, 512]⟩

abbrev nBuf : Space → Nat
  | .hbm => 98
  | .vmem => 15
  | .smem => 0
  | _ => 0

abbrev bufTy : (tb : Table) → Fin (tcTables nBuf tb) → BufTy
  | .hbm, ⟨0, _⟩ => ⟨S4096x512, .f32⟩
  | .hbm, ⟨1, _⟩ => ⟨S4096x4096, .f32⟩
  | .hbm, ⟨2, _⟩ => ⟨S512x512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S512x512, .f32⟩
  | .hbm, ⟨11, _⟩ => ⟨S512, .f32⟩
  | .hbm, ⟨12, _⟩ => ⟨S512, .f32⟩
  | .hbm, ⟨13, _⟩ => ⟨S512, .f32⟩
  | .hbm, ⟨14, _⟩ => ⟨S4096x512, .f32⟩
  | .hbm, ⟨15, _⟩ => ⟨S4096x512, .f32⟩
  | .hbm, ⟨16, _⟩ => ⟨S1x512, .f32⟩
  | .hbm, ⟨17, _⟩ => ⟨S4096x512, .f32⟩
  | .hbm, ⟨18, _⟩ => ⟨S4096x512, .f32⟩
  | .hbm, ⟨19, _⟩ => ⟨S_, .f32⟩
  | .hbm, ⟨20, _⟩ => ⟨S4096x512, .f32⟩
  | .hbm, ⟨21, _⟩ => ⟨S4096x512, .f32⟩
  | .hbm, ⟨22, _⟩ => ⟨S_, .f32⟩
  | .hbm, ⟨23, _⟩ => ⟨S512, .f32⟩
  | .hbm, ⟨24, _⟩ => ⟨S_, .f32⟩
  | .hbm, ⟨25, _⟩ => ⟨S512, .f32⟩
  | .hbm, ⟨26, _⟩ => ⟨S512, .f32⟩
  | .hbm, ⟨27, _⟩ => ⟨S1x512, .f32⟩
  | .hbm, ⟨28, _⟩ => ⟨S4096x512, .f32⟩
  | .hbm, ⟨29, _⟩ => ⟨S4096x512, .f32⟩
  | .hbm, ⟨30, _⟩ => ⟨S4096x512, .f32⟩
  | .hbm, ⟨31, _⟩ => ⟨S_, .f32⟩
  | .hbm, ⟨32, _⟩ => ⟨S512, .f32⟩
  | .hbm, ⟨33, _⟩ => ⟨S_, .f32⟩
  | .hbm, ⟨34, _⟩ => ⟨S512, .f32⟩
  | .hbm, ⟨35, _⟩ => ⟨S512, .f32⟩
  | .hbm, ⟨36, _⟩ => ⟨S1x512, .f32⟩
  | .hbm, ⟨37, _⟩ => ⟨S4096x512, .f32⟩
  | .hbm, ⟨38, _⟩ => ⟨S4096x512, .f32⟩
  | .hbm, ⟨39, _⟩ => ⟨S1x512, .f32⟩
  | .hbm, ⟨40, _⟩ => ⟨S4096x512, .f32⟩
  | .hbm, ⟨41, _⟩ => ⟨S4096x512, .f32⟩
  | .hbm, ⟨42, _⟩ => ⟨S_, .f32⟩
  | .hbm, ⟨43, _⟩ => ⟨S512, .f32⟩
  | .hbm, ⟨44, _⟩ => ⟨S512, .f32⟩
  | .hbm, ⟨45, _⟩ => ⟨S512, .f32⟩
  | .hbm, ⟨46, _⟩ => ⟨S1x512, .f32⟩
  | .hbm, ⟨47, _⟩ => ⟨S4096x512, .f32⟩
  | .hbm, ⟨48, _⟩ => ⟨S4096x512, .f32⟩
  | .hbm, ⟨49, _⟩ => ⟨S1x512, .f32⟩
  | .hbm, ⟨50, _⟩ => ⟨S4096x512, .f32⟩
  | .hbm, ⟨51, _⟩ => ⟨S4096x512, .f32⟩
  | .hbm, ⟨52, _⟩ => ⟨S4096x512, .f32⟩
  | .hbm, ⟨53, _⟩ => ⟨S4096x512, .f32⟩
  | .hbm, ⟨54, _⟩ => ⟨S1x512, .f32⟩
  | .hbm, ⟨55, _⟩ => ⟨S4096x512, .f32⟩
  | .hbm, ⟨56, _⟩ => ⟨S4096x512, .f32⟩
  | .hbm, ⟨57, _⟩ => ⟨S_, .f32⟩
  | .hbm, ⟨58, _⟩ => ⟨S4096x512, .f32⟩
  | .hbm, ⟨59, _⟩ => ⟨S4096x512, .f32⟩
  | .hbm, ⟨60, _⟩ => ⟨S_, .f32⟩
  | .hbm, ⟨61, _⟩ => ⟨S512, .f32⟩
  | .hbm, ⟨62, _⟩ => ⟨S_, .f32⟩
  | .hbm, ⟨63, _⟩ => ⟨S512, .f32⟩
  | .hbm, ⟨64, _⟩ => ⟨S512, .f32⟩
  | .hbm, ⟨65, _⟩ => ⟨S1x512, .f32⟩
  | .hbm, ⟨66, _⟩ => ⟨S4096x512, .f32⟩
  | .hbm, ⟨67, _⟩ => ⟨S4096x512, .f32⟩
  | .hbm, ⟨68, _⟩ => ⟨S4096x512, .f32⟩
  | .hbm, ⟨69, _⟩ => ⟨S_, .f32⟩
  | .hbm, ⟨70, _⟩ => ⟨S512, .f32⟩
  | .hbm, ⟨71, _⟩ => ⟨S_, .f32⟩
  | .hbm, ⟨72, _⟩ => ⟨S512, .f32⟩
  | .hbm, ⟨73, _⟩ => ⟨S512, .f32⟩
  | .hbm, ⟨74, _⟩ => ⟨S1x512, .f32⟩
  | .hbm, ⟨75, _⟩ => ⟨S4096x512, .f32⟩
  | .hbm, ⟨76, _⟩ => ⟨S4096x512, .f32⟩
  | .hbm, ⟨77, _⟩ => ⟨S1x512, .f32⟩
  | .hbm, ⟨78, _⟩ => ⟨S4096x512, .f32⟩
  | .hbm, ⟨79, _⟩ => ⟨S4096x512, .f32⟩
  | .hbm, ⟨80, _⟩ => ⟨S_, .f32⟩
  | .hbm, ⟨81, _⟩ => ⟨S512, .f32⟩
  | .hbm, ⟨82, _⟩ => ⟨S512, .f32⟩
  | .hbm, ⟨83, _⟩ => ⟨S512, .f32⟩
  | .hbm, ⟨84, _⟩ => ⟨S1x512, .f32⟩
  | .hbm, ⟨85, _⟩ => ⟨S4096x512, .f32⟩
  | .hbm, ⟨86, _⟩ => ⟨S4096x512, .f32⟩
  | .hbm, ⟨87, _⟩ => ⟨S1x512, .f32⟩
  | .hbm, ⟨88, _⟩ => ⟨S4096x512, .f32⟩
  | .hbm, ⟨89, _⟩ => ⟨S4096x512, .f32⟩
  | .hbm, ⟨90, _⟩ => ⟨S4096x512, .f32⟩
  | .hbm, ⟨91, _⟩ => ⟨S4096x512, .bf16⟩
  | .hbm, ⟨92, _⟩ => ⟨S1x512, .f32⟩
  | .hbm, ⟨93, _⟩ => ⟨S4096x512, .bf16⟩
  | .hbm, ⟨94, _⟩ => ⟨S4x8x512, .f32⟩
  | .hbm, ⟨95, _⟩ => ⟨S1x512, .f32⟩
  | .hbm, ⟨96, _⟩ => ⟨S1x512, .f32⟩
  | .hbm, ⟨97, _⟩ => ⟨S4096x512, .f32⟩
  | .local _ .vmem, ⟨0, _⟩ => ⟨S1024x4096, .f32⟩
  | .local _ .vmem, ⟨1, _⟩ => ⟨S1024x4096, .f32⟩
  | .local _ .vmem, ⟨2, _⟩ => ⟨S4096x512, .bf16⟩
  | .local _ .vmem, ⟨3, _⟩ => ⟨S1x512, .f32⟩
  | .local _ .vmem, ⟨4, _⟩ => ⟨S1024x512, .bf16⟩
  | .local _ .vmem, ⟨5, _⟩ => ⟨S1024x512, .bf16⟩
  | .local _ .vmem, ⟨6, _⟩ => ⟨S1x8x512, .f32⟩
  | .local _ .vmem, ⟨7, _⟩ => ⟨S1x8x512, .f32⟩
  | .local _ .vmem, ⟨8, _⟩ => ⟨S1024x512, .bf16⟩
  | .local _ .vmem, ⟨9, _⟩ => ⟨S1024x512, .bf16⟩
  | .local _ .vmem, ⟨10, _⟩ => ⟨S4x8x512, .f32⟩
  | .local _ .vmem, ⟨11, _⟩ => ⟨S1x512, .f32⟩
  | .local _ .vmem, ⟨12, _⟩ => ⟨S1x512, .f32⟩
  | .local _ .vmem, ⟨13, _⟩ => ⟨S1024x512, .f32⟩
  | .local _ .vmem, ⟨14, _⟩ => ⟨S1024x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_call0_cst : Ref sig .tc := ⟨.hbm, 19, rfl⟩
abbrev main_call0_v0 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_1 : Ref sig .tc := ⟨.hbm, 31, rfl⟩
abbrev main_v13 : Ref sig .tc := ⟨.hbm, 32, rfl⟩
abbrev main_cst_2 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_3 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_call1_cst : Ref sig .tc := ⟨.hbm, 57, rfl⟩
abbrev main_call1_v0 : Ref sig .tc := ⟨.hbm, 58, rfl⟩
abbrev main_v36 : Ref sig .tc := ⟨.hbm, 59, rfl⟩
abbrev main_cst_4 : Ref sig .tc := ⟨.hbm, 60, rfl⟩
abbrev main_v37 : Ref sig .tc := ⟨.hbm, 61, rfl⟩
abbrev main_cst_5 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_6 : Ref sig .tc := ⟨.hbm, 69, rfl⟩
abbrev main_v44 : Ref sig .tc := ⟨.hbm, 70, rfl⟩
abbrev main_cst_7 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_8 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65_0 : Ref sig .tc := ⟨.hbm, 93, rfl⟩
abbrev main_v65_1 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4x8x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1024x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  bcast_S_S4096x512 : S_.BroadcastsInDim S4096x512 (![] : Fin 0 → Fin S4096x512.rank)
  reducesTo_S4096x512_S512_d0 : S4096x512.ReducesTo [0] S512
  h_S_ : 0 < S_.numel
  bcast_S_S512 : S_.BroadcastsInDim S512 (![] : Fin 0 → Fin S512.rank)
  bitsLt_bf16_f32 : FTy.bits .bf16 < FTy.bits .f32
  shapeCasts_S512_S1x512 : S512.ShapeCasts S1x512
  inb_S1024x4096_S1024x4096_0_0 : ∀ a, (![0, 0] : Fin 2 → Nat) a + S1024x4096.size a ≤ S1024x4096.size a
  h_S1024x4096 : 0 < S1024x4096.numel
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  packedbf16_S1024x512_S1024x512_0_0 : (Rect.unit (s := S1024x512) ![0, 0] S1024x512.size inb_S1024x512_S1024x512_0_0).PackedRows (EltTy.packing .bf16)
  reduces_S1024x512_S512 : S1024x512.Reduces [0] S512
  concatenates_S1x512_S1x512_S6x512_S8x512_d0 : Shape.Concatenates [S1x512, S1x512, S6x512] S8x512 0
  shapeCasts_S8x512_S1x8x512 : S8x512.ShapeCasts S1x8x512
  inb_S1x8x512_S1x8x512_0_0_0 : ∀ a, (![0, 0, 0] : Fin 3 → Nat) a + S1x8x512.size a ≤ S1x8x512.size a
  h_S1x8x512 : 0 < S1x8x512.numel
  inb_S4x8x512_S4x1x512_0_0_0 : ∀ a, (![0, 0, 0] : Fin 3 → Nat) a + S4x1x512.size a ≤ S4x8x512.size a
  h_S4x1x512 : 0 < S4x1x512.numel
  shapeCasts_S4x1x512_S4x512 : S4x1x512.ShapeCasts S4x512
  reduces_S4x512_S512 : S4x512.Reduces [0] S512
  inb_S4x8x512_S4x1x512_0_1_0 : ∀ a, (![0, 1, 0] : Fin 3 → Nat) a + S4x1x512.size a ≤ S4x8x512.size a
  shapeCasts_S1024x512_S1024x512 : S1024x512.ShapeCasts S1024x512
  dot_S4096x512_S512x512_S4096x512_1_0_0_1_n_n_wf : DotDims.WF S4096x512 S512x512 S4096x512 [1] [0] [0] [1] [] []
  dot_S4096x4096_S4096x512_S4096x512_1_0_0_1_n_n_wf : DotDims.WF S4096x4096 S4096x512 S4096x512 [1] [0] [0] [1] [] []
  dot_S1024x4096_S4096x512_S1024x512_1_0_0_1_n_n_wf : DotDims.WF S1024x4096 S4096x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S4096x4096.size a
  hwx0_0 : ∀ i : grid0.Coords, EltTy.bits .f32 = 32 ∨ (Rect.block (s := S4096x4096) S1024x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x512.size a
  hwx0_1 : ∀ i : grid0.Coords, EltTy.bits .bf16 = 32 ∨ (Rect.block (s := S4096x512) S4096x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S4096x512.size a
  hwx0_3 : ∀ i : grid0.Coords, EltTy.bits .bf16 = 32 ∨ (Rect.block (s := S4096x512) S1024x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x512.size a ≤ S4x8x512.size a
  hwx0_4 : ∀ i : grid0.Coords, EltTy.bits .f32 = 32 ∨ (Rect.block (s := S4x8x512) S1x8x512.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S4096x512.size a
  hwx1_0 : ∀ i : grid1.Coords, EltTy.bits .bf16 = 32 ∨ (Rect.block (s := S4096x512) S1024x512.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4x8x512.size a ≤ S4x8x512.size a
  hwx1_1 : ∀ i : grid1.Coords, EltTy.bits .f32 = 32 ∨ (Rect.block (s := S4x8x512) S4x8x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x512.size a ≤ S4096x512.size a
  hwx1_4 : ∀ i : grid1.Coords, EltTy.bits .f32 = 32 ∨ (Rect.block (s := S4096x512) S1024x512.size (cc1_transform_4 i) (hinb1_4 i)).WholeWords (EltTy.packing .f32)

variable [Facts₀]

def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S4096x4096_S4096x512_S4096x512_1_0_0_1_n_n : DotDims S4096x4096 S4096x512 S4096x512 where
  lhsContracting := [1]
  rhsContracting := [0]
  lhsNonContracting := [0]
  rhsNonContracting := [1]
  lhsBatch := []
  rhsBatch := []
  wf := dot_S4096x4096_S4096x512_S4096x512_1_0_0_1_n_n_wf
def dot_S1024x4096_S4096x512_S1024x512_1_0_0_1_n_n : DotDims S1024x4096 S4096x512 S1024x512 where
  lhsContracting := [1]
  rhsContracting := [0]
  lhsNonContracting := [0]
  rhsNonContracting := [1]
  lhsBatch := []
  rhsBatch := []
  wf := dot_S1024x4096_S4096x512_S1024x512_1_0_0_1_n_n_wf

abbrev win0_0 : Pipeline.Window sig grid0 :=
  Pipeline.Window.ofSpec (Memref.whole main_arg1) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v63) S4096x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v64) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v65_0) S1024x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v65_1) S1x8x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v65_0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v65_1) S4x8x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v66) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v67) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v68) S1024x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4096x512 : Shape := ⟨2, ![4096, 512]⟩
abbrev S4096x4096 : Shape := ⟨2, ![4096, 4096]⟩
abbrev S512x512 : Shape := ⟨2, ![512, 512]⟩
abbrev S512 : Shape := ⟨1, ![512]⟩
abbrev S1x512 : Shape := ⟨2, ![1, 512]⟩
abbrev S_ : Shape := ⟨0, ![]⟩

abbrev nBuf : Space → Nat
  | .hbm => 128
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x4096, .f32⟩
  | .hbm, ⟨2, _⟩ => ⟨S512x512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S512x512, .f32⟩
  | .hbm, ⟨11, _⟩ => ⟨S512, .f32⟩
  | .hbm, ⟨12, _⟩ => ⟨S512, .f32⟩
  | .hbm, ⟨13, _⟩ => ⟨S512, .f32⟩
  | .hbm, ⟨14, _⟩ => ⟨S4096x512, .f32⟩
  | .hbm, ⟨15, _⟩ => ⟨S4096x512, .f32⟩
  | .hbm, ⟨16, _⟩ => ⟨S1x512, .f32⟩
  | .hbm, ⟨17, _⟩ => ⟨S4096x512, .f32⟩
  | .hbm, ⟨18, _⟩ => ⟨S4096x512, .f32⟩
  | .hbm, ⟨19, _⟩ => ⟨S_, .f32⟩
  | .hbm, ⟨20, _⟩ => ⟨S4096x512, .f32⟩
  | .hbm, ⟨21, _⟩ => ⟨S4096x512, .f32⟩
  | .hbm, ⟨22, _⟩ => ⟨S_, .f32⟩
  | .hbm, ⟨23, _⟩ => ⟨S512, .f32⟩
  | .hbm, ⟨24, _⟩ => ⟨S_, .f32⟩
  | .hbm, ⟨25, _⟩ => ⟨S512, .f32⟩
  | .hbm, ⟨26, _⟩ => ⟨S512, .f32⟩
  | .hbm, ⟨27, _⟩ => ⟨S1x512, .f32⟩
  | .hbm, ⟨28, _⟩ => ⟨S4096x512, .f32⟩
  | .hbm, ⟨29, _⟩ => ⟨S4096x512, .f32⟩
  | .hbm, ⟨30, _⟩ => ⟨S4096x512, .f32⟩
  | .hbm, ⟨31, _⟩ => ⟨S_, .f32⟩
  | .hbm, ⟨32, _⟩ => ⟨S512, .f32⟩
  | .hbm, ⟨33, _⟩ => ⟨S_, .f32⟩
  | .hbm, ⟨34, _⟩ => ⟨S512, .f32⟩
  | .hbm, ⟨35, _⟩ => ⟨S512, .f32⟩
  | .hbm, ⟨36, _⟩ => ⟨S1x512, .f32⟩
  | .hbm, ⟨37, _⟩ => ⟨S4096x512, .f32⟩
  | .hbm, ⟨38, _⟩ => ⟨S4096x512, .f32⟩
  | .hbm, ⟨39, _⟩ => ⟨S1x512, .f32⟩
  | .hbm, ⟨40, _⟩ => ⟨S4096x512, .f32⟩
  | .hbm, ⟨41, _⟩ => ⟨S4096x512, .f32⟩
  | .hbm, ⟨42, _⟩ => ⟨S_, .f32⟩
  | .hbm, ⟨43, _⟩ => ⟨S512, .f32⟩
  | .hbm, ⟨44, _⟩ => ⟨S512, .f32⟩
  | .hbm, ⟨45, _⟩ => ⟨S512, .f32⟩
  | .hbm, ⟨46, _⟩ => ⟨S1x512, .f32⟩
  | .hbm, ⟨47, _⟩ => ⟨S4096x512, .f32⟩
  | .hbm, ⟨48, _⟩ => ⟨S4096x512, .f32⟩
  | .hbm, ⟨49, _⟩ => ⟨S1x512, .f32⟩
  | .hbm, ⟨50, _⟩ => ⟨S4096x512, .f32⟩
  | .hbm, ⟨51, _⟩ => ⟨S4096x512, .f32⟩
  | .hbm, ⟨52, _⟩ => ⟨S4096x512, .f32⟩
  | .hbm, ⟨53, _⟩ => ⟨S4096x512, .f32⟩
  | .hbm, ⟨54, _⟩ => ⟨S1x512, .f32⟩
  | .hbm, ⟨55, _⟩ => ⟨S4096x512, .f32⟩
  | .hbm, ⟨56, _⟩ => ⟨S4096x512, .f32⟩
  | .hbm, ⟨57, _⟩ => ⟨S_, .f32⟩
  | .hbm, ⟨58, _⟩ => ⟨S4096x512, .f32⟩
  | .hbm, ⟨59, _⟩ => ⟨S4096x512, .f32⟩
  | .hbm, ⟨60, _⟩ => ⟨S_, .f32⟩
  | .hbm, ⟨61, _⟩ => ⟨S512, .f32⟩
  | .hbm, ⟨62, _⟩ => ⟨S_, .f32⟩
  | .hbm, ⟨63, _⟩ => ⟨S512, .f32⟩
  | .hbm, ⟨64, _⟩ => ⟨S512, .f32⟩
  | .hbm, ⟨65, _⟩ => ⟨S1x512, .f32⟩
  | .hbm, ⟨66, _⟩ => ⟨S4096x512, .f32⟩
  | .hbm, ⟨67, _⟩ => ⟨S4096x512, .f32⟩
  | .hbm, ⟨68, _⟩ => ⟨S4096x512, .f32⟩
  | .hbm, ⟨69, _⟩ => ⟨S_, .f32⟩
  | .hbm, ⟨70, _⟩ => ⟨S512, .f32⟩
  | .hbm, ⟨71, _⟩ => ⟨S_, .f32⟩
  | .hbm, ⟨72, _⟩ => ⟨S512, .f32⟩
  | .hbm, ⟨73, _⟩ => ⟨S512, .f32⟩
  | .hbm, ⟨74, _⟩ => ⟨S1x512, .f32⟩
  | .hbm, ⟨75, _⟩ => ⟨S4096x512, .f32⟩
  | .hbm, ⟨76, _⟩ => ⟨S4096x512, .f32⟩
  | .hbm, ⟨77, _⟩ => ⟨S1x512, .f32⟩
  | .hbm, ⟨78, _⟩ => ⟨S4096x512, .f32⟩
  | .hbm, ⟨79, _⟩ => ⟨S4096x512, .f32⟩
  | .hbm, ⟨80, _⟩ => ⟨S_, .f32⟩
  | .hbm, ⟨81, _⟩ => ⟨S512, .f32⟩
  | .hbm, ⟨82, _⟩ => ⟨S512, .f32⟩
  | .hbm, ⟨83, _⟩ => ⟨S512, .f32⟩
  | .hbm, ⟨84, _⟩ => ⟨S1x512, .f32⟩
  | .hbm, ⟨85, _⟩ => ⟨S4096x512, .f32⟩
  | .hbm, ⟨86, _⟩ => ⟨S4096x512, .f32⟩
  | .hbm, ⟨87, _⟩ => ⟨S1x512, .f32⟩
  | .hbm, ⟨88, _⟩ => ⟨S4096x512, .f32⟩
  | .hbm, ⟨89, _⟩ => ⟨S4096x512, .f32⟩
  | .hbm, ⟨90, _⟩ => ⟨S4096x512, .f32⟩
  | .hbm, ⟨91, _⟩ => ⟨S4096x512, .f32⟩
  | .hbm, ⟨92, _⟩ => ⟨S1x512, .f32⟩
  | .hbm, ⟨93, _⟩ => ⟨S4096x512, .f32⟩
  | .hbm, ⟨94, _⟩ => ⟨S4096x512, .f32⟩
  | .hbm, ⟨95, _⟩ => ⟨S_, .f32⟩
  | .hbm, ⟨96, _⟩ => ⟨S4096x512, .f32⟩
  | .hbm, ⟨97, _⟩ => ⟨S4096x512, .f32⟩
  | .hbm, ⟨98, _⟩ => ⟨S_, .f32⟩
  | .hbm, ⟨99, _⟩ => ⟨S512, .f32⟩
  | .hbm, ⟨100, _⟩ => ⟨S_, .f32⟩
  | .hbm, ⟨101, _⟩ => ⟨S512, .f32⟩
  | .hbm, ⟨102, _⟩ => ⟨S512, .f32⟩
  | .hbm, ⟨103, _⟩ => ⟨S1x512, .f32⟩
  | .hbm, ⟨104, _⟩ => ⟨S4096x512, .f32⟩
  | .hbm, ⟨105, _⟩ => ⟨S4096x512, .f32⟩
  | .hbm, ⟨106, _⟩ => ⟨S4096x512, .f32⟩
  | .hbm, ⟨107, _⟩ => ⟨S_, .f32⟩
  | .hbm, ⟨108, _⟩ => ⟨S512, .f32⟩
  | .hbm, ⟨109, _⟩ => ⟨S_, .f32⟩
  | .hbm, ⟨110, _⟩ => ⟨S512, .f32⟩
  | .hbm, ⟨111, _⟩ => ⟨S512, .f32⟩
  | .hbm, ⟨112, _⟩ => ⟨S1x512, .f32⟩
  | .hbm, ⟨113, _⟩ => ⟨S4096x512, .f32⟩
  | .hbm, ⟨114, _⟩ => ⟨S4096x512, .f32⟩
  | .hbm, ⟨115, _⟩ => ⟨S1x512, .f32⟩
  | .hbm, ⟨116, _⟩ => ⟨S4096x512, .f32⟩
  | .hbm, ⟨117, _⟩ => ⟨S4096x512, .f32⟩
  | .hbm, ⟨118, _⟩ => ⟨S_, .f32⟩
  | .hbm, ⟨119, _⟩ => ⟨S512, .f32⟩
  | .hbm, ⟨120, _⟩ => ⟨S512, .f32⟩
  | .hbm, ⟨121, _⟩ => ⟨S512, .f32⟩
  | .hbm, ⟨122, _⟩ => ⟨S1x512, .f32⟩
  | .hbm, ⟨123, _⟩ => ⟨S4096x512, .f32⟩
  | .hbm, ⟨124, _⟩ => ⟨S4096x512, .f32⟩
  | .hbm, ⟨125, _⟩ => ⟨S1x512, .f32⟩
  | .hbm, ⟨126, _⟩ => ⟨S4096x512, .f32⟩
  | .hbm, ⟨127, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_call0_cst : Ref sig .tc := ⟨.hbm, 19, rfl⟩
abbrev main_call0_v0 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_1 : Ref sig .tc := ⟨.hbm, 31, rfl⟩
abbrev main_v13 : Ref sig .tc := ⟨.hbm, 32, rfl⟩
abbrev main_cst_2 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_3 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_call1_cst : Ref sig .tc := ⟨.hbm, 57, rfl⟩
abbrev main_call1_v0 : Ref sig .tc := ⟨.hbm, 58, rfl⟩
abbrev main_v36 : Ref sig .tc := ⟨.hbm, 59, rfl⟩
abbrev main_cst_4 : Ref sig .tc := ⟨.hbm, 60, rfl⟩
abbrev main_v37 : Ref sig .tc := ⟨.hbm, 61, rfl⟩
abbrev main_cst_5 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_6 : Ref sig .tc := ⟨.hbm, 69, rfl⟩
abbrev main_v44 : Ref sig .tc := ⟨.hbm, 70, rfl⟩
abbrev main_cst_7 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_8 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_call2_cst : Ref sig .tc := ⟨.hbm, 95, rfl⟩
abbrev main_call2_v0 : Ref sig .tc := ⟨.hbm, 96, rfl⟩
abbrev main_v67 : Ref sig .tc := ⟨.hbm, 97, rfl⟩
abbrev main_cst_9 : Ref sig .tc := ⟨.hbm, 98, rfl⟩
abbrev main_v68 : Ref sig .tc := ⟨.hbm, 99, rfl⟩
abbrev main_cst_10 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_cst_11 : Ref sig .tc := ⟨.hbm, 107, rfl⟩
abbrev main_v75 : Ref sig .tc := ⟨.hbm, 108, rfl⟩
abbrev main_cst_12 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_cst_13 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  bcast_S_S4096x512 : S_.BroadcastsInDim S4096x512 (![] : Fin 0 → Fin S4096x512.rank)
  reducesTo_S4096x512_S512_d0 : S4096x512.ReducesTo [0] S512
  h_S_ : 0 < S_.numel
  bcast_S_S512 : S_.BroadcastsInDim S512 (![] : Fin 0 → Fin S512.rank)
  dot_S4096x512_S512x512_S4096x512_1_0_0_1_n_n_wf : DotDims.WF S4096x512 S512x512 S4096x512 [1] [0] [0] [1] [] []
  dot_S4096x4096_S4096x512_S4096x512_1_0_0_1_n_n_wf : DotDims.WF S4096x4096 S4096x512 S4096x512 [1] [0] [0] [1] [] []

variable [Facts₀]

def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S4096x4096_S4096x512_S4096x512_1_0_0_1_n_n : DotDims S4096x4096 S4096x512 S4096x512 where
  lhsContracting := [1]
  rhsContracting := [0]
  lhsNonContracting := [0]
  rhsNonContracting := [1]
  lhsBatch := []
  rhsBatch := []
  wf := dot_S4096x4096_S4096x512_S4096x512_1_0_0_1_n_n_wf

class Facts : Prop extends Facts₀ where

variable [Facts]
-- ==== Proof.KernelRun.lean ====
/-
  The idealized kernel program's run with its result named: every weakly fair execution terminates, nothing faulting,
  with the result buffer at the contents the second region's output window leaves (the fold of buffer contents through
  the host stretches and the two regions, read at the result buffer) and the argument arrays as launched. The launch
  over the segments is the frame's; the last thread state is read against the final state at one more buffer.
-/
import proofs.«176912_g87187836109056_cont_sun_m_854_20_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the fold's contents, the arguments as launched. -/
theorem run : θ_run defs (onTc (τ := τ) (main (F := F))) ⟨m, fun _ => 0, ρ⟩ (fun r => ∀ c : Dev nD,
      r.2.mem ((c.tc : Thread nD τ).loc main_v68) = W8 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v68 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c)⟩)

end Cert.KernelIdeal.KRun

end
-- ==== Proof.LibOpenLists.lean ====
/-
  Two programs' host operations read side by side. A line of host operations turns the buffers' contents before it into
  the contents after it (the fold `after`). Opened operation by operation, the contents of one result buffer become a
  term in the contents the line started from; when two programs apply the same operations in the same order to contents
  that agree, the two terms are the same term, and an equation between a buffer of one and a buffer of the other is
  closed without unfolding any operation (a gather, a scatter, a sort stay closed). A line cut in two is read through
  the cut; a change of float format is the identity on extended reals, so a table rounded to another format is the table.
-/
import Idealize.ShloMosaic.Lib.StableHlo.Run
import Idealize.ShloMosaic.PureOps.Ideal

noncomputable section

namespace Cert.OpenLists

open Idealize.ShloMosaic Idealize.ShloMosaic.StableHlo

/-- Two lines run one after the other: the contents after the second, from the contents after the first. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

/-- A table rounded to a narrower float format is the table, on extended reals. -/
theorem truncf_id {s : Shape} {φ ψ : FTy} (a : FVec Ideal s φ) (h : ψ.bits < φ.bits) : (truncf ψ a h : FVec Ideal s ψ) = a := rfl

/-- A table widened to a wider float format is the table, on extended reals. -/
theorem extf_id {s : Shape} {φ ψ : FTy} (a : FVec Ideal s φ) (h : φ.bits < ψ.bits) : (extf ψ a h : FVec Ideal s ψ) = a := rfl

/-- Opens every `after <literal list> V (Proc.devRef .tc r)` in the goal, on both sides of an equation and in every
    conjunct, down to the contents the lines started from, in one pass; hypotheses that relate the two programs' starting
    contents (`vk … = vr …`) are rewritten on the way. What is left, if anything, is an equation between the same operations
    spelt in the two programs' vocabularies: `rfl` — provided no side is applied to an index or wrapped in something `rfl`
    would have to unfold. -/
macro "open_lists" "[" hs:Lean.Parser.Tactic.simpLemma,* "]" : tactic =>
  `(tactic| (simp (disch := decide) only [after_append, after_cons, after_nil,
      nullary_result', unary_result', binary_result', ternary_result', quaternary_result', reshape_result',
      nullary_result_ne', unary_result_ne', binary_result_ne', ternary_result_ne', quaternary_result_ne', reshape_result_ne',
      cast_eq, truncf_id, extf_id, and_self, and_true, true_and, $hs,*]))

end Cert.OpenLists

end
-- ==== Proof.HostSide.lean ====
/-
  The host operations of the two programs read side by side. The idealized kernel program applies, before its first
  region, the very operations the reference applies for its first two layers and the third feature product, to
  arguments that agree; stretch by stretch the contents it leaves are the reference's stages: the first activation,
  the second activation, and the feature table the third layer starts from (a change of float format is the identity
  on extended reals). The remaining buffers the regions read are the arguments themselves, or an argument vector viewed
  as a one-row matrix.
-/
import proofs.«176912_g87187836109056_cont_sun_m_854_20_alg».proof.Proof.Gen.KernelIdeal.Frame
import proofs.«176912_g87187836109056_cont_sun_m_854_20_alg».proof.Proof.ReadP
import proofs.«176912_g87187836109056_cont_sun_m_854_20_alg».proof.Proof.LibOpenLists
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal

set_option maxRecDepth 16384

noncomputable section

namespace Cert.HostSide

open Cert.KernelIdeal.Gen Idealize.ShloMosaic Idealize.ShloMosaic.TcCoe Idealize.ShloMosaic.StableHlo Idealize.ShloMosaic.ValueIdx Idealize.SL.Sem
open Cert.ReferenceIdeal.Read Cert.OpenLists

variable (m : (ℓ : Loc Cert.KernelIdeal.nD Cert.KernelIdeal.τ Cert.KernelIdeal.sig) → Buf (Elt Ideal) ℓ) (ρ : Dev Cert.KernelIdeal.nD → PrngReg)

/-- After the first two stretches the first activation is the reference's. -/
theorem act1_eq (c : Dev Cert.KernelIdeal.nD) :
    W2 m ρ c (Proc.devRef .tc Cert.KernelIdeal.main_v5)
      = val_main_v5 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) := by
  open_lists [W2, W1, Cert.KernelIdeal.Gen.hostOps0, Cert.KernelIdeal.Gen.hostOps0_1]
  rfl

/-- After the next two stretches the second activation is the reference's. -/
theorem act2_eq (c : Dev Cert.KernelIdeal.nD) :
    W4 m ρ c (Proc.devRef .tc Cert.KernelIdeal.main_v36)
      = val_main_v36 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) := by
  have e5 := act1_eq m ρ c
  have a0 : W2 m ρ c (Proc.devRef .tc Cert.KernelIdeal.main_arg0) = (m ((c.tc : Thread Cert.KernelIdeal.nD Cert.KernelIdeal.τ).loc Cert.KernelIdeal.main_arg0)) := by
    open_lists [Cert.KernelIdeal.Gen.hostOps0, Cert.KernelIdeal.Gen.hostOps0_1]
  have a1 : W2 m ρ c (Proc.devRef .tc Cert.KernelIdeal.main_arg1) = (m ((c.tc : Thread Cert.KernelIdeal.nD Cert.KernelIdeal.τ).loc Cert.KernelIdeal.main_arg1)) := by
    open_lists [Cert.KernelIdeal.Gen.hostOps0, Cert.KernelIdeal.Gen.hostOps0_1]
  have a4 : W2 m ρ c (Proc.devRef .tc Cert.KernelIdeal.main_arg4) = (m ((c.tc : Thread Cert.KernelIdeal.nD Cert.KernelIdeal.τ).loc Cert.KernelIdeal.main_arg4)) := by
    open_lists [Cert.KernelIdeal.Gen.hostOps0, Cert.KernelIdeal.Gen.hostOps0_1]
  have a5 : W2 m ρ c (Proc.devRef .tc Cert.KernelIdeal.main_arg5) = (m ((c.tc : Thread Cert.KernelIdeal.nD Cert.KernelIdeal.τ).loc Cert.KernelIdeal.main_arg5)) := by
    open_lists [Cert.KernelIdeal.Gen.hostOps0, Cert.KernelIdeal.Gen.hostOps0_1]
  have a6 : W2 m ρ c (Proc.devRef .tc Cert.KernelIdeal.main_arg6) = (m ((c.tc : Thread Cert.KernelIdeal.nD Cert.KernelIdeal.τ).loc Cert.KernelIdeal.main_arg6)) := by
    open_lists [Cert.KernelIdeal.Gen.hostOps0, Cert.KernelIdeal.Gen.hostOps0_1]
  have a7 : W2 m ρ c (Proc.devRef .tc Cert.KernelIdeal.main_arg7) = (m ((c.tc : Thread Cert.KernelIdeal.nD Cert.KernelIdeal.τ).loc Cert.KernelIdeal.main_arg7)) := by
    open_lists [Cert.KernelIdeal.Gen.hostOps0, Cert.KernelIdeal.Gen.hostOps0_1]
  show after Cert.KernelIdeal.Gen.hostOps0_3 (after Cert.KernelIdeal.Gen.hostOps0_2 (W2 m ρ c)) (Proc.devRef .tc Cert.KernelIdeal.main_v36) = _
  generalize W2 m ρ c = Wv at e5 a0 a1 a4 a5 a6 a7 ⊢
  open_lists [Cert.KernelIdeal.Gen.hostOps0_2, Cert.KernelIdeal.Gen.hostOps0_3, e5, a0, a1, a4, a5, a6, a7]
  rfl

/-- At the first region's entry the feature table is the reference's. -/
theorem z_eq (c : Dev Cert.KernelIdeal.nD) :
    W5 m ρ c (Proc.devRef .tc Cert.KernelIdeal.main_v63)
      = val_main_v62 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) := by
  have e36 := act2_eq m ρ c
  have a8 : W4 m ρ c (Proc.devRef .tc Cert.KernelIdeal.main_arg8) = (m ((c.tc : Thread Cert.KernelIdeal.nD Cert.KernelIdeal.τ).loc Cert.KernelIdeal.main_arg8)) := by
    open_lists [Cert.KernelIdeal.Gen.hostOps0, Cert.KernelIdeal.Gen.hostOps0_1, Cert.KernelIdeal.Gen.hostOps0_2, Cert.KernelIdeal.Gen.hostOps0_3]
  have a9 : W4 m ρ c (Proc.devRef .tc Cert.KernelIdeal.main_arg9) = (m ((c.tc : Thread Cert.KernelIdeal.nD Cert.KernelIdeal.τ).loc Cert.KernelIdeal.main_arg9)) := by
    open_lists [Cert.KernelIdeal.Gen.hostOps0, Cert.KernelIdeal.Gen.hostOps0_1, Cert.KernelIdeal.Gen.hostOps0_2, Cert.KernelIdeal.Gen.hostOps0_3]
  have a10 : W4 m ρ c (Proc.devRef .tc Cert.KernelIdeal.main_arg10) = (m ((c.tc : Thread Cert.KernelIdeal.nD Cert.KernelIdeal.τ).loc Cert.KernelIdeal.main_arg10)) := by
    open_lists [Cert.KernelIdeal.Gen.hostOps0, Cert.KernelIdeal.Gen.hostOps0_1, Cert.KernelIdeal.Gen.hostOps0_2, Cert.KernelIdeal.Gen.hostOps0_3]
  show after Cert.KernelIdeal.Gen.hostOps0_4 (W4 m ρ c) (Proc.devRef .tc Cert.KernelIdeal.main_v63) = _
  generalize W4 m ρ c = Wv at e36 a8 a9 a10 ⊢
  open_lists [Cert.KernelIdeal.Gen.hostOps0_4, e36, a8, a9, a10]
  rfl

/-- At the first region's entry the adjacency is the argument. -/
theorem adj_eq (c : Dev Cert.KernelIdeal.nD) :
    W5 m ρ c (Proc.devRef .tc Cert.KernelIdeal.main_arg1) = m ((c.tc : Thread Cert.KernelIdeal.nD Cert.KernelIdeal.τ).loc Cert.KernelIdeal.main_arg1) := by
  open_lists [W5, W4, W3, W2, W1, Cert.KernelIdeal.Gen.hostOps0, Cert.KernelIdeal.Gen.hostOps0_1, Cert.KernelIdeal.Gen.hostOps0_2, Cert.KernelIdeal.Gen.hostOps0_3, Cert.KernelIdeal.Gen.hostOps0_4]

/-- At the first region's entry the bias row is the bias argument viewed as one row. -/
theorem bias_eq (c : Dev Cert.KernelIdeal.nD) (q : Fin 512) :
    (W5 m ρ c (Proc.devRef .tc Cert.KernelIdeal.main_v64) : Cert.KernelIdeal.S1x512.Idx → EReal) (ix2 0 q)
      = (m ((c.tc : Thread Cert.KernelIdeal.nD Cert.KernelIdeal.τ).loc Cert.KernelIdeal.main_arg11) : Cert.KernelIdeal.S512.Idx → EReal) (ix1 q) := by
  open_lists [W5, W4, W3, W2, W1, Cert.KernelIdeal.Gen.hostOps0, Cert.KernelIdeal.Gen.hostOps0_1, Cert.KernelIdeal.Gen.hostOps0_2, Cert.KernelIdeal.Gen.hostOps0_3, Cert.KernelIdeal.Gen.hostOps0_4]
  exact shapeCast_a_1a_apply _ _ 0 q

/-- At the second region's entry the activation array is what the first region's first output window left. -/
theorem act_arr (c : Dev Cert.KernelIdeal.nD) :
    W7 m ρ c (Proc.devRef .tc Cert.KernelIdeal.main_v65_0) = (dat0 (V5 m ρ) c).arrAt 3 Cert.KernelIdeal.cfg0.N := by
  open_lists [W7, Cert.KernelIdeal.Gen.hostOps1]
  exact W6_arr m ρ c 3

/-- At the second region's entry the statistics array is what the first region's second output window left. -/
theorem stats_arr (c : Dev Cert.KernelIdeal.nD) :
    W7 m ρ c (Proc.devRef .tc Cert.KernelIdeal.main_v65_1) = (dat0 (V5 m ρ) c).arrAt 4 Cert.KernelIdeal.cfg0.N := by
  open_lists [W7, Cert.KernelIdeal.Gen.hostOps1]
  exact W6_arr m ρ c 4

/-- At the second region's entry the scale row is the scale argument viewed as one row. -/
theorem scale_eq (c : Dev Cert.KernelIdeal.nD) (q : Fin 512) :
    (W7 m ρ c (Proc.devRef .tc Cert.KernelIdeal.main_v66) : Cert.KernelIdeal.S1x512.Idx → EReal) (ix2 0 q)
      = (m ((c.tc : Thread Cert.KernelIdeal.nD Cert.KernelIdeal.τ).loc Cert.KernelIdeal.main_arg12) : Cert.KernelIdeal.S512.Idx → EReal) (ix1 q) := by
  open_lists [W7, Cert.KernelIdeal.Gen.hostOps1]
  rw [W6_of_ne m ρ c Cert.KernelIdeal.main_arg12 (by decide)]
  open_lists [W5, W4, W3, W2, W1, Cert.KernelIdeal.Gen.hostOps0, Cert.KernelIdeal.Gen.hostOps0_1, Cert.KernelIdeal.Gen.hostOps0_2, Cert.KernelIdeal.Gen.hostOps0_3, Cert.KernelIdeal.Gen.hostOps0_4]
  exact shapeCast_a_1a_apply _ _ 0 q

/-- At the second region's entry the shift row is the shift argument viewed as one row. -/
theorem shift_eq (c : Dev Cert.KernelIdeal.nD) (q : Fin 512) :
    (W7 m ρ c (Proc.devRef .tc Cert.KernelIdeal.main_v67) : Cert.KernelIdeal.S1x512.Idx → EReal) (ix2 0 q)
      = (m ((c.tc : Thread Cert.KernelIdeal.nD Cert.KernelIdeal.τ).loc Cert.KernelIdeal.main_arg13) : Cert.KernelIdeal.S512.Idx → EReal) (ix1 q) := by
  open_lists [W7, Cert.KernelIdeal.Gen.hostOps1]
  rw [W6_of_ne m ρ c Cert.KernelIdeal.main_arg13 (by decide)]
  open_lists [W5, W4, W3, W2, W1, Cert.KernelIdeal.Gen.hostOps0, Cert.KernelIdeal.Gen.hostOps0_1, Cert.KernelIdeal.Gen.hostOps0_2, Cert.KernelIdeal.Gen.hostOps0_3, Cert.KernelIdeal.Gen.hostOps0_4]
  exact shapeCast_a_1a_apply _ _ 0 q

/-- The result buffer ends at what the second region's output window left. -/
theorem out_arr (c : Dev Cert.KernelIdeal.nD) :
    W8 m ρ c (Proc.devRef .tc Cert.KernelIdeal.main_v68) = (dat1 (V7 m ρ) c).arrAt 4 Cert.KernelIdeal.cfg1.N :=
  W8_arr m ρ c 4

end Cert.HostSide

end
-- ==== Proof.Spec.lean ====
/-
  The mathematics of the third graph-convolution layer and its batch normalisation, stated once over plain
  coordinates, for both programs to be read against.

  Rows are the 4096 nodes, columns the 512 features. For an adjacency `adj`, features `z` and a bias `b`,
  `act adj z b p q = max (Σ_k adj p k · z k q + b q) 0` is the activated propagation at node `p`, feature `q`.

  The batch normalisation of a column `y : Fin 4096 → EReal` (one feature over all nodes) with scale `g` and
  shift `be` is written twice:
  * `bnRef`: the textbook form, mean `μ = (Σ y)/4096`, variance `(Σ (y − μ)²)/4096`, value
    `g · (y p − μ) / √(var + ε) + be`;
  * `bnAffine`: the one-pass form from four partial sums of `y` and of `y²` (one pair per block of 1024
    nodes): `μ = (Σ_i s1 i)/4096`, `var = (Σ_i s2 i)/4096 − μ²`, `s = g / √(var + ε)`, value
    `y p · s + (be − μ · s)`.
  The two agree on real columns (Law.lean). The float literals stay as their words: 4096 and ε.
-/
import Idealize.ShloMosaic.PureOps.Ideal

noncomputable section

open scoped BigOperators

namespace Cert.Spec

open Idealize.ShloMosaic

/-- The word of the float 4096. -/
abbrev n4096 : EReal := Ideal.ofBits .f32 0x45800000#32
/-- The word of the float nearest to 10⁻⁵. -/
abbrev eps : EReal := Ideal.ofBits .f32 0x3727C5AC#32

/-- The activated propagation at node `p`, feature `q`: `max (Σ_k adj p k · z k q + b q) 0`. -/
def act (adj : Fin 4096 → Fin 4096 → EReal) (z : Fin 4096 → Fin 512 → EReal) (b : Fin 512 → EReal)
    (p : Fin 4096) (q : Fin 512) : EReal :=
  max ((∑ k : Fin 4096, adj p k * z k q) + b q) 0

/-- Node `r` of block `i`: blocks are 1024 consecutive nodes. -/
def blockRow (i : Fin 4) (r : Fin 1024) : Fin 4096 := ⟨1024 * i.val + r.val, by omega⟩

/-- Textbook batch normalisation of the column `y`, read at the entry `yp`. -/
def bnRef (y : Fin 4096 → EReal) (g be yp : EReal) : EReal :=
  let mean := Ideal.div (∑ r : Fin 4096, y r) n4096
  let var := Ideal.div (∑ r : Fin 4096, (y r - mean) * (y r - mean)) n4096
  Ideal.div (g * (yp - mean)) (Ideal.sqrt (var + eps)) + be

/-- One-pass batch normalisation from the four blocks' partial sums `s1` (of the column) and `s2` (of its
    squares), read at the entry `yp`. -/
def bnAffine (s1 s2 : Fin 4 → EReal) (g be yp : EReal) : EReal :=
  let mean := Ideal.div (∑ i : Fin 4, s1 i) n4096
  let var := Ideal.div (∑ i : Fin 4, s2 i) n4096 - mean * mean
  let s := Ideal.div g (Ideal.sqrt (var + eps))
  yp * s + (be - mean * s)

end Cert.Spec

end
-- ==== Proof.LibDenseRows.lean ====
/-
  Row-wise dense algebra read at an index given by coordinates, at the ideal values: a plain two-dimensional
  contraction `[M, K] · [K, N]` (the kernel's matrix product into a zero accumulator and the host's `dot_general`) as a sum
  over `k : Fin K` of the left operand's row times the right operand's column; a bias vector `[N]` laid along every row of
  `[M, N]` (both spellings: cast to one row then broadcast, and two `broadcast_in_dim`s); a concatenation of two blocks side
  by side along the columns; and a sum along the columns of `[M, N]` (the lane reduction and the host's `reduce`), plain
  and laid back out as a column `[M, 1]` that is broadcast over the columns.
-/
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

noncomputable section

namespace Cert.DenseRows

open Idealize.ShloMosaic Idealize.ShloMosaic.ValueIdx
open scoped BigOperators

/-! ## A plain contraction `[M, K] · [K, N]` -/

/-- For dimension numbers that contract the left operand's columns with the right operand's rows and keep the left rows and
    the right columns in place, the sum over the contraction index at `(r, c)` is the sum over `k : Fin K` of the left
    operand at `(r, k)` times the right operand at `(k, c)`. -/
theorem sum_contr_plain {M K N : ℕ} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : (⟨2, ![M, K]⟩ : Shape).Idx → EReal) (W : (⟨2, ![K, N]⟩ : Shape).Idx → EReal) (r : Fin M) (c : Fin N) :
    ∑ k : D.contr.Idx, A (D.lhsIdx (ix2 r c) k) * W (D.rhsIdx (ix2 r c) k) = ∑ k : Fin K, A (ix2 r k) * W (ix2 k c) := by
  rw [← Equiv.sum_comp (contrEquiv1 D K hrank hsize).symm]
  refine Finset.sum_congr rfl fun k _ => ?_
  have e1 : D.lhsIdx (ix2 r c) ((contrEquiv1 D K hrank hsize).symm k) = ix2 r k := by
    funext a; apply Fin.ext
    match a with
    | ⟨0, _⟩ => exact hl0 _ _
    | ⟨1, _⟩ => exact (D.lhsIdx_val_of_single hl _ _).trans (contrEquiv1_symm_val D K hrank hsize k)
  have e2 : D.rhsIdx (ix2 r c) ((contrEquiv1 D K hrank hsize).symm k) = ix2 k c := by
    funext a; apply Fin.ext
    match a with
    | ⟨0, _⟩ => exact (D.rhsIdx_val_of_single hr _ _).trans (contrEquiv1_symm_val D K hrank hsize k)
    | ⟨1, _⟩ => exact hr1 _ _
  rw [e1, e2]

/-- The kernel's matrix product into the zero accumulator, at `(r, c)`. -/
theorem matmul_zero_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    matmul D none A W (constant (F := Ideal) ⟨2, ![M, N]⟩ .f32 0x00000000#32) (ix2 r c) = ∑ k : Fin K, A (ix2 r k) * W (ix2 k c) :=
  (Ideal.matmul_constant_zero_apply D none A W (ix2 r c)).trans (sum_contr_plain D hl hr hrank hsize hl0 hr1 A W r c)

/-- The host's `dot_general` with the same dimension numbers, at `(r, c)`. -/
theorem dotGeneral_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    Host.dotGeneral D none A W (ix2 r c) = ∑ k : Fin K, A (ix2 r k) * W (ix2 k c) :=
  (Ideal.dotGeneral_apply D none .single A W (ix2 r c)).trans (sum_contr_plain D hl hr hrank hsize hl0 hr1 A W r c)

/-! ## A bias vector along every row -/

variable {α : Type}

/-- A vector `[N]` cast to one row `[1, N]` and broadcast down `M` rows reads, at `(r, c)`, the vector at `c`. -/
theorem rowBias_cast_apply {M N : ℕ} (b : (⟨1, ![N]⟩ : Shape).Idx → α) (h1 : (⟨1, ![N]⟩ : Shape).ShapeCasts ⟨2, ![1, N]⟩)
    (h2 : (⟨2, ![1, N]⟩ : Shape).Broadcasts ⟨2, ![M, N]⟩) (r : Fin M) (c : Fin N) :
    broadcastTo ⟨2, ![M, N]⟩ (shapeCast ⟨2, ![1, N]⟩ b h1) h2 (ix2 r c) = b (ix1 c) :=
  (broadcastTo_1b_ab_apply _ h2 r c).trans (shapeCast_a_1a_apply b h1 0 c)

/-- A vector `[N]` placed on axis 1 of `[1, N]` reads, at `(u, c)`, the vector at `c`. -/
theorem broadcastInDim_a_1a_apply {N : ℕ} (b : (⟨1, ![N]⟩ : Shape).Idx → α)
    (h : (⟨1, ![N]⟩ : Shape).BroadcastsInDim ⟨2, ![1, N]⟩ ![1]) (u : Fin 1) (c : Fin N) :
    broadcastInDim ⟨2, ![1, N]⟩ ![1] h b (ix2 u c) = b (ix1 c) := by
  refine broadcastInDim_apply ![1] h b (ix2 u c) (ix1 c) fun a => ?_
  match a with
  | ⟨0, _⟩ =>
    show c.val = if N = 1 then 0 else c.val
    split
    · have := c.isLt; omega
    · rfl

/-- The host's spelling of the same: two `broadcast_in_dim`s, `[N]` to `[1, N]` to `[M, N]`. -/
theorem rowBias_inDim_apply {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 b) (ix2 r c) = b (ix1 c) :=
  (broadcastInDim_oneRow_apply h2 _ r c).trans (broadcastInDim_a_1a_apply b h1 0 c)

/-! ## Two blocks side by side -/

/-- Two blocks `[M, A]` and `[M, B]` concatenated along the columns: a column left of `A` reads the first block. -/
theorem concat_cols_left {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : k.val < A) :
    concatenate ⟨2, ![M, C]⟩ (1 : Fin 2) [⟨⟨2, ![M, A]⟩, x⟩, ⟨⟨2, ![M, B]⟩, y⟩] h (ix2 r k) = x (ix2 r ⟨k.val, hk⟩) :=
  concatenate_pair_apply_left (1 : Fin 2) x y h (ix2 r k) rfl (ix2 r ⟨k.val, hk⟩) fun b => by
    match b with
    | ⟨0, _⟩ => rfl
    | ⟨1, _⟩ => rfl

/-- … and a column from `A` on reads the second block, `A` columns to the left. -/
theorem concat_cols_right {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : A ≤ k.val)
    (hk' : k.val - A < B) :
    concatenate ⟨2, ![M, C]⟩ (1 : Fin 2) [⟨⟨2, ![M, A]⟩, x⟩, ⟨⟨2, ![M, B]⟩, y⟩] h (ix2 r k) = y (ix2 r ⟨k.val - A, hk'⟩) :=
  concatenate_pair_apply_right (1 : Fin 2) x y h (ix2 r k) rfl rfl (ix2 r ⟨k.val - A, hk'⟩)
    (fun b hb => by
      match b with
      | ⟨0, _⟩ => rfl
      | ⟨1, _⟩ => exact absurd rfl hb)
    (by show k.val - A + A = k.val; omega)

/-! ## A sum along the columns -/

/-- The lane reduction of `[M, N]` along its columns from the zero word, at row `r`. -/
theorem laneSum_apply {M N : ℕ} (src : FVec Ideal ⟨2, ![M, N]⟩ .f32) (h : (⟨2, ![M, N]⟩ : Shape).Reduces [(1 : Fin 2)] ⟨1, ![M]⟩)
    (hφ : FKind.Formats .f32) (hacc : (0x00000000#32 : BitVec 32) = FKind.add.neutral .f32 hφ)
    (hlift : ∀ (r : Fin M) (k : Fin N), h.lift (ix1 r) k = ix2 r k) (r : Fin M) :
    multiReduction .add [(1 : Fin 2)] ⟨1, ![M]⟩ src 0x00000000#32 h hφ hacc (ix1 r) = ∑ k : Fin N, src (ix2 r k) :=
  (Ideal.multiReduction_add_single src 0x00000000#32 h hφ hacc (ix1 r)).trans
    (Finset.sum_congr rfl fun k _ => congrArg src (hlift r k))

/-- The host's `reduce` with `add` along the columns from an initial scalar, at row `r`. -/
theorem hostRowSum_apply {M N : ℕ} (x : FVec Ideal ⟨2, ![M, N]⟩ .f32) (init : (⟨0, ![]⟩ : Shape).Idx → Ideal .f32)
    (h' : (⟨2, ![M, N]⟩ : Shape).ReducesTo [(1 : Fin 2)] ⟨1, ![M]⟩) (hu : 0 < (⟨0, ![]⟩ : Shape).numel)
    (h : (⟨2, ![M, N]⟩ : Shape).Reduces [(1 : Fin 2)] ⟨1, ![M]⟩)
    (hlift : ∀ (r : Fin M) (k : Fin N), h.lift (ix1 r) k = ix2 r k) (r : Fin M) :
    Host.reduceAdd x init h' hu (ix1 r) = init (Shape.Idx.first hu) + ∑ k : Fin N, x (ix2 r k) :=
  (hostReduceAdd_apply x init h' hu (ix1 r)).trans
    ((Ideal.hostReduceAdd_single h' h x _ (ix1 r)).trans
      (congrArg (init (Shape.Idx.first hu) + ·) (Finset.sum_congr rfl fun k _ => congrArg x (hlift r k))))

/-- A vector `[M]` placed on axis 0 of `[M, 1]` reads, at `(r, u)`, the vector at `r`. -/
theorem broadcastInDim_a_a1_apply {M : ℕ} (v : (⟨1, ![M]⟩ : Shape).Idx → α)
    (h : (⟨1, ![M]⟩ : Shape).BroadcastsInDim ⟨2, ![M, 1]⟩ ![0]) (r : Fin M) (u : Fin 1) :
    broadcastInDim ⟨2, ![M, 1]⟩ ![0] h v (ix2 r u) = v (ix1 r) := by
  refine broadcastInDim_apply ![0] h v (ix2 r u) (ix1 r) fun a => ?_
  match a with
  | ⟨0, _⟩ =>
    show r.val = if M = 1 then 0 else r.val
    split
    · have := r.isLt; omega
    · rfl

/-- A column `[M, 1]` laid over the columns of `[M, N]` by `broadcast_in_dim` reads, at `(r, c)`, the column at row `r`. -/
theorem broadcastInDim_a1_ab_apply {M N : ℕ} (v : (⟨2, ![M, 1]⟩ : Shape).Idx → α)
    (h : (⟨2, ![M, 1]⟩ : Shape).BroadcastsInDim ⟨2, ![M, N]⟩ ![0, 1]) (r : Fin M) (c : Fin N) :
    broadcastInDim ⟨2, ![M, N]⟩ ![0, 1] h v (ix2 r c) = v (ix2 r (0 : Fin 1)) := by
  refine broadcastInDim_apply ![0, 1] h v (ix2 r c) (ix2 r (0 : Fin 1)) fun a => ?_
  match a with
  | ⟨0, _⟩ =>
    show r.val = if M = 1 then 0 else r.val
    split
    · have := r.isLt; omega
    · rfl
  | ⟨1, _⟩ => rfl

end Cert.DenseRows

end
-- ==== Proof.LibColumnSums.lean ====
/-
  Sums down the columns of a matrix, read at an index given by coordinates, at the ideal values: the reduction of `[M, N]`
  along axis 0 — the kernel's lane reduction from the zero word and the host's `reduce` with `add` from an initial scalar —
  is, at column `c`, the sum over the rows `k : Fin M` of the entry at `(k, c)`. The index the reduction inserts over column
  `c` with row coordinate `k` is `(k, c)`.
-/
import Idealize.ShloMosaic.Lib.ValueIdx
import Idealize.ShloMosaic.Lib.IdealHost
import Idealize.ShloMosaic.PureOps.Ideal.Laws

noncomputable section

namespace Cert.ColumnSums

open Idealize.ShloMosaic Idealize.ShloMosaic.ValueIdx
open scoped BigOperators

/-- For a reduction of `[M, N]` along its rows to `[N]` the source index over column `c` with row coordinate `k` is `(k, c)`. -/
theorem lift_col {M N : ℕ} (h : (⟨2, ![M, N]⟩ : Shape).Reduces [(0 : Fin 2)] ⟨1, ![N]⟩) (c : Fin N) (k : Fin M) :
    h.lift (ix1 c) k = ix2 k c := by
  funext d; apply Fin.ext
  match d with
  | ⟨0, _⟩ => rfl
  | ⟨1, _⟩ => rfl

/-- The lane reduction of `[M, N]` down its columns from the zero word, at column `c`. -/
theorem laneColSum_apply {M N : ℕ} (src : FVec Ideal ⟨2, ![M, N]⟩ .f32)
    (h : (⟨2, ![M, N]⟩ : Shape).Reduces [(0 : Fin 2)] ⟨1, ![N]⟩)
    (hφ : FKind.Formats .f32) (hacc : (0x00000000#32 : BitVec 32) = FKind.add.neutral .f32 hφ) (c : Fin N) :
    multiReduction .add [(0 : Fin 2)] ⟨1, ![N]⟩ src 0x00000000#32 h hφ hacc (ix1 c) = ∑ k : Fin M, src (ix2 k c) :=
  (Ideal.multiReduction_add_single src 0x00000000#32 h hφ hacc (ix1 c)).trans
    (Finset.sum_congr rfl fun k _ => congrArg src (lift_col h c k))

/-- The host's `reduce` with `add` down the columns from an initial scalar, at column `c`. -/
theorem hostColSum_apply {M N : ℕ} (x : FVec Ideal ⟨2, ![M, N]⟩ .f32) (init : (⟨0, ![]⟩ : Shape).Idx → Ideal .f32)
    (h' : (⟨2, ![M, N]⟩ : Shape).ReducesTo [(0 : Fin 2)] ⟨1, ![N]⟩) (hu : 0 < (⟨0, ![]⟩ : Shape).numel)
    (h : (⟨2, ![M, N]⟩ : Shape).Reduces [(0 : Fin 2)] ⟨1, ![N]⟩) (c : Fin N) :
    Host.reduceAdd x init h' hu (ix1 c) = init (Shape.Idx.first hu) + ∑ k : Fin M, x (ix2 k c) :=
  (hostReduceAdd_apply x init h' hu (ix1 c)).trans
    ((Ideal.hostReduceAdd_single h' h x _ (ix1 c)).trans
      (congrArg (init (Shape.Idx.first hu) + ·) (Finset.sum_congr rfl fun k _ => congrArg x (lift_col h c k))))

end Cert.ColumnSums

end
-- ==== Proof.Region0Pay.lean ====
/-
  The propagation kernel's body read at an index, at the ideal values, over arbitrary contents of its three
  input blocks: an adjacency block of 1024 rows, the feature table, and the bias row.

  The value it stores for the first output is, at row `p` and feature `q`,
  `max (Σ_k a p k · z k q + b q) 0`: the matrix product accumulates from the zero word, so it is the plain sum over
  the 4096 columns; narrowing the adjacency block to the shorter float format, and the same-shape casts of the
  table and of the bias row, change nothing on extended reals; the bias row is laid down the 1024 rows; the
  positive part is the maximum with the zero word, which is 0.

  The value it stores for the second output is a `[1, 8, 512]` block: row 0 holds, per feature, the sum of the first
  value down its 1024 rows; row 1 the sum of its squares; rows 2 to 7 are the zero word.
-/
import proofs.«176912_g87187836109056_cont_sun_m_854_20_alg».proof.Proof.Gen.KernelIdeal.Skeleton
import proofs.«176912_g87187836109056_cont_sun_m_854_20_alg».proof.Proof.LibDenseRows
import proofs.«176912_g87187836109056_cont_sun_m_854_20_alg».proof.Proof.LibColumnSums
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region0

open Cert.KernelIdeal Cert.KernelIdeal.Gen Idealize.ShloMosaic Idealize.ShloMosaic.ValueIdx

/-- The matrix product's dimension numbers: contract the left columns with the right rows. -/
abbrev dotD : DotDims S1024x4096 S4096x512 S1024x512 := dot_S1024x4096_S4096x512_S1024x512_1_0_0_1_n_n

/-- The left operand's row is the output's row. -/
theorem dotD_l0 (j : S1024x512.Idx) (k : dotD.contr.Idx) : (dotD.lhsIdx j k (0 : Fin 2)).val = (j (0 : Fin 2)).val := by
  unfold DotDims.lhsIdx
  rw [dif_neg (show ¬(0 : Fin S1024x4096.rank) ∈ dotD.lhsBatch by decide),
    dif_pos (show (0 : Fin S1024x4096.rank) ∈ dotD.lhsNonContracting by decide)]
  rfl

/-- The right operand's column is the output's column. -/
theorem dotD_r1 (j : S1024x512.Idx) (k : dotD.contr.Idx) : (dotD.rhsIdx j k (1 : Fin 2)).val = (j (1 : Fin 2)).val := by
  unfold DotDims.rhsIdx
  rw [dif_neg (show ¬(1 : Fin S4096x512.rank) ∈ dotD.rhsBatch by decide),
    dif_pos (show (1 : Fin S4096x512.rank) ∈ dotD.rhsNonContracting by decide)]
  rfl

/-- The activated propagation of one block of rows, as a function of the three blocks' contents. -/
def actBlk (a : S1024x4096.Idx → EReal) (z : S4096x512.Idx → EReal) (b : S1x512.Idx → EReal) (p : Fin 1024) (q : Fin 512) : EReal :=
  max ((∑ k : Fin 4096, a (ix2 p k) * z (ix2 k q)) + b (ix2 (0 : Fin 1) q)) 0

/-- The first payload at row `p`, feature `q`. -/
theorem pay1_apply (x0 : Vec Ideal S1024x4096 .f32) (x1 : Vec Ideal S4096x512 .bf16) (x2 : Vec Ideal S1x512 .f32)
    (p : Fin 1024) (q : Fin 512) :
    (k0_pay1 (F := Ideal) x0 x1 x2 : S1024x512.Idx → EReal) (ix2 p q) = actBlk x0 x1 x2 p q := by
  unfold k0_pay1
  show max (matmul dotD none (truncf .bf16 x0 bitsLt_bf16_f32) (shapeCast S4096x512 x1 shapeCasts_S4096x512_S4096x512)
          (constant (F := Ideal) S1024x512 .f32 0x00000000#32) (ix2 p q)
        + broadcastTo S1024x512 (shapeCast S1x512 x2 shapeCasts_S1x512_S1x512) broadcasts_S1x512_S1024x512 (ix2 p q))
      (Ideal.ofBits .f32 0x00000000#32) = _
  rw [Cert.DenseRows.matmul_zero_plain_apply dotD rfl rfl rfl rfl dotD_l0 dotD_r1, broadcastTo_1b_ab_apply, shapeCast_self,
    shapeCast_self, Ideal.ofBits_zero_f32]
  rfl

/-- The second payload's row 0 at feature `q`: the sum of the first payload down its 1024 rows. -/
theorem pay3_row0 (x0 : Vec Ideal S1024x4096 .f32) (x1 : Vec Ideal S4096x512 .bf16) (x2 : Vec Ideal S1x512 .f32)
    (u : Fin 1) (q : Fin 512) :
    (k0_pay3 (F := Ideal) x0 x1 x2 : S1x8x512.Idx → EReal) (ix3 u (0 : Fin 8) q) = ∑ r : Fin 1024, actBlk x0 x1 x2 r q := by
  unfold k0_pay3
  refine (shapeCast_ab_1ab_apply _ _ u (0 : Fin 8) q).trans ?_
  refine (concatenate_apply_piece (t := S8x512) (0 : Fin S8x512.rank) _ _ (ix2 (0 : Fin 8) q) 0 (by show (0 : Nat) < 3; omega) S1x512 _ rfl rfl 0 rfl
    (ix2 (0 : Fin 1) q) ?_ rfl).trans ?_
  · intro b hb
    match b with
    | ⟨0, _⟩ => exact absurd rfl hb
    | ⟨1, _⟩ => rfl
  refine (shapeCast_a_1a_apply _ _ (0 : Fin 1) q).trans ?_
  refine (Cert.ColumnSums.laneColSum_apply _ _ _ _ q).trans ?_
  exact Finset.sum_congr rfl fun r _ => pay1_apply x0 x1 x2 r q

/-- The second payload's row 1 at feature `q`: the sum of the first payload's squares down its 1024 rows. -/
theorem pay3_row1 (x0 : Vec Ideal S1024x4096 .f32) (x1 : Vec Ideal S4096x512 .bf16) (x2 : Vec Ideal S1x512 .f32)
    (u : Fin 1) (q : Fin 512) :
    (k0_pay3 (F := Ideal) x0 x1 x2 : S1x8x512.Idx → EReal) (ix3 u (1 : Fin 8) q)
      = ∑ r : Fin 1024, actBlk x0 x1 x2 r q * actBlk x0 x1 x2 r q := by
  unfold k0_pay3
  refine (shapeCast_ab_1ab_apply _ _ u (1 : Fin 8) q).trans ?_
  refine (concatenate_apply_piece (t := S8x512) (0 : Fin S8x512.rank) _ _ (ix2 (1 : Fin 8) q) 1 (by show (1 : Nat) < 3; omega) S1x512 _ rfl rfl 1 rfl
    (ix2 (0 : Fin 1) q) ?_ rfl).trans ?_
  · intro b hb
    match b with
    | ⟨0, _⟩ => exact absurd rfl hb
    | ⟨1, _⟩ => rfl
  refine (shapeCast_a_1a_apply _ _ (0 : Fin 1) q).trans ?_
  refine (Cert.ColumnSums.laneColSum_apply _ _ _ _ q).trans ?_
  refine Finset.sum_congr rfl fun r _ => ?_
  show (k0_pay1 (F := Ideal) x0 x1 x2 : S1024x512.Idx → EReal) (ix2 r q) * (k0_pay1 (F := Ideal) x0 x1 x2 : S1024x512.Idx → EReal) (ix2 r q) = _
  rw [pay1_apply]

/-- The second payload's rows 2 to 7 hold the zero word. -/
theorem pay3_rest (x0 : Vec Ideal S1024x4096 .f32) (x1 : Vec Ideal S4096x512 .bf16) (x2 : Vec Ideal S1x512 .f32)
    (u : Fin 1) (r : Fin 8) (hr : 2 ≤ r.val) (q : Fin 512) :
    (k0_pay3 (F := Ideal) x0 x1 x2 : S1x8x512.Idx → EReal) (ix3 u r q) = Ideal.ofBits .f32 0x00000000#32 := by
  unfold k0_pay3
  refine (shapeCast_ab_1ab_apply _ _ u r q).trans ?_
  refine (concatenate_apply_piece (t := S8x512) (0 : Fin S8x512.rank) _ _ (ix2 r q) 2 (by show (2 : Nat) < 3; omega) S6x512 _ rfl rfl 2 rfl
    (ix2 (⟨r.val - 2, by have := r.isLt; omega⟩ : Fin 6) q) ?_ ?_).trans ?_
  · intro b hb
    match b with
    | ⟨0, _⟩ => exact absurd rfl hb
    | ⟨1, _⟩ => rfl
  · show 2 + (r.val - 2) = r.val
    omega
  · rfl

/-- The second value the body stores, as a function of the three blocks' contents: row 0 the column sums of the
    activated block, row 1 the column sums of its squares, the other rows the zero word. -/
def statBlk (a : S1024x4096.Idx → EReal) (z : S4096x512.Idx → EReal) (b : S1x512.Idx → EReal) (r : Fin 8) (q : Fin 512) : EReal :=
  if r.val = 0 then ∑ p : Fin 1024, actBlk a z b p q
  else if r.val = 1 then ∑ p : Fin 1024, actBlk a z b p q * actBlk a z b p q
  else Ideal.ofBits .f32 0x00000000#32

/-- The second payload at row `r`, feature `q`. -/
theorem pay3_apply (x0 : Vec Ideal S1024x4096 .f32) (x1 : Vec Ideal S4096x512 .bf16) (x2 : Vec Ideal S1x512 .f32)
    (u : Fin 1) (r : Fin 8) (q : Fin 512) :
    (k0_pay3 (F := Ideal) x0 x1 x2 : S1x8x512.Idx → EReal) (ix3 u r q) = statBlk x0 x1 x2 r q := by
  unfold statBlk
  by_cases h0 : r.val = 0
  · obtain rfl : r = (0 : Fin 8) := Fin.ext h0
    rw [if_pos h0]
    exact pay3_row0 x0 x1 x2 u q
  · rw [if_neg h0]
    by_cases h1 : r.val = 1
    · obtain rfl : r = (1 : Fin 8) := Fin.ext h1
      rw [if_pos h1]
      exact pay3_row1 x0 x1 x2 u q
    · rw [if_neg h1]
      exact pay3_rest x0 x1 x2 u r (by omega) q

end Cert.KernelIdeal.Region0

end
-- ==== Proof.Region0.lean ====
/-
  Region 0 (the propagation kernel) read as values: for any contents `V` the region is entered with, the array its
  first output window leaves is the activated propagation of the adjacency, the features and the bias it read, and the
  array its second output window leaves holds, per block of 1024 nodes, the column sums of that activation (row 0) and
  of its squares (row 1).
-/
import proofs.«176912_g87187836109056_cont_sun_m_854_20_alg».proof.Proof.Gen.KernelIdeal.Frame
import proofs.«176912_g87187836109056_cont_sun_m_854_20_alg».proof.Proof.Spec
import proofs.«176912_g87187836109056_cont_sun_m_854_20_alg».proof.Proof.Region0Pay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region0

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-- The adjacency the region reads (window 0's array), by coordinates. -/
def adjOf (c : Dev nD) : Fin 4096 → Fin 4096 → EReal := fun p k => (V c main_arg1 : S4096x4096.Idx → EReal) (ix2 p k)
/-- The features the region reads (window 1's array), by coordinates. -/
def zOf (c : Dev nD) : Fin 4096 → Fin 512 → EReal := fun k q => (V c main_v63 : S4096x512.Idx → EReal) (ix2 k q)
/-- The bias row the region reads (window 2's array), by its column. -/
def bOf (c : Dev nD) : Fin 512 → EReal := fun q => (V c main_v64 : S1x512.Idx → EReal) (ix2 0 q)

/-! ## The grid and the windows' index maps -/

/-- The grid has four points. -/
theorem hN : cfg0.N = 4 := N_0

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided once over the grid: the adjacency window and both output windows move one block
    down their first axis per point; the feature table and the bias row stay in place. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-! ## The input blocks at a point, as entries of the arrays -/

/-- Point `t`'s adjacency block is rows `1024 t … 1024 t + 1023` of the adjacency. -/
theorem iblk0_0_apply (c : Dev nD) (t : Fin cfg0.N) (ht : t.val < 4) (p : Fin 1024) (k : Fin 4096) :
    (iblk0 (F := Ideal) V c 0 t : S1024x4096.Idx → EReal) (ix2 p k) = adjOf V c (Spec.blockRow ⟨t.val, ht⟩ p) k := by
  obtain ⟨e0, e1, -⟩ := idx_facts t
  unfold iblk0 adjOf
  rw [View.read_apply]
  show (V c main_arg1 : S4096x4096.Idx → EReal) _ = (V c main_arg1 : S4096x4096.Idx → EReal) _
  congr 1
  funext a
  apply Fin.ext
  match a with
  | ⟨0, _⟩ => show win0_0.index t (0 : Fin 2) * 1024 + 1 * p.val = 1024 * t.val + p.val; rw [e0]; omega
  | ⟨1, _⟩ => show win0_0.index t (1 : Fin 2) * 4096 + 1 * k.val = k.val; rw [e1]; omega

/-- Every point's feature block is the whole feature table. -/
theorem iblk0_1_apply (c : Dev nD) (t : Fin cfg0.N) (k : Fin 4096) (q : Fin 512) :
    (iblk0 (F := Ideal) V c 1 t : S4096x512.Idx → EReal) (ix2 k q) = zOf V c k q := by
  obtain ⟨-, -, e0, e1, -⟩ := idx_facts t
  unfold iblk0 zOf
  rw [View.read_apply]
  show (V c main_v63 : S4096x512.Idx → EReal) _ = (V c main_v63 : S4096x512.Idx → EReal) _
  congr 1
  funext a
  apply Fin.ext
  match a with
  | ⟨0, _⟩ => show win0_1.index t (0 : Fin 2) * 4096 + 1 * k.val = k.val; rw [e0]; omega
  | ⟨1, _⟩ => show win0_1.index t (1 : Fin 2) * 512 + 1 * q.val = q.val; rw [e1]; omega

/-- Every point's bias block is the whole bias row. -/
theorem iblk0_2_apply (c : Dev nD) (t : Fin cfg0.N) (q : Fin 512) :
    (iblk0 (F := Ideal) V c 2 t : S1x512.Idx → EReal) (ix2 (0 : Fin 1) q) = bOf V c q := by
  obtain ⟨-, -, -, -, e0, e1, -⟩ := idx_facts t
  unfold iblk0 bOf
  rw [View.read_apply]
  show (V c main_v64 : S1x512.Idx → EReal) _ = (V c main_v64 : S1x512.Idx → EReal) _
  congr 1
  funext a
  apply Fin.ext
  match a with
  | ⟨0, _⟩ => show win0_2.index t (0 : Fin 2) * 1 + 1 * 0 = 0; rw [e0]
  | ⟨1, _⟩ => show win0_2.index t (1 : Fin 2) * 512 + 1 * q.val = q.val; rw [e1]; omega

/-! ## The two output arrays as functions of the arrays the region reads -/

/-- The first output array: the activated propagation at every node and feature. -/
def actArr (c : Dev nD) : S4096x512.Idx → EReal := fun i =>
  Spec.act (adjOf V c) (zOf V c) (bOf V c) ⟨(i 0).val, (i 0).isLt⟩ ⟨(i 1).val, (i 1).isLt⟩

/-- The second output array: per block of 1024 nodes, row 0 the column sums of the activation, row 1 the column sums of
    its squares, rows 2 to 7 the zero word. -/
def statArr (c : Dev nD) : S4x8x512.Idx → EReal := fun i =>
  if (i 1).val = 0 then
    ∑ r : Fin 1024, Spec.act (adjOf V c) (zOf V c) (bOf V c) (Spec.blockRow ⟨(i 0).val, (i 0).isLt⟩ r) ⟨(i 2).val, (i 2).isLt⟩
  else if (i 1).val = 1 then
    ∑ r : Fin 1024, Spec.act (adjOf V c) (zOf V c) (bOf V c) (Spec.blockRow ⟨(i 0).val, (i 0).isLt⟩ r) ⟨(i 2).val, (i 2).isLt⟩
      * Spec.act (adjOf V c) (zOf V c) (bOf V c) (Spec.blockRow ⟨(i 0).val, (i 0).isLt⟩ r) ⟨(i 2).val, (i 2).isLt⟩
  else Ideal.ofBits .f32 0x00000000#32

/-- The activated block of point `t` is the activation at the block's nodes. -/
theorem blk_act (c : Dev nD) (t : Fin cfg0.N) (ht : t.val < 4) (p : Fin 1024) (q : Fin 512) :
    actBlk (iblk0 (F := Ideal) V c 0 t) (iblk0 (F := Ideal) V c 1 t) (iblk0 (F := Ideal) V c 2 t) p q
      = Spec.act (adjOf V c) (zOf V c) (bOf V c) (Spec.blockRow ⟨t.val, ht⟩ p) q := by
  unfold actBlk Spec.act
  refine congrArg (fun x : EReal => max x 0) ?_
  exact congrArg₂ (fun x y : EReal => x + y)
    (Finset.sum_congr rfl fun k _ => congrArg₂ (fun x y : EReal => x * y) (iblk0_0_apply V c t ht p k) (iblk0_1_apply V c t k q))
    (iblk0_2_apply V c t q)

/-- The statistics block of point `t` is block `t` of the second output array. -/
theorem blk_stat (c : Dev nD) (t : Fin cfg0.N) (ht : t.val < 4) (r : Fin 8) (q : Fin 512) :
    statBlk (iblk0 (F := Ideal) V c 0 t) (iblk0 (F := Ideal) V c 1 t) (iblk0 (F := Ideal) V c 2 t) r q
      = statArr V c (ix3 (⟨t.val, ht⟩ : Fin 4) r q) := by
  unfold statBlk statArr
  refine if_congr Iff.rfl (Finset.sum_congr rfl fun p _ => blk_act V c t ht p q)
    (if_congr Iff.rfl (Finset.sum_congr rfl fun p _ => ?_) rfl)
  exact congrArg₂ (fun x y : EReal => x * y) (blk_act V c t ht p q) (blk_act V c t ht p q)

/-! ## What each point writes back -/

/-- Point `t` writes back block `t` of the first output array. -/
theorem flushed3_eq (c : Dev nD) (t : Fin cfg0.N) :
    (dat0 (F := Ideal) V c).flushed 3 t = ((cfg0.win 3).blk t).view.read (Elt Ideal) (actArr V c) := by
  have ht : t.val < 4 := lt_of_lt_of_eq t.isLt hN
  obtain ⟨-, -, -, -, -, -, e0, e1, -⟩ := idx_facts t
  show (cfg0.win 3).cut (grid0.coords t) ((dat0 (F := Ideal) V c).after 3 t) = _
  rw [after0_3]
  unfold out0_3
  rw [View.canon_unit_zero hz2]
  simp only [View.ld_unit_zero (S := S1024x4096) hz2, View.ld_unit_zero (S := S4096x512) hz2, View.ld_unit_zero (S := S1x512) hz2]
  funext j
  obtain ⟨p, q, rfl⟩ : ∃ (p : Fin 1024) (q : Fin 512), j = ix2 p q := ⟨j 0, j 1, eq_ix2 j⟩
  show (k0_pay1 (F := Ideal) (iblk0 (F := Ideal) V c 0 t) (iblk0 (F := Ideal) V c 1 t) (iblk0 (F := Ideal) V c 2 t) : S1024x512.Idx → EReal) (ix2 p q)
      = actArr V c (((cfg0.win 3).blk t).view.emb (ix2 p q))
  refine (pay1_apply (iblk0 (F := Ideal) V c 0 t) (iblk0 (F := Ideal) V c 1 t) (iblk0 (F := Ideal) V c 2 t) p q).trans
    ((blk_act V c t ht p q).trans ?_)
  unfold actArr
  refine congrArg₂ (Spec.act (adjOf V c) (zOf V c) (bOf V c)) (Fin.ext ?_) (Fin.ext ?_)
  · show 1024 * t.val + p.val = win0_3.index t (0 : Fin 2) * 1024 + 1 * p.val
    rw [e0]; omega
  · show q.val = win0_3.index t (1 : Fin 2) * 512 + 1 * q.val
    rw [e1]; omega

/-- Point `t` writes back block `t` of the second output array. -/
theorem flushed4_eq (c : Dev nD) (t : Fin cfg0.N) :
    (dat0 (F := Ideal) V c).flushed 4 t = ((cfg0.win 4).blk t).view.read (Elt Ideal) (statArr V c) := by
  have ht : t.val < 4 := lt_of_lt_of_eq t.isLt hN
  obtain ⟨-, -, -, -, -, -, -, -, e0, e1, e2⟩ := idx_facts t
  show (cfg0.win 4).cut (grid0.coords t) ((dat0 (F := Ideal) V c).after 4 t) = _
  rw [after0_4]
  unfold out0_4
  rw [View.canon_unit_zero hz3]
  simp only [View.ld_unit_zero (S := S1024x4096) hz2, View.ld_unit_zero (S := S4096x512) hz2, View.ld_unit_zero (S := S1x512) hz2]
  funext j
  obtain ⟨u, r, q, rfl⟩ : ∃ (u : Fin 1) (r : Fin 8) (q : Fin 512), j = ix3 u r q := ⟨j 0, j 1, j 2, eq_ix3 j⟩
  show (k0_pay3 (F := Ideal) (iblk0 (F := Ideal) V c 0 t) (iblk0 (F := Ideal) V c 1 t) (iblk0 (F := Ideal) V c 2 t) : S1x8x512.Idx → EReal) (ix3 u r q)
      = statArr V c (((cfg0.win 4).blk t).view.emb (ix3 u r q))
  refine (pay3_apply (iblk0 (F := Ideal) V c 0 t) (iblk0 (F := Ideal) V c 1 t) (iblk0 (F := Ideal) V c 2 t) u r q).trans
    ((blk_stat V c t ht r q).trans (congrArg (statArr V c) ?_))
  have hu : u.val = 0 := by have := u.isLt; omega
  funext a
  apply Fin.ext
  match a with
  | ⟨0, _⟩ => show t.val = win0_4.index t (0 : Fin 3) * 1 + 1 * u.val; rw [e0, hu]; omega
  | ⟨1, _⟩ => show r.val = win0_4.index t (1 : Fin 3) * 8 + 1 * r.val; rw [e1]; omega
  | ⟨2, _⟩ => show q.val = win0_4.index t (2 : Fin 3) * 512 + 1 * q.val; rw [e2]; omega

/-! ## The blocks tile the arrays -/

/-- An index of the first output array is in point `t`'s block iff each coordinate is in the block's range. -/
theorem mem_blk3 (t : Fin cfg0.N) (i : S4096x512.Idx) :
    i ∈ ((cfg0.win 3).blk t).view.set ↔ ∀ a : Fin 2, win0_3.index t a * S1024x512.size a ≤ (i a).val
      ∧ (i a).val < win0_3.index t a * S1024x512.size a + S1024x512.size a := by
  show i ∈ ((View.whole main_v65_0).slice (win0_3.rect t)).set ↔ _
  rw [View.set_slice_whole, Rect.mem_set_unit]
  exact Iff.rfl

/-- An index of the second output array is in point `t`'s block iff each coordinate is in the block's range. -/
theorem mem_blk4 (t : Fin cfg0.N) (i : S4x8x512.Idx) :
    i ∈ ((cfg0.win 4).blk t).view.set ↔ ∀ a : Fin 3, win0_4.index t a * S1x8x512.size a ≤ (i a).val
      ∧ (i a).val < win0_4.index t a * S1x8x512.size a + S1x8x512.size a := by
  show i ∈ ((View.whole main_v65_1).slice (win0_4.rect t)).set ↔ _
  rw [View.set_slice_whole, Rect.mem_set_unit]
  exact Iff.rfl

/-- Row `r` of the first output array is written back by point `r / 1024`. -/
theorem cover3 (i : S4096x512.Idx) :
    ∃ t : Fin cfg0.N, (cfg0.win 3).flush t = true ∧ i ∈ ((cfg0.win 3).blk t).view.set := by
  have h0 : (i 0).val < 4096 := (i 0).isLt
  have h1 : (i 1).val < 512 := (i 1).isLt
  obtain ⟨t, tv⟩ : ∃ t : Fin cfg0.N, t.val = (i 0).val / 1024 := ⟨⟨(i 0).val / 1024, by rw [hN]; omega⟩, rfl⟩
  obtain ⟨-, -, -, -, -, -, e0, e1, -⟩ := idx_facts t
  refine ⟨t, flush0_3 t, ?_⟩
  rw [mem_blk3]
  intro a
  match a with
  | ⟨0, _⟩ =>
    show win0_3.index t (0 : Fin 2) * 1024 ≤ (i 0).val ∧ (i 0).val < win0_3.index t (0 : Fin 2) * 1024 + 1024
    rw [e0, tv]; omega
  | ⟨1, _⟩ =>
    show win0_3.index t (1 : Fin 2) * 512 ≤ (i 1).val ∧ (i 1).val < win0_3.index t (1 : Fin 2) * 512 + 512
    rw [e1]; omega

/-- Block `b` of the second output array is written back by point `b`. -/
theorem cover4 (i : S4x8x512.Idx) :
    ∃ t : Fin cfg0.N, (cfg0.win 4).flush t = true ∧ i ∈ ((cfg0.win 4).blk t).view.set := by
  have h0 : (i 0).val < 4 := (i 0).isLt
  have h1 : (i 1).val < 8 := (i 1).isLt
  have h2 : (i 2).val < 512 := (i 2).isLt
  obtain ⟨t, tv⟩ : ∃ t : Fin cfg0.N, t.val = (i 0).val := ⟨⟨(i 0).val, by rw [hN]; omega⟩, rfl⟩
  obtain ⟨-, -, -, -, -, -, -, -, e0, e1, e2⟩ := idx_facts t
  refine ⟨t, flush0_4 t, ?_⟩
  rw [mem_blk4]
  intro a
  match a with
  | ⟨0, _⟩ =>
    show win0_4.index t (0 : Fin 3) * 1 ≤ (i 0).val ∧ (i 0).val < win0_4.index t (0 : Fin 3) * 1 + 1
    rw [e0, tv]; omega
  | ⟨1, _⟩ =>
    show win0_4.index t (1 : Fin 3) * 8 ≤ (i 1).val ∧ (i 1).val < win0_4.index t (1 : Fin 3) * 8 + 8
    rw [e1]; omega
  | ⟨2, _⟩ =>
    show win0_4.index t (2 : Fin 3) * 512 ≤ (i 2).val ∧ (i 2).val < win0_4.index t (2 : Fin 3) * 512 + 512
    rw [e2]; omega

/-! ## The arrays after the region -/

/-- The first output array after the region is the activated propagation. -/
theorem final3 (c : Dev nD) : (dat0 (F := Ideal) V c).arrAt 3 cfg0.N = actArr V c :=
  (dat0 (F := Ideal) V c).arrAt_eq_of_cover 3 (actArr V c) (fun t _ => flushed3_eq V c t) cover3

/-- The second output array after the region holds the blocks' column sums. -/
theorem final4 (c : Dev nD) : (dat0 (F := Ideal) V c).arrAt 4 cfg0.N = statArr V c :=
  (dat0 (F := Ideal) V c).arrAt_eq_of_cover 4 (statArr V c) (fun t _ => flushed4_eq V c t) cover4

/-- The first output array after the region: the activated propagation. -/
theorem act_at (c : Dev nD) (p : Fin 4096) (q : Fin 512) :
    ((dat0 (F := Ideal) V c).arrAt 3 cfg0.N : S4096x512.Idx → EReal) (ix2 p q)
      = Spec.act (adjOf V c) (zOf V c) (bOf V c) p q := by
  rw [final3]
  rfl

/-- The second output array after the region, row 0 of block `i`: the block's column sum. -/
theorem colsum_at (c : Dev nD) (i : Fin 4) (q : Fin 512) :
    ((dat0 (F := Ideal) V c).arrAt 4 cfg0.N : S4x8x512.Idx → EReal) (ix3 i 0 q)
      = ∑ r : Fin 1024, Spec.act (adjOf V c) (zOf V c) (bOf V c) (Spec.blockRow i r) q := by
  rw [final4]
  exact if_pos rfl

/-- The second output array after the region, row 1 of block `i`: the block's column sum of squares. -/
theorem colsq_at (c : Dev nD) (i : Fin 4) (q : Fin 512) :
    ((dat0 (F := Ideal) V c).arrAt 4 cfg0.N : S4x8x512.Idx → EReal) (ix3 i 1 q)
      = ∑ r : Fin 1024, Spec.act (adjOf V c) (zOf V c) (bOf V c) (Spec.blockRow i r) q
          * Spec.act (adjOf V c) (zOf V c) (bOf V c) (Spec.blockRow i r) q := by
  rw [final4]
  exact (if_neg (show ¬ ((1 : Fin 8).val = 0) by decide)).trans (if_pos rfl)

end Cert.KernelIdeal.Region0

end
-- ==== Proof.Region1.lean ====
/-
  Region 1 (the normalisation kernel) read as values: for any contents `V` the region is entered with, the array its
  output window leaves is, entry by entry, the one-pass batch normalisation of the activation array it read, with the
  four blocks' partial sums taken from rows 0 and 1 of the statistics array it read and the scale and shift rows it read.
-/
import proofs.«176912_g87187836109056_cont_sun_m_854_20_alg».proof.Proof.Gen.KernelIdeal.Frame
import proofs.«176912_g87187836109056_cont_sun_m_854_20_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region1

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-! ## Layout operations and the column sum, read at coordinates -/

/-- A `[a, 1, c]` array cast to `[a, c]` reads, at `(i, j)`, the operand at `(i, 0, j)`. -/
theorem shapeCast_a1c_ac_apply {α : Type} {a c : ℕ} (x : (⟨3, ![a, 1, c]⟩ : Shape).Idx → α)
    (h : (⟨3, ![a, 1, c]⟩ : Shape).ShapeCasts ⟨2, ![a, c]⟩) (i : Fin a) (j : Fin c) :
    shapeCast ⟨2, ![a, c]⟩ x h (ix2 i j) = x (ix3 i (0 : Fin 1) j) :=
  shapeCast_apply x h _ _ (by
    rw [Shape.rowMajor_val_three, Shape.rowMajor_val_two]
    show (i.val * 1 + 0) * c + j.val = i.val * c + j.val
    rw [Nat.mul_one, Nat.add_zero])

/-- The sum down the four rows of a `[4, 512]` array from the zero word, read at column `q`: the sum of the
    column's four entries. -/
theorem colSum4_apply (v : FVec Ideal S4x512 .f32) (hφ : FKind.Formats .f32)
    (hacc : (0x00000000#32 : BitVec 32) = 0x00000000#32) (q : Fin 512) :
    multiReduction (F := Ideal) .add [0] S512 v 0x00000000#32 reduces_S4x512_S512 hφ hacc (ix1 q)
      = ∑ i : Fin 4, v (ix2 i q) := by
  refine (Ideal.multiReduction_add_single v _ reduces_S4x512_S512 hφ hacc (ix1 q)).trans ?_
  refine Finset.sum_congr rfl fun i _ => congrArg v ?_
  funext a
  match a with
  | ⟨0, _⟩ => rfl
  | ⟨1, _⟩ => rfl

/-- The four partial sums of one statistic, loaded as `[4, 1, 512]`, added up at column `q`. -/
theorem statSum_apply (v : FVec Ideal S4x1x512 .f32) (hφ : FKind.Formats .f32)
    (hacc : (0x00000000#32 : BitVec 32) = 0x00000000#32) (q : Fin 512) :
    multiReduction (F := Ideal) .add [0] S512 (shapeCast S4x512 v shapeCasts_S4x1x512_S4x512) 0x00000000#32
        reduces_S4x512_S512 hφ hacc (ix1 q)
      = ∑ i : Fin 4, v (ix3 i (0 : Fin 1) q) := by
  refine (colSum4_apply _ hφ hacc q).trans ?_
  exact Finset.sum_congr rfl fun i _ => shapeCast_a1c_ac_apply v _ i q

/-- A square root of a vector, read at an index. -/
theorem sqrt_apply {s : Shape} {φ : FTy} (a : FVec Ideal s φ) (i : s.Idx) : sqrt a i = Ideal.sqrt (a i) := rfl

/-! ## The body's arithmetic at an entry -/

/-- The body's arithmetic at row `r`, column `q` of the block: the one-pass normalisation of the activation entry by
    the statistics' four partial sums, the scale and the shift at column `q`. -/
theorem pay_at (v0 v5 : Vec Ideal S4x1x512 .f32) (v12 v19 : Vec Ideal S1x512 .f32) (v24 : Vec Ideal S1024x512 .bf16)
    (r : Fin 1024) (q : Fin 512) :
    k1_pay1 (F := Ideal) v0 v5 v12 v19 v24 (ix2 r q)
      = Spec.bnAffine (fun i : Fin 4 => v0 (ix3 i (0 : Fin 1) q)) (fun i : Fin 4 => v5 (ix3 i (0 : Fin 1) q))
          (v12 (ix2 (0 : Fin 1) q)) (v19 (ix2 (0 : Fin 1) q)) (v24 (ix2 r q)) := by
  have e0 := statSum_apply v0 (.inl rfl) rfl q
  have e5 := statSum_apply v5 (.inl rfl) rfl q
  unfold k1_pay1 Spec.bnAffine
  simp only [addf_apply, mulf_apply, subf_apply, divf_apply, extf_apply, broadcast_apply, shapeCast_self, sqrt_apply,
    broadcastTo_1b_ab_apply, shapeCast_a_1a_apply]
  rw [← e0, ← e5]
  rfl

/-! ## From the block to the array -/

/-- The zero offsets of a rank-2 access, spelt as a constant function. -/
theorem hz2 : (![0, 0] : Fin 2 → Nat) = fun _ => 0 := funext fun a => by fin_cases a <;> rfl

/-- The load of row `0` of the statistics block: at `(i, 0, q)` it reads the block at `(i, 0, q)`. -/
theorem ld_row0 (x1 : Vec Ideal S4x8x512 .f32) (i : Fin 4) (q : Fin 512) :
    View.ld x1 r1_0 (ix3 i (0 : Fin 1) q) = x1 (ix3 i (0 : Fin 8) q) := by
  show x1 _ = x1 _
  refine congrArg x1 (funext fun a => Fin.ext ?_)
  match a with
  | ⟨0, _⟩ => show 0 + 1 * i.val = i.val; omega
  | ⟨1, _⟩ => show 0 + 1 * 0 = 0; omega
  | ⟨2, _⟩ => show 0 + 1 * q.val = q.val; omega

/-- The load of row `1` of the statistics block: at `(i, 0, q)` it reads the block at `(i, 1, q)`. -/
theorem ld_row1 (x1 : Vec Ideal S4x8x512 .f32) (i : Fin 4) (q : Fin 512) :
    View.ld x1 r1_1 (ix3 i (0 : Fin 1) q) = x1 (ix3 i (1 : Fin 8) q) := by
  show x1 _ = x1 _
  refine congrArg x1 (funext fun a => Fin.ext ?_)
  match a with
  | ⟨0, _⟩ => show 0 + 1 * i.val = i.val; omega
  | ⟨1, _⟩ => show 1 + 1 * 0 = 1; omega
  | ⟨2, _⟩ => show 0 + 1 * q.val = q.val; omega

/-- What a point leaves in the output's staging buffer, at row `r`, column `q`, from the four input blocks. -/
theorem out_blk_at (x0 : Vec Ideal S1024x512 .bf16) (x1 : Vec Ideal S4x8x512 .f32) (x2 x3 : Vec Ideal S1x512 .f32)
    (r : Fin 1024) (q : Fin 512) :
    out1_4 (F := Ideal) x0 x1 x2 x3 (ix2 r q)
      = Spec.bnAffine (fun i : Fin 4 => x1 (ix3 i (0 : Fin 8) q)) (fun i : Fin 4 => x1 (ix3 i (1 : Fin 8) q))
          (x2 (ix2 (0 : Fin 1) q)) (x3 (ix2 (0 : Fin 1) q)) (x0 (ix2 r q)) := by
  unfold out1_4
  rw [View.canon_unit_zero hz2]
  have l2 : View.ld x2 r1_2 = x2 := View.ld_unit_zero hz2 _ x2
  have l3 : View.ld x3 r1_2 = x3 := View.ld_unit_zero hz2 _ x3
  have l0 : View.ld x0 r1_3 = x0 := View.ld_unit_zero hz2 _ x0
  rw [l2, l3, l0]
  refine (pay_at _ _ _ _ _ r q).trans ?_
  exact congrArg₂
    (fun s1 s2 : Fin 4 → EReal =>
      Spec.bnAffine s1 s2 (x2 (ix2 (0 : Fin 1) q)) (x3 (ix2 (0 : Fin 1) q)) (x0 (ix2 r q)))
    (funext fun i => ld_row0 x1 i q) (funext fun i => ld_row1 x1 i q)

/-- The printed index maps over the four points: the activation and output windows' block `t` is rows
    `1024·t …`; the statistics, scale and shift windows are their whole arrays at every point. -/
theorem idx_facts : ∀ t : Fin cfg1.N, win1_0.index t (0 : Fin 2) = t.val ∧ win1_0.index t (1 : Fin 2) = 0
    ∧ win1_1.index t (0 : Fin 3) = 0 ∧ win1_1.index t (1 : Fin 3) = 0 ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The activation window's block at point `t` is rows `1024·t … 1024·t + 1023` of its array. -/
theorem iblk_act (c : Dev nD) (t : Fin cfg1.N) (r : Fin 1024) (q : Fin 512) (k : S4096x512.Idx)
    (hk0 : (k 0).val = 1024 * t.val + r.val) (hk1 : (k 1).val = q.val) :
    (iblk1 (F := Ideal) V c 0 t : Vec Ideal S1024x512 .bf16) (ix2 r q) = (V c main_v65_0 : S4096x512.Idx → EReal) k := by
  obtain ⟨e0, e1, -⟩ := idx_facts t
  unfold iblk1
  rw [View.read_apply]
  show V c main_v65_0 _ = V c main_v65_0 _
  congr 1
  funext a
  apply Fin.ext
  match a with
  | ⟨0, _⟩ => show win1_0.index t (0 : Fin 2) * 1024 + 1 * r.val = (k 0).val; rw [e0, hk0]; omega
  | ⟨1, _⟩ => show win1_0.index t (1 : Fin 2) * 512 + 1 * q.val = (k 1).val; rw [e1, hk1]; omega

/-- The statistics window's block at every point is its whole array. -/
theorem iblk_stat (c : Dev nD) (t : Fin cfg1.N) :
    (iblk1 (F := Ideal) V c 1 t : Vec Ideal S4x8x512 .f32) = (V c main_v65_1 : S4x8x512.Idx → EReal) := by
  obtain ⟨-, -, e0, e1, e2, -⟩ := idx_facts t
  funext x
  unfold iblk1
  rw [View.read_apply]
  show V c main_v65_1 _ = V c main_v65_1 _
  congr 1
  funext a
  apply Fin.ext
  match a with
  | ⟨0, _⟩ => show win1_1.index t (0 : Fin 3) * 4 + 1 * (x 0).val = (x 0).val; rw [e0]; omega
  | ⟨1, _⟩ => show win1_1.index t (1 : Fin 3) * 8 + 1 * (x 1).val = (x 1).val; rw [e1]; omega
  | ⟨2, _⟩ => show win1_1.index t (2 : Fin 3) * 512 + 1 * (x 2).val = (x 2).val; rw [e2]; omega

/-- The scale window's block at every point is its whole array. -/
theorem iblk_scale (c : Dev nD) (t : Fin cfg1.N) :
    (iblk1 (F := Ideal) V c 2 t : Vec Ideal S1x512 .f32) = (V c main_v66 : S1x512.Idx → EReal) := by
  obtain ⟨-, -, -, -, -, e0, e1, -⟩ := idx_facts t
  funext x
  unfold iblk1
  rw [View.read_apply]
  show V c main_v66 _ = V c main_v66 _
  congr 1
  funext a
  apply Fin.ext
  match a with
  | ⟨0, _⟩ => show win1_2.index t (0 : Fin 2) * 1 + 1 * (x 0).val = (x 0).val; rw [e0]; omega
  | ⟨1, _⟩ => show win1_2.index t (1 : Fin 2) * 512 + 1 * (x 1).val = (x 1).val; rw [e1]; omega

/-- The shift window's block at every point is its whole array. -/
theorem iblk_shift (c : Dev nD) (t : Fin cfg1.N) :
    (iblk1 (F := Ideal) V c 3 t : Vec Ideal S1x512 .f32) = (V c main_v67 : S1x512.Idx → EReal) := by
  obtain ⟨-, -, -, -, -, -, -, e0, e1, -⟩ := idx_facts t
  funext x
  unfold iblk1
  rw [View.read_apply]
  show V c main_v67 _ = V c main_v67 _
  congr 1
  funext a
  apply Fin.ext
  match a with
  | ⟨0, _⟩ => show win1_3.index t (0 : Fin 2) * 1 + 1 * (x 0).val = (x 0).val; rw [e0]; omega
  | ⟨1, _⟩ => show win1_3.index t (1 : Fin 2) * 512 + 1 * (x 1).val = (x 1).val; rw [e1]; omega

/-- The output array as one function of the four arrays the region read, by coordinates. -/
def normAt (c : Dev nD) (p : Fin 4096) (q : Fin 512) : EReal :=
  Spec.bnAffine (fun i : Fin 4 => (V c main_v65_1 : S4x8x512.Idx → EReal) (ix3 i 0 q))
    (fun i : Fin 4 => (V c main_v65_1 : S4x8x512.Idx → EReal) (ix3 i 1 q))
    ((V c main_v66 : S1x512.Idx → EReal) (ix2 0 q)) ((V c main_v67 : S1x512.Idx → EReal) (ix2 0 q))
    ((V c main_v65_0 : S4096x512.Idx → EReal) (ix2 p q))

/-- The same as an array. -/
def normArr (c : Dev nD) : S4096x512.Idx → EReal := fun i => normAt V c (i 0) (i 1)

/-- What point `t` writes back is block `t` of `normArr`. -/
theorem flushed_eq (c : Dev nD) (t : Fin cfg1.N) :
    (dat1 (F := Ideal) V c).flushed 4 t = ((cfg1.win 4).blk t).view.read (Elt Ideal) (normArr V c) := by
  show (cfg1.win 4).cut (grid1.coords t) ((dat1 (F := Ideal) V c).after 4 t) = _
  rw [after1_4]
  obtain ⟨-, -, -, -, -, -, -, -, -, e0, e1⟩ := idx_facts t
  have hN : cfg1.N = 4 := N_1
  have ht : t.val < 4 := hN ▸ t.isLt
  funext j
  obtain ⟨r, q, rfl⟩ : ∃ (r : Fin 1024) (q : Fin 512), j = ix2 r q := ⟨j 0, j 1, eq_ix2 j⟩
  rw [View.read_apply]
  refine (out_blk_at _ _ _ _ r q).trans ?_
  rw [iblk_stat, iblk_scale, iblk_shift,
    iblk_act V c t r q (ix2 (⟨1024 * t.val + r.val, by omega⟩ : Fin 4096) q) rfl rfl]
  show normAt V c ⟨1024 * t.val + r.val, _⟩ q = normAt V c _ _
  congr 1
  · apply Fin.ext
    show 1024 * t.val + r.val = win1_4.index t (0 : Fin 2) * 1024 + 1 * r.val
    rw [e0]; omega
  · apply Fin.ext
    show q.val = win1_4.index t (1 : Fin 2) * 512 + 1 * q.val
    rw [e1]; omega

/-- An index of the array is in point `t`'s block iff each coordinate is in the block's range on its axis. -/
theorem mem_blk (t : Fin cfg1.N) (i : S4096x512.Idx) :
    i ∈ ((cfg1.win 4).blk t).view.set ↔ ∀ a : Fin 2, win1_4.index t a * S1024x512.size a ≤ (i a).val
      ∧ (i a).val < win1_4.index t a * S1024x512.size a + S1024x512.size a := by
  show i ∈ ((View.whole main_v68).slice (win1_4.rect t)).set ↔ _
  rw [View.set_slice_whole, Rect.mem_set_unit]
  exact Iff.rfl

/-- Row `r` is in the block of point `r / 1024`: the four blocks cover the array. -/
theorem cover (i : S4096x512.Idx) :
    ∃ t : Fin cfg1.N, (cfg1.win 4).flush t = true ∧ i ∈ ((cfg1.win 4).blk t).view.set := by
  have h0 : (i 0).val < 4096 := (i 0).isLt
  have h1 : (i 1).val < 512 := (i 1).isLt
  have hN : cfg1.N = 4 := N_1
  have hlt : (i 0).val / 1024 < cfg1.N := by rw [hN]; omega
  obtain ⟨-, -, -, -, -, -, -, -, -, e0, e1⟩ := idx_facts ⟨(i 0).val / 1024, hlt⟩
  refine ⟨⟨(i 0).val / 1024, hlt⟩, flush1_4 _, ?_⟩
  rw [mem_blk]
  intro a
  match a with
  | ⟨0, _⟩ =>
    show win1_4.index ⟨(i 0).val / 1024, hlt⟩ (0 : Fin 2) * 1024 ≤ (i 0).val
      ∧ (i 0).val < win1_4.index ⟨(i 0).val / 1024, hlt⟩ (0 : Fin 2) * 1024 + 1024
    rw [e0]; show (i 0).val / 1024 * 1024 ≤ (i 0).val ∧ (i 0).val < (i 0).val / 1024 * 1024 + 1024; omega
  | ⟨1, _⟩ =>
    show win1_4.index ⟨(i 0).val / 1024, hlt⟩ (1 : Fin 2) * 512 ≤ (i 1).val
      ∧ (i 1).val < win1_4.index ⟨(i 0).val / 1024, hlt⟩ (1 : Fin 2) * 512 + 512
    rw [e1]; omega

/-- The array the output window leaves is `normArr`. -/
theorem arr_eq (c : Dev nD) : (dat1 (F := Ideal) V c).arrAt 4 cfg1.N = normArr V c :=
  (dat1 (F := Ideal) V c).arrAt_eq_of_cover 4 (normArr V c) (fun t _ => flushed_eq V c t) cover

/-- The output array after the region, at node `p`, feature `q`. -/
theorem out_at (c : Dev nD) (p : Fin 4096) (q : Fin 512) :
    ((dat1 (F := Ideal) V c).arrAt 4 cfg1.N : S4096x512.Idx → EReal) (ix2 p q)
      = Spec.bnAffine (fun i : Fin 4 => (V c main_v65_1 : S4x8x512.Idx → EReal) (ix3 i 0 q))
          (fun i : Fin 4 => (V c main_v65_1 : S4x8x512.Idx → EReal) (ix3 i 1 q))
          ((V c main_v66 : S1x512.Idx → EReal) (ix2 0 q)) ((V c main_v67 : S1x512.Idx → EReal) (ix2 0 q))
          ((V c main_v65_0 : S4096x512.Idx → EReal) (ix2 p q)) := by
  rw [arr_eq]
  rfl

end Cert.KernelIdeal.Region1

end
-- ==== Proof.RefTail.lean ====
/-
  The reference's third layer read at an index: with the features `z` (what its first two layers and the third
  feature product leave) kept closed, its result at node `p`, feature `q` is the textbook batch normalisation of
  the activated propagation's column `q`.
-/
import proofs.«176912_g87187836109056_cont_sun_m_854_20_alg».proof.Proof.ReadP
import proofs.«176912_g87187836109056_cont_sun_m_854_20_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.ReferenceIdeal.RefTail

open Cert.ReferenceIdeal Cert.ReferenceIdeal.Gen Cert.ReferenceIdeal.Read Idealize.ShloMosaic Idealize.ShloMosaic.TcCoe Idealize.ShloMosaic.ValueIdx Idealize.SL.Sem

/-- The adjacency by coordinates. -/
def adjOf (x1 : (⟨S4096x4096, .f32⟩ : BufTy).Contents (Elt Ideal)) : Fin 4096 → Fin 4096 → EReal := fun p k => x1 (ix2 p k)
/-- A feature table by coordinates. -/
def tabOf (z : (⟨S4096x512, .f32⟩ : BufTy).Contents (Elt Ideal)) : Fin 4096 → Fin 512 → EReal := fun k q => z (ix2 k q)
/-- A vector by its coordinate. -/
def vecOf (v : (⟨S512, .f32⟩ : BufTy).Contents (Elt Ideal)) : Fin 512 → EReal := fun q => v (ix1 q)

section Stages

variable (x0 : (⟨S4096x512, .f32⟩ : BufTy).Contents (Elt Ideal)) (x1 : (⟨S4096x4096, .f32⟩ : BufTy).Contents (Elt Ideal)) (x2 : (⟨S512x512, .f32⟩ : BufTy).Contents (Elt Ideal)) (x3 x4 x5 : (⟨S512, .f32⟩ : BufTy).Contents (Elt Ideal)) (x6 : (⟨S512x512, .f32⟩ : BufTy).Contents (Elt Ideal)) (x7 x8 x9 : (⟨S512, .f32⟩ : BufTy).Contents (Elt Ideal)) (x10 : (⟨S512x512, .f32⟩ : BufTy).Contents (Elt Ideal)) (x11 : (⟨S512, .f32⟩ : BufTy).Contents (Elt Ideal))

/-- The column of activated propagations the batch normalisation is taken over: feature `q` at every node. -/
def col (q : Fin 512) : Fin 4096 → EReal := fun r =>
  Spec.act (adjOf x1) (tabOf (val_main_v62 (F := Ideal) x0 x1 x2 x3 x4 x5 x6 x7 x8 x9 x10)) (vecOf x11) r q

/-- The column's mean. -/
def colMean (q : Fin 512) : EReal :=
  Ideal.div (∑ r : Fin 4096, col x0 x1 x2 x3 x4 x5 x6 x7 x8 x9 x10 x11 q r) Spec.n4096

/-- The column's variance. -/
def colVar (q : Fin 512) : EReal :=
  Ideal.div (∑ r : Fin 4096, (col x0 x1 x2 x3 x4 x5 x6 x7 x8 x9 x10 x11 q r - colMean x0 x1 x2 x3 x4 x5 x6 x7 x8 x9 x10 x11 q)
      * (col x0 x1 x2 x3 x4 x5 x6 x7 x8 x9 x10 x11 q r - colMean x0 x1 x2 x3 x4 x5 x6 x7 x8 x9 x10 x11 q)) Spec.n4096

/-- The activated propagation at node `r`, feature `q`: the adjacency's row `r` against the features' column `q`, plus
    the bias, cut off at zero. -/
theorem act_at (r : Fin 4096) (q : Fin 512) :
    val_main_v67 (F := Ideal) x0 x1 x2 x3 x4 x5 x6 x7 x8 x9 x10 x11 (ix2 r q) = col x0 x1 x2 x3 x4 x5 x6 x7 x8 x9 x10 x11 q r := by
  have hl : ∀ k : Fin 4096, (lidx_main_v63 (ix2 r q) k : S4096x4096.Idx) = ix2 r k := fun k =>
    funext fun a => Fin.ext (by match a with | ⟨0, _⟩ => rfl | ⟨1, _⟩ => rfl)
  have hr : ∀ k : Fin 4096, (ridx_main_v63 (ix2 r q) k : S4096x512.Idx) = ix2 k q := fun k =>
    funext fun a => Fin.ext (by match a with | ⟨0, _⟩ => rfl | ⟨1, _⟩ => rfl)
  have hb : (idx_main_v64 (idx_main_v65 (ix2 r q)) : S512.Idx) = ix1 q :=
    funext fun a => Fin.ext (by match a with | ⟨0, _⟩ => rfl)
  rw [val_main_v67_apply, val_main_v66_apply, val_main_v63_apply, val_main_v65_apply, val_main_v64_apply,
    val_main_call2_v0_apply, val_main_call2_cst_apply]
  simp only [hl, hr, hb, Ideal.addf_def, Ideal.maximumf_def, Ideal.ofBits_def, Ideal.ofBits_zero_f32]
  rfl

/-- The mean of column `q`: the sum over the nodes, from zero, divided by 4096. -/
theorem mean_at (q : Fin 512) :
    val_main_v70 (F := Ideal) x0 x1 x2 x3 x4 x5 x6 x7 x8 x9 x10 x11 (ix1 q) = colMean x0 x1 x2 x3 x4 x5 x6 x7 x8 x9 x10 x11 q := by
  have hi : ∀ k : Fin 4096, (idx_main_v68 (ix1 q) k : S4096x512.Idx) = ix2 k q := fun k =>
    funext fun a => Fin.ext (by match a with | ⟨0, _⟩ => rfl | ⟨1, _⟩ => rfl)
  rw [val_main_v70_apply, val_main_v68_apply, val_main_v69_apply, val_main_cst_9_apply, val_main_cst_10_apply]
  simp only [hi, act_at, Ideal.hostDivf_def, Ideal.ofBits_def, Ideal.ofBits_zero_f32, zero_add]
  rfl

/-- The variance of column `q`: the squared deviations from the mean summed over the nodes, from zero, divided by 4096. -/
theorem var_at (q : Fin 512) :
    val_main_v77 (F := Ideal) x0 x1 x2 x3 x4 x5 x6 x7 x8 x9 x10 x11 (ix1 q) = colVar x0 x1 x2 x3 x4 x5 x6 x7 x8 x9 x10 x11 q := by
  have hi : ∀ k : Fin 4096, (idx_main_v75 (ix1 q) k : S4096x512.Idx) = ix2 k q := fun k =>
    funext fun a => Fin.ext (by match a with | ⟨0, _⟩ => rfl | ⟨1, _⟩ => rfl)
  have hm : ∀ k : Fin 4096, (idx_main_v71 (idx_main_v72 (ix2 k q)) : S512.Idx) = ix1 q := fun k =>
    funext fun a => Fin.ext (by match a with | ⟨0, _⟩ => rfl)
  rw [val_main_v77_apply, val_main_v75_apply, val_main_v76_apply, val_main_cst_11_apply, val_main_cst_12_apply]
  simp only [hi, val_main_v74_apply, val_main_v73_apply, val_main_v72_apply, val_main_v71_apply, hm, act_at, mean_at,
    Ideal.hostDivf_def, Ideal.mulf_def, Ideal.subf_def, Ideal.ofBits_def, Ideal.ofBits_zero_f32, zero_add]
  rfl

end Stages

/-- The reference's result at node `p`, feature `q`. -/
theorem ref_at (x0 : (⟨S4096x512, .f32⟩ : BufTy).Contents (Elt Ideal)) (x1 : (⟨S4096x4096, .f32⟩ : BufTy).Contents (Elt Ideal)) (x2 : (⟨S512x512, .f32⟩ : BufTy).Contents (Elt Ideal)) (x3 x4 x5 : (⟨S512, .f32⟩ : BufTy).Contents (Elt Ideal)) (x6 : (⟨S512x512, .f32⟩ : BufTy).Contents (Elt Ideal)) (x7 x8 x9 : (⟨S512, .f32⟩ : BufTy).Contents (Elt Ideal)) (x10 : (⟨S512x512, .f32⟩ : BufTy).Contents (Elt Ideal)) (x11 x12 x13 : (⟨S512, .f32⟩ : BufTy).Contents (Elt Ideal)) (p : Fin 4096) (q : Fin 512) :
    val_main_v92 (F := Ideal) x0 x1 x2 x3 x4 x5 x6 x7 x8 x9 x10 x11 x12 x13 (ix2 p q)
      = Spec.bnRef (fun r : Fin 4096 => Spec.act (adjOf x1) (tabOf (val_main_v62 (F := Ideal) x0 x1 x2 x3 x4 x5 x6 x7 x8 x9 x10)) (vecOf x11) r q)
          (x12 (ix1 q)) (x13 (ix1 q))
          (Spec.act (adjOf x1) (tabOf (val_main_v62 (F := Ideal) x0 x1 x2 x3 x4 x5 x6 x7 x8 x9 x10)) (vecOf x11) p q) := by
  have hm : (idx_main_v78 (idx_main_v79 (ix2 p q)) : S512.Idx) = ix1 q :=
    funext fun a => Fin.ext (by match a with | ⟨0, _⟩ => rfl)
  have hg : (idx_main_v81 (idx_main_v82 (ix2 p q)) : S512.Idx) = ix1 q :=
    funext fun a => Fin.ext (by match a with | ⟨0, _⟩ => rfl)
  have hs : (idx_main_v87 (idx_main_v88 (ix2 p q)) : S512.Idx) = ix1 q :=
    funext fun a => Fin.ext (by match a with | ⟨0, _⟩ => rfl)
  have hb : (idx_main_v90 (idx_main_v91 (ix2 p q)) : S512.Idx) = ix1 q :=
    funext fun a => Fin.ext (by match a with | ⟨0, _⟩ => rfl)
  rw [val_main_v92_apply, val_main_v89_apply, val_main_v83_apply, val_main_v82_apply, val_main_v81_apply,
    val_main_v80_apply, val_main_v79_apply, val_main_v78_apply, val_main_v88_apply, val_main_v87_apply,
    val_main_v86_apply, val_main_v85_apply, val_main_v84_apply, val_main_cst_13_apply, val_main_v91_apply,
    val_main_v90_apply, hm, hg, hs, hb, act_at, mean_at, var_at]
  simp only [Ideal.addf_def, Ideal.hostDivf_def, Ideal.mulf_def, Ideal.subf_def, Ideal.hostUnary_sqrt_def, Ideal.ofBits_def]
  rfl

end Cert.ReferenceIdeal.RefTail

end
-- ==== Proof.KernelValue.lean ====
/-
  The idealized kernel program's result, entry by entry, from the two regions' values and the host stretches between
  them: the result buffer is the one-pass batch normalisation whose partial sums are the first region's block sums of
  the activation `act adj z b3` and of its squares, whose scale and shift are the last two arguments, and whose entry
  is the activation itself; and `adj`, `z`, `b3` are the adjacency argument, the reference's feature table of the
  same arguments, and the third bias argument.
-/
import proofs.«176912_g87187836109056_cont_sun_m_854_20_alg».proof.Proof.HostSide
import proofs.«176912_g87187836109056_cont_sun_m_854_20_alg».proof.Proof.Region0
import proofs.«176912_g87187836109056_cont_sun_m_854_20_alg».proof.Proof.Region1
import proofs.«176912_g87187836109056_cont_sun_m_854_20_alg».proof.Proof.RefTail

set_option maxRecDepth 16384

noncomputable section

open scoped BigOperators

namespace Cert.KernelValue

open Cert.KernelIdeal.Gen Idealize.ShloMosaic Idealize.ShloMosaic.TcCoe Idealize.ShloMosaic.ValueIdx Idealize.SL.Sem
open Cert.ReferenceIdeal.Read

variable (m : (ℓ : Loc Cert.KernelIdeal.nD Cert.KernelIdeal.τ Cert.KernelIdeal.sig) → Buf (Elt Ideal) ℓ) (ρ : Dev Cert.KernelIdeal.nD → PrngReg)

/-- The first region reads the adjacency argument. -/
theorem adj_read (c : Dev Cert.KernelIdeal.nD) :
    Cert.KernelIdeal.Region0.adjOf (V5 m ρ) c = Cert.ReferenceIdeal.RefTail.adjOf (m ((c.tc : Thread Cert.KernelIdeal.nD Cert.KernelIdeal.τ).loc Cert.KernelIdeal.main_arg1)) := by
  funext a k
  show (W5 m ρ c (Proc.devRef .tc Cert.KernelIdeal.main_arg1) : Cert.KernelIdeal.S4096x4096.Idx → EReal) (ix2 a k) = _
  rw [Cert.HostSide.adj_eq m ρ c]; rfl

/-- The first region reads the reference's feature table of the same arguments. -/
theorem z_read (c : Dev Cert.KernelIdeal.nD) :
    Cert.KernelIdeal.Region0.zOf (V5 m ρ) c
      = Cert.ReferenceIdeal.RefTail.tabOf (val_main_v62 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) := by
  funext k j
  show (W5 m ρ c (Proc.devRef .tc Cert.KernelIdeal.main_v63) : Cert.KernelIdeal.S4096x512.Idx → EReal) (ix2 k j) = _
  rw [Cert.HostSide.z_eq m ρ c]; rfl

/-- The first region reads the third bias argument. -/
theorem b_read (c : Dev Cert.KernelIdeal.nD) :
    Cert.KernelIdeal.Region0.bOf (V5 m ρ) c = Cert.ReferenceIdeal.RefTail.vecOf (m ((c.tc : Thread Cert.KernelIdeal.nD Cert.KernelIdeal.τ).loc Cert.KernelIdeal.main_arg11)) := by
  funext j
  exact Cert.HostSide.bias_eq m ρ c j

/-- The statistics array the second region reads, row 0 of block `i`: the block's column sum of the activation. -/
theorem stat0_at (c : Dev Cert.KernelIdeal.nD) (i : Fin 4) (q : Fin 512) :
    (V7 m ρ c Cert.KernelIdeal.main_v65_1 : Cert.KernelIdeal.S4x8x512.Idx → EReal) (ix3 i 0 q)
      = ∑ r : Fin 1024, Spec.act (Cert.KernelIdeal.Region0.adjOf (V5 m ρ) c) (Cert.KernelIdeal.Region0.zOf (V5 m ρ) c) (Cert.KernelIdeal.Region0.bOf (V5 m ρ) c) (Spec.blockRow i r) q := by
  have s : (V7 m ρ c Cert.KernelIdeal.main_v65_1 : Cert.KernelIdeal.S4x8x512.Idx → EReal) (ix3 i 0 q)
      = ((dat0 (V5 m ρ) c).arrAt 4 Cert.KernelIdeal.cfg0.N : Cert.KernelIdeal.S4x8x512.Idx → EReal) (ix3 i 0 q) :=
    congrFun (Cert.HostSide.stats_arr m ρ c) _
  rw [s]
  exact Cert.KernelIdeal.Region0.colsum_at (V5 m ρ) c i q

/-- The statistics array the second region reads, row 1 of block `i`: the block's column sum of squares. -/
theorem stat1_at (c : Dev Cert.KernelIdeal.nD) (i : Fin 4) (q : Fin 512) :
    (V7 m ρ c Cert.KernelIdeal.main_v65_1 : Cert.KernelIdeal.S4x8x512.Idx → EReal) (ix3 i 1 q)
      = ∑ r : Fin 1024, Spec.act (Cert.KernelIdeal.Region0.adjOf (V5 m ρ) c) (Cert.KernelIdeal.Region0.zOf (V5 m ρ) c) (Cert.KernelIdeal.Region0.bOf (V5 m ρ) c) (Spec.blockRow i r) q * Spec.act (Cert.KernelIdeal.Region0.adjOf (V5 m ρ) c) (Cert.KernelIdeal.Region0.zOf (V5 m ρ) c) (Cert.KernelIdeal.Region0.bOf (V5 m ρ) c) (Spec.blockRow i r) q := by
  have s : (V7 m ρ c Cert.KernelIdeal.main_v65_1 : Cert.KernelIdeal.S4x8x512.Idx → EReal) (ix3 i 1 q)
      = ((dat0 (V5 m ρ) c).arrAt 4 Cert.KernelIdeal.cfg0.N : Cert.KernelIdeal.S4x8x512.Idx → EReal) (ix3 i 1 q) :=
    congrFun (Cert.HostSide.stats_arr m ρ c) _
  rw [s]
  exact Cert.KernelIdeal.Region0.colsq_at (V5 m ρ) c i q

/-- The activation array the second region reads. -/
theorem act_read (c : Dev Cert.KernelIdeal.nD) (p : Fin 4096) (q : Fin 512) :
    (V7 m ρ c Cert.KernelIdeal.main_v65_0 : Cert.KernelIdeal.S4096x512.Idx → EReal) (ix2 p q) = Spec.act (Cert.KernelIdeal.Region0.adjOf (V5 m ρ) c) (Cert.KernelIdeal.Region0.zOf (V5 m ρ) c) (Cert.KernelIdeal.Region0.bOf (V5 m ρ) c) p q := by
  have s : (V7 m ρ c Cert.KernelIdeal.main_v65_0 : Cert.KernelIdeal.S4096x512.Idx → EReal) (ix2 p q)
      = ((dat0 (V5 m ρ) c).arrAt 3 Cert.KernelIdeal.cfg0.N : Cert.KernelIdeal.S4096x512.Idx → EReal) (ix2 p q) :=
    congrFun (Cert.HostSide.act_arr m ρ c) _
  rw [s]
  exact Cert.KernelIdeal.Region0.act_at (V5 m ρ) c p q

/-- The scale row the second region reads is the scale argument. -/
theorem scale_read (c : Dev Cert.KernelIdeal.nD) (q : Fin 512) :
    (V7 m ρ c Cert.KernelIdeal.main_v66 : Cert.KernelIdeal.S1x512.Idx → EReal) (ix2 0 q)
      = ((m ((c.tc : Thread Cert.KernelIdeal.nD Cert.KernelIdeal.τ).loc Cert.KernelIdeal.main_arg12)) : Cert.KernelIdeal.S512.Idx → EReal) (ix1 q) :=
  Cert.HostSide.scale_eq m ρ c q

/-- The shift row the second region reads is the shift argument. -/
theorem shift_read (c : Dev Cert.KernelIdeal.nD) (q : Fin 512) :
    (V7 m ρ c Cert.KernelIdeal.main_v67 : Cert.KernelIdeal.S1x512.Idx → EReal) (ix2 0 q)
      = ((m ((c.tc : Thread Cert.KernelIdeal.nD Cert.KernelIdeal.τ).loc Cert.KernelIdeal.main_arg13)) : Cert.KernelIdeal.S512.Idx → EReal) (ix1 q) :=
  Cert.HostSide.shift_eq m ρ c q

/-- The result buffer, entry by entry, as the second region leaves it. -/
theorem out_read (c : Dev Cert.KernelIdeal.nD) (p : Fin 4096) (q : Fin 512) :
    (W8 m ρ c (Proc.devRef .tc Cert.KernelIdeal.main_v68) : Cert.KernelIdeal.S4096x512.Idx → EReal) (ix2 p q)
      = Spec.bnAffine (fun i : Fin 4 => (V7 m ρ c Cert.KernelIdeal.main_v65_1 : Cert.KernelIdeal.S4x8x512.Idx → EReal) (ix3 i 0 q))
          (fun i : Fin 4 => (V7 m ρ c Cert.KernelIdeal.main_v65_1 : Cert.KernelIdeal.S4x8x512.Idx → EReal) (ix3 i 1 q))
          ((V7 m ρ c Cert.KernelIdeal.main_v66 : Cert.KernelIdeal.S1x512.Idx → EReal) (ix2 0 q))
          ((V7 m ρ c Cert.KernelIdeal.main_v67 : Cert.KernelIdeal.S1x512.Idx → EReal) (ix2 0 q))
          ((V7 m ρ c Cert.KernelIdeal.main_v65_0 : Cert.KernelIdeal.S4096x512.Idx → EReal) (ix2 p q)) := by
  have s : (W8 m ρ c (Proc.devRef .tc Cert.KernelIdeal.main_v68) : Cert.KernelIdeal.S4096x512.Idx → EReal) (ix2 p q)
      = ((dat1 (V7 m ρ) c).arrAt 4 Cert.KernelIdeal.cfg1.N : Cert.KernelIdeal.S4096x512.Idx → EReal) (ix2 p q) :=
    congrFun (Cert.HostSide.out_arr m ρ c) _
  rw [s]
  exact Cert.KernelIdeal.Region1.out_at (V7 m ρ) c p q

end Cert.KernelValue

end
-- ==== Proof.Consts.lean ====
/-
  The three float words the programs spell, as the extended reals they denote: the zero word is 0, the word of 4096
  is the real 4096, and the word nearest 10⁻⁵ is the positive real 10995116 / 2⁴⁰.
-/
import proofs.«176912_g87187836109056_cont_sun_m_854_20_alg».proof.Proof.Spec
import Mathlib.Tactic

noncomputable section

namespace Cert.Consts

open Idealize.ShloMosaic

/-- The zero word denotes 0. -/
theorem zero_eq : Ideal.ofBits .f32 0x00000000#32 = 0 := by
  simp [Ideal.ofBits, Ideal.ieee]

/-- The word 0x45800000 denotes the real 4096. -/
theorem n4096_eq : Spec.n4096 = ((4096 : ℝ) : EReal) := by
  simp [Ideal.ofBits, Ideal.ieee, -EReal.coe_mul]; norm_num

/-- The word 0x3727C5AC denotes the real 10995116 / 2⁴⁰. -/
theorem eps_val : Spec.eps = (((10995116 : ℝ) / 2 ^ 40 : ℝ) : EReal) := by
  simp [Ideal.ofBits, Ideal.ieee, -EReal.coe_mul]; norm_num

/-- The word 0x3727C5AC denotes a positive real. -/
theorem eps_eq : ∃ e : ℝ, 0 < e ∧ Spec.eps = (e : EReal) :=
  ⟨(10995116 : ℝ) / 2 ^ 40, by positivity, eps_val⟩

end Cert.Consts

end
-- ==== Proof.LibBatchNormAffine.lean ====
/-
  Batch normalisation over the rows of a matrix, in the two spellings a fused kernel and a textbook reference use,
  over the extended reals at finite data.

  A column of a matrix has entries h i (i ranging over a finite row type ι with n rows), to which a bias b is added.
  The textbook form subtracts the column mean of (h + b), divides by the square root of the (biased) column variance of
  (h + b) plus ε, multiplies by γ and adds β.  A fused kernel instead keeps only the two column sums
  cs = ∑ h and css = ∑ h², and applies ONE affine map  h ↦ h·scale + shift  with
      μ     = cs / n + b
      E[y²] = (css + 2·b·cs) / n + b·b
      var   = E[y²] − μ·μ
      scale = γ · rsqrt (var + ε)
      shift = (b − μ) · scale + β.
  Over the reals the two are one function: the mean of (h + b) is cs / n + b, the variance of (h + b) is
  css / n − (cs / n)² (the bias cancels), b − μ = −cs / n, and x / √v = x · rsqrt v for v > 0.
  At the ideal instance every entry is an extended real; the statements below are for entries that are coercions of
  reals (finite data), where every operation involved (the quotient by n ≠ 0, the square root of a nonnegative number,
  the reciprocal square root of a positive number) stays among the reals.
-/
import Idealize.ShloMosaic.PureOps.Ideal
import Mathlib.Tactic

noncomputable section

open scoped BigOperators

namespace Idealize.ShloMosaic.LibBatchNormAffine

open Idealize.ShloMosaic

variable {ι : Type*} [Fintype ι]

/-! ## The ideal operations at real arguments -/

/-- The coercion from the reals commutes with a finite sum. -/
theorem coe_sum {κ : Type*} (s : Finset κ) (f : κ → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The ideal quotient of two reals, the divisor not zero, is the real quotient. -/
theorem div_coe_coe (x : ℝ) {y : ℝ} (hy : y ≠ 0) :
    Ideal.div (x : EReal) (y : EReal) = ((x / y : ℝ) : EReal) := by
  rw [Ideal.div_coe hy, ← EReal.coe_mul, mul_one_div]

/-- The ideal square root of a nonnegative real is the real square root. -/
theorem sqrt_coe_of_nonneg {x : ℝ} (hx : 0 ≤ x) : Ideal.sqrt (x : EReal) = (Real.sqrt x : EReal) := by
  show (if x < 0 then (⊥ : EReal) else (Real.sqrt x : EReal)) = _
  rw [if_neg (not_lt.2 hx)]

/-- The ideal reciprocal square root of a positive real is the inverse of the real square root. -/
theorem rsqrt_coe_of_pos {x : ℝ} (hx : 0 < x) :
    Ideal.rsqrt (x : EReal) = (((Real.sqrt x)⁻¹ : ℝ) : EReal) := by
  show (if x < 0 then (⊥ : EReal) else if x = 0 then ⊤ else (((Real.sqrt x)⁻¹ : ℝ) : EReal)) = _
  rw [if_neg (not_lt.2 hx.le), if_neg (ne_of_gt hx)]

/-- A contraction of real factors is the real contraction: a matrix product of finite matrices is finite, entry by
    entry. -/
theorem dot_coe {κ : Type*} (s : Finset κ) (a c : κ → ℝ) :
    ∑ k ∈ s, (a k : EReal) * (c k : EReal) = ((∑ k ∈ s, a k * c k : ℝ) : EReal) := by
  rw [coe_sum]
  exact Finset.sum_congr rfl fun k _ => (EReal.coe_mul _ _).symm

/-- Dividing by the square root of a positive real is multiplying by its reciprocal square root. -/
theorem div_sqrt_eq_mul_rsqrt (x : ℝ) {v : ℝ} (hv : 0 < v) :
    Ideal.div (x : EReal) (Ideal.sqrt (v : EReal)) = (x : EReal) * Ideal.rsqrt (v : EReal) := by
  rw [sqrt_coe_of_nonneg hv.le, rsqrt_coe_of_pos hv, div_coe_coe _ (ne_of_gt (Real.sqrt_pos.2 hv)),
    ← EReal.coe_mul, div_eq_mul_inv]

/-! ## Over the reals -/

/-- The column mean of h + b is the column mean of h, plus b. -/
theorem mean_add (h : ι → ℝ) (b n : ℝ) (hn : (Fintype.card ι : ℝ) = n) (hpos : 0 < n) :
    (∑ j, (h j + b)) / n = (∑ j, h j) / n + b := by
  have hne : n ≠ 0 := ne_of_gt hpos
  rw [Finset.sum_add_distrib, Finset.sum_const, Finset.card_univ, nsmul_eq_mul, hn]
  field_simp

/-- The variance a kernel reads off the two column sums, E[y²] − μ², is the centred variance of h + b
    (and the bias b cancels out of it). -/
theorem var_of_sums (h : ι → ℝ) (b n : ℝ) (hn : (Fintype.card ι : ℝ) = n) (hpos : 0 < n) :
    ((∑ i, h i * h i) + 2 * b * (∑ i, h i)) / n + b * b - ((∑ i, h i) / n + b) * ((∑ i, h i) / n + b)
      = (∑ i, ((h i + b) - (∑ j, (h j + b)) / n) * ((h i + b) - (∑ j, (h j + b)) / n)) / n := by
  have hne : n ≠ 0 := ne_of_gt hpos
  rw [mean_add h b n hn hpos]
  have hsq : ∀ i, ((h i + b) - ((∑ j, h j) / n + b)) * ((h i + b) - ((∑ j, h j) / n + b))
      = h i * h i - 2 * ((∑ j, h j) / n) * h i + ((∑ j, h j) / n) * ((∑ j, h j) / n) := by
    intro i; ring
  simp only [hsq]
  rw [Finset.sum_add_distrib, Finset.sum_sub_distrib, ← Finset.mul_sum, Finset.sum_const, Finset.card_univ,
    nsmul_eq_mul, hn]
  field_simp
  ring

/-- The plain form of the same: the mean of the squares less the square of the mean is the centred variance. -/
theorem var_of_sums_plain (h : ι → ℝ) (n : ℝ) (hn : (Fintype.card ι : ℝ) = n) (hpos : 0 < n) :
    (∑ i, h i * h i) / n - ((∑ i, h i) / n) * ((∑ i, h i) / n)
      = (∑ i, (h i - (∑ j, h j) / n) * (h i - (∑ j, h j) / n)) / n := by
  have hne : n ≠ 0 := ne_of_gt hpos
  have hsq : ∀ i, (h i - (∑ j, h j) / n) * (h i - (∑ j, h j) / n)
      = h i * h i - 2 * ((∑ j, h j) / n) * h i + ((∑ j, h j) / n) * ((∑ j, h j) / n) := by
    intro i; ring
  simp only [hsq]
  rw [Finset.sum_add_distrib, Finset.sum_sub_distrib, ← Finset.mul_sum, Finset.sum_const, Finset.card_univ,
    nsmul_eq_mul, hn]
  field_simp
  ring

/-- Adding one number b to every entry of a column leaves its centred deviations, hence its variance, unchanged. -/
theorem centred_add (h : ι → ℝ) (b n : ℝ) (hn : (Fintype.card ι : ℝ) = n) (hpos : 0 < n) (i : ι) :
    (h i + b) - (∑ j, (h j + b)) / n = h i - (∑ j, h j) / n := by
  rw [mean_add h b n hn hpos]; ring

/-- The centred variance is nonnegative. -/
theorem centred_var_nonneg (y : ι → ℝ) (n : ℝ) (hpos : 0 < n) :
    0 ≤ (∑ i, (y i - (∑ j, y j) / n) * (y i - (∑ j, y j) / n)) / n :=
  div_nonneg (Finset.sum_nonneg fun i _ => mul_self_nonneg _) hpos.le

/-- The textbook form over the reals: centre, divide by the deviation, scale, shift. -/
def refReal (y : ι → ℝ) (g be n ε : ℝ) (r : ι) : ℝ :=
  (y r - (∑ j, y j) / n)
    / Real.sqrt ((∑ i, (y i - (∑ j, y j) / n) * (y i - (∑ j, y j) / n)) / n + ε) * g + be

/-- The fused scale over the reals, from the two column sums. -/
def scaleReal (cs css b g n ε : ℝ) : ℝ :=
  g * (Real.sqrt ((css + 2 * b * cs) / n + b * b - (cs / n + b) * (cs / n + b) + ε))⁻¹

/-- The fused shift over the reals. -/
def shiftReal (cs css b g be n ε : ℝ) : ℝ :=
  (b - (cs / n + b)) * scaleReal cs css b g n ε + be

/-- Over the reals the affine form is the textbook form. -/
theorem affine_eq_refReal (h : ι → ℝ) (b g be n ε : ℝ) (hn : (Fintype.card ι : ℝ) = n) (hpos : 0 < n) (r : ι) :
    h r * scaleReal (∑ i, h i) (∑ i, h i * h i) b g n ε + shiftReal (∑ i, h i) (∑ i, h i * h i) b g be n ε
      = refReal (fun i => h i + b) g be n ε r := by
  unfold shiftReal scaleReal refReal
  rw [var_of_sums h b n hn hpos, mean_add h b n hn hpos]
  rw [div_eq_mul_inv]
  ring

/-! ## Over the extended reals, at finite data -/

/-- The fused scale as the kernel computes it, operation by operation. -/
def scale (cs css b g n ε : EReal) : EReal :=
  g * Ideal.rsqrt
    ((Ideal.div (css + ((2 : ℝ) : EReal) * b * cs) n + b * b) - (Ideal.div cs n + b) * (Ideal.div cs n + b) + ε)

/-- The fused shift as the kernel computes it. -/
def shift (cs css b g be n ε : EReal) : EReal :=
  (b - (Ideal.div cs n + b)) * scale cs css b g n ε + be

/-- The textbook form as the reference computes it, operation by operation: the mean by a sum and a quotient, the
    variance by a second sum of squared deviations and a quotient, then the quotient by the square root. -/
def ref (y : ι → EReal) (g be n ε : EReal) (r : ι) : EReal :=
  Ideal.div (y r - Ideal.div (∑ j, y j) n)
    (Ideal.sqrt (Ideal.div (∑ i, (y i - Ideal.div (∑ j, y j) n) * (y i - Ideal.div (∑ j, y j) n)) n + ε)) * g + be

/-- At real sums the fused scale is the real one; ε positive keeps the argument of the reciprocal root positive. -/
theorem scale_coe (h : ι → ℝ) (b g n ε : ℝ) (hn : (Fintype.card ι : ℝ) = n) (hpos : 0 < n) (hε : 0 < ε) :
    scale (∑ i, (h i : EReal)) (∑ i, (h i : EReal) * (h i : EReal)) b g n ε
      = ((scaleReal (∑ i, h i) (∑ i, h i * h i) b g n ε : ℝ) : EReal) := by
  have hne : n ≠ 0 := ne_of_gt hpos
  have hv : 0 < ((∑ i, h i * h i) + 2 * b * (∑ i, h i)) / n + b * b
      - ((∑ i, h i) / n + b) * ((∑ i, h i) / n + b) + ε := by
    rw [var_of_sums h b n hn hpos]
    exact add_pos_of_nonneg_of_pos (centred_var_nonneg _ n hpos) hε
  unfold scale scaleReal
  simp only [← EReal.coe_mul]
  rw [← coe_sum, ← coe_sum]
  simp only [← EReal.coe_mul, ← EReal.coe_add, div_coe_coe _ hne, ← EReal.coe_sub]
  rw [rsqrt_coe_of_pos hv, ← EReal.coe_mul]

/-- At real sums the fused shift is the real one. -/
theorem shift_coe (h : ι → ℝ) (b g be n ε : ℝ) (hn : (Fintype.card ι : ℝ) = n) (hpos : 0 < n) (hε : 0 < ε) :
    shift (∑ i, (h i : EReal)) (∑ i, (h i : EReal) * (h i : EReal)) b g be n ε
      = ((shiftReal (∑ i, h i) (∑ i, h i * h i) b g be n ε : ℝ) : EReal) := by
  have hne : n ≠ 0 := ne_of_gt hpos
  unfold shift shiftReal
  rw [scale_coe h b g n ε hn hpos hε, ← coe_sum]
  simp only [div_coe_coe _ hne, ← EReal.coe_add, ← EReal.coe_sub, ← EReal.coe_mul]

/-- At real entries the textbook form is the real one. -/
theorem ref_coe (y : ι → ℝ) (g be n ε : ℝ) (hpos : 0 < n) (hε : 0 < ε) (r : ι) :
    ref (fun i => (y i : EReal)) g be n ε r = ((refReal y g be n ε r : ℝ) : EReal) := by
  have hne : n ≠ 0 := ne_of_gt hpos
  have hv : 0 < (∑ i, (y i - (∑ j, y j) / n) * (y i - (∑ j, y j) / n)) / n + ε :=
    add_pos_of_nonneg_of_pos (centred_var_nonneg y n hpos) hε
  unfold ref refReal
  rw [← coe_sum]
  simp only [div_coe_coe _ hne, ← EReal.coe_sub, ← EReal.coe_mul]
  rw [← coe_sum]
  simp only [div_coe_coe _ hne, ← EReal.coe_add]
  rw [sqrt_coe_of_nonneg hv.le, div_coe_coe _ (ne_of_gt (Real.sqrt_pos.2 hv)), ← EReal.coe_mul, ← EReal.coe_add]

/-- THE LAW. At finite data the kernel's affine map, its coefficients computed from the two column sums of h, is
    the reference's batch normalisation of h + b: entry by entry the same extended real, and a real one. -/
theorem affine_eq_ref (h : ι → ℝ) (b g be n ε : ℝ) (hn : (Fintype.card ι : ℝ) = n) (hpos : 0 < n) (hε : 0 < ε)
    (r : ι) :
    (h r : EReal) * scale (∑ i, (h i : EReal)) (∑ i, (h i : EReal) * (h i : EReal)) b g n ε
        + shift (∑ i, (h i : EReal)) (∑ i, (h i : EReal) * (h i : EReal)) b g be n ε
      = ref (fun i => (h i : EReal) + (b : EReal)) g be n ε r := by
  rw [scale_coe h b g n ε hn hpos hε, shift_coe h b g be n ε hn hpos hε, ← EReal.coe_mul, ← EReal.coe_add,
    affine_eq_refReal h b g be n ε hn hpos r]
  simp only [← EReal.coe_add]
  exact (ref_coe (fun i => h i + b) g be n ε hpos hε r).symm

end Idealize.ShloMosaic.LibBatchNormAffine

end
-- ==== Proof.Finite.lean ====
/-
  Finite data stays finite through the first two layers: when every argument array holds real numbers, so does every
  stage of the reference's first two graph-convolution layers with their batch normalisations (the variance is a mean
  of squares, so nonnegative; adding the positive ε keeps the square root positive and the quotient by it real), and so
  does the feature table the third layer starts from.
-/
import proofs.«176912_g87187836109056_cont_sun_m_854_20_alg».proof.Proof.ReadP
import proofs.«176912_g87187836109056_cont_sun_m_854_20_alg».proof.Proof.Consts
import proofs.«176912_g87187836109056_cont_sun_m_854_20_alg».proof.Proof.LibBatchNormAffine
import Idealize.ShloMosaic.Lib.Pipeline.Value
import Idealize.ShloMosaic.Lib.ValueIdx
import Idealize.ShloMosaic.PureOps.Ideal.Laws
import Mathlib.Tactic

set_option maxRecDepth 16384

noncomputable section

open scoped BigOperators

namespace Cert.ReferenceIdeal.Finite

open Cert.ReferenceIdeal Cert.ReferenceIdeal.Gen Cert.ReferenceIdeal.Read Idealize.ShloMosaic Idealize.ShloMosaic.TcCoe Idealize.ShloMosaic.ValueIdx Idealize.SL.Sem

/-- Every entry of the table is a real number. -/
def IsRealV {ι : Type} (v : ι → EReal) : Prop := ∀ i, ∃ r : ℝ, v i = (r : EReal)

/-! ## Real, nonnegative and positive extended reals, and what keeps them so -/

/-- An extended real that is (the coercion of) a real number. -/
def IsReal (x : EReal) : Prop := ∃ r : ℝ, x = (r : EReal)

/-- An extended real that is a nonnegative real number. -/
def IsNonneg (x : EReal) : Prop := ∃ r : ℝ, 0 ≤ r ∧ x = (r : EReal)

/-- An extended real that is a positive real number. -/
def IsPos (x : EReal) : Prop := ∃ r : ℝ, 0 < r ∧ x = (r : EReal)

theorem IsNonneg.isReal {x : EReal} (h : IsNonneg x) : IsReal x := let ⟨r, _, e⟩ := h; ⟨r, e⟩

theorem IsPos.isReal {x : EReal} (h : IsPos x) : IsReal x := let ⟨r, _, e⟩ := h; ⟨r, e⟩

theorem IsPos.isNonneg {x : EReal} (h : IsPos x) : IsNonneg x := let ⟨r, p, e⟩ := h; ⟨r, p.le, e⟩

/-- The sum of two reals is real. -/
theorem isReal_add {x y : EReal} (hx : IsReal x) (hy : IsReal y) : IsReal (x + y) := by
  obtain ⟨a, rfl⟩ := hx; obtain ⟨b, rfl⟩ := hy
  exact ⟨a + b, (EReal.coe_add a b).symm⟩

/-- The difference of two reals is real. -/
theorem isReal_sub {x y : EReal} (hx : IsReal x) (hy : IsReal y) : IsReal (x - y) := by
  obtain ⟨a, rfl⟩ := hx; obtain ⟨b, rfl⟩ := hy
  exact ⟨a - b, (EReal.coe_sub a b).symm⟩

/-- The product of two reals is real. -/
theorem isReal_mul {x y : EReal} (hx : IsReal x) (hy : IsReal y) : IsReal (x * y) := by
  obtain ⟨a, rfl⟩ := hx; obtain ⟨b, rfl⟩ := hy
  exact ⟨a * b, (EReal.coe_mul a b).symm⟩

/-- The larger of two reals is real; against 0 it is moreover nonnegative. -/
theorem isReal_max {x y : EReal} (hx : IsReal x) (hy : IsReal y) : IsReal (max x y) := by
  rcases le_total x y with h | h
  · rw [max_eq_right h]; exact hy
  · rw [max_eq_left h]; exact hx

/-- A finite sum of reals is real. -/
theorem isReal_sum {κ : Type*} (s : Finset κ) (f : κ → EReal) (h : ∀ k, IsReal (f k)) : IsReal (∑ k ∈ s, f k) := by
  choose g hg using h
  exact ⟨∑ k ∈ s, g k, by rw [LibBatchNormAffine.coe_sum]; exact Finset.sum_congr rfl fun k _ => hg k⟩

/-- A finite sum of nonnegative reals is a nonnegative real. -/
theorem isNonneg_sum {κ : Type*} (s : Finset κ) (f : κ → EReal) (h : ∀ k, IsNonneg (f k)) :
    IsNonneg (∑ k ∈ s, f k) := by
  choose g hg0 hg using h
  exact ⟨∑ k ∈ s, g k, Finset.sum_nonneg fun k _ => hg0 k,
    by rw [LibBatchNormAffine.coe_sum]; exact Finset.sum_congr rfl fun k _ => hg k⟩

/-- The square of a real is a nonnegative real. -/
theorem isNonneg_mul_self {x : EReal} (hx : IsReal x) : IsNonneg (x * x) := by
  obtain ⟨a, rfl⟩ := hx
  exact ⟨a * a, mul_self_nonneg a, (EReal.coe_mul a a).symm⟩

/-- The sum of two nonnegative reals is a nonnegative real. -/
theorem isNonneg_add {x y : EReal} (hx : IsNonneg x) (hy : IsNonneg y) : IsNonneg (x + y) := by
  obtain ⟨a, ha, rfl⟩ := hx; obtain ⟨b, hb, rfl⟩ := hy
  exact ⟨a + b, add_nonneg ha hb, (EReal.coe_add a b).symm⟩

/-- A nonnegative real plus a positive real is a positive real. -/
theorem isPos_add {x y : EReal} (hx : IsNonneg x) (hy : IsPos y) : IsPos (x + y) := by
  obtain ⟨a, ha, rfl⟩ := hx; obtain ⟨b, hb, rfl⟩ := hy
  exact ⟨a + b, add_pos_of_nonneg_of_pos ha hb, (EReal.coe_add a b).symm⟩

/-- The ideal quotient of a real by a positive real is real. -/
theorem isReal_div {x y : EReal} (hx : IsReal x) (hy : IsPos y) : IsReal (Ideal.div x y) := by
  obtain ⟨a, rfl⟩ := hx; obtain ⟨b, hb, rfl⟩ := hy
  exact ⟨a / b, LibBatchNormAffine.div_coe_coe a (ne_of_gt hb)⟩

/-- The ideal quotient of a nonnegative real by a positive real is a nonnegative real. -/
theorem isNonneg_div {x y : EReal} (hx : IsNonneg x) (hy : IsPos y) : IsNonneg (Ideal.div x y) := by
  obtain ⟨a, ha, rfl⟩ := hx; obtain ⟨b, hb, rfl⟩ := hy
  exact ⟨a / b, div_nonneg ha hb.le, LibBatchNormAffine.div_coe_coe a (ne_of_gt hb)⟩

/-- The ideal square root of a positive real is a positive real. -/
theorem isPos_sqrt {x : EReal} (hx : IsPos x) : IsPos (Ideal.sqrt x) := by
  obtain ⟨a, ha, rfl⟩ := hx
  exact ⟨Real.sqrt a, Real.sqrt_pos.2 ha, LibBatchNormAffine.sqrt_coe_of_nonneg ha.le⟩

/-! ## The three words the program spells -/

/-- The zero word is the nonnegative real 0. -/
theorem zero_word : IsNonneg (FloatOps.ofBits (F := Ideal) .f32 0x00000000#32) :=
  ⟨0, le_refl 0, Cert.Consts.zero_eq.trans EReal.coe_zero.symm⟩

/-- The word of 4096 is a positive real. -/
theorem n4096_word : IsPos (FloatOps.ofBits (F := Ideal) .f32 0x45800000#32) :=
  ⟨4096, by norm_num, Cert.Consts.n4096_eq⟩

/-- The word of ε is a positive real. -/
theorem eps_word : IsPos (FloatOps.ofBits (F := Ideal) .f32 0x3727C5AC#32) :=
  let ⟨e, he, h⟩ := Cert.Consts.eps_eq; ⟨e, he, h⟩

/-- Every entry of the table is a nonnegative real. -/
def IsNonnegV {ι : Type} (v : ι → EReal) : Prop := ∀ i, IsNonneg (v i)

/-- Every entry of the table is a positive real. -/
def IsPosV {ι : Type} (v : ι → EReal) : Prop := ∀ i, IsPos (v i)

/-! ## The stages, in program order

Each stage is read at an index from its operands by its own reading lemma and closed by the facts above. The two layers
are the same walk: product with the weights, propagation, bias, activation; column mean; deviations and their squares;
variance (nonnegative); variance plus ε (positive); its root (positive); the quotient by that root (real, the divisor
being a nonzero real); scale and shift. -/

section Stages

variable (x0 : (⟨S4096x512, .f32⟩ : BufTy).Contents (Elt Ideal)) (x1 : (⟨S4096x4096, .f32⟩ : BufTy).Contents (Elt Ideal)) (x2 : (⟨S512x512, .f32⟩ : BufTy).Contents (Elt Ideal)) (x3 x4 x5 : (⟨S512, .f32⟩ : BufTy).Contents (Elt Ideal)) (x6 : (⟨S512x512, .f32⟩ : BufTy).Contents (Elt Ideal)) (x7 x8 x9 : (⟨S512, .f32⟩ : BufTy).Contents (Elt Ideal)) (x10 : (⟨S512x512, .f32⟩ : BufTy).Contents (Elt Ideal))

/-- Layer 1: the features times the weight matrix, a finite sum of products of reals. -/
theorem v0_real (h0 : IsRealV x0) (h2 : IsRealV x2) :
    IsRealV (val_main_v0 (F := Ideal) x0 x2) := by
  intro i
  rw [val_main_v0_apply]
  exact isReal_sum _ _ fun k => isReal_mul (h0 _) (h2 _)

/-- Layer 1: the adjacency times that product. -/
theorem v1_real (h0 : IsRealV x0) (h1 : IsRealV x1) (h2 : IsRealV x2) :
    IsRealV (val_main_v1 (F := Ideal) x0 x1 x2) := by
  intro i
  rw [val_main_v1_apply]
  exact isReal_sum _ _ fun k => isReal_mul (h1 _) ((v0_real x0 x2 h0 h2) _)

/-- Layer 1: the bias as a row. -/
theorem v2_real (h3 : IsRealV x3) :
    IsRealV (val_main_v2 (F := Ideal) x3) := by
  intro i
  rw [val_main_v2_apply]
  exact h3 _

/-- Layer 1: the bias repeated down the rows. -/
theorem v3_real (h3 : IsRealV x3) :
    IsRealV (val_main_v3 (F := Ideal) x3) := by
  intro i
  rw [val_main_v3_apply]
  exact ((v2_real x3 h3) _)

/-- Layer 1: the propagation plus the bias. -/
theorem v4_real (h0 : IsRealV x0) (h1 : IsRealV x1) (h2 : IsRealV x2) (h3 : IsRealV x3) :
    IsRealV (val_main_v4 (F := Ideal) x0 x1 x2 x3) := by
  intro i
  rw [val_main_v4_apply]
  exact isReal_add ((v1_real x0 x1 x2 h0 h1 h2) i) ((v3_real x3 h3) i)

/-- Layer 1: the table of zeros the activation compares with. -/
theorem call0_v0_nonneg :
    IsNonnegV (val_main_call0_v0 (F := Ideal)) := by
  intro i
  rw [val_main_call0_v0_apply, val_main_call0_cst_apply]
  exact zero_word

/-- Layer 1: the activation, the larger of the entry and 0. -/
theorem v5_real (h0 : IsRealV x0) (h1 : IsRealV x1) (h2 : IsRealV x2) (h3 : IsRealV x3) :
    IsRealV (val_main_v5 (F := Ideal) x0 x1 x2 x3) := by
  intro i
  rw [val_main_v5_apply]
  exact isReal_max ((v4_real x0 x1 x2 x3 h0 h1 h2 h3) i) (call0_v0_nonneg i).isReal

/-- Layer 1: the column sums of the activation, from the zero word. -/
theorem v6_real (h0 : IsRealV x0) (h1 : IsRealV x1) (h2 : IsRealV x2) (h3 : IsRealV x3) :
    IsRealV (val_main_v6 (F := Ideal) x0 x1 x2 x3) := by
  intro i
  rw [val_main_v6_apply, val_main_cst_apply]
  exact isReal_add zero_word.isReal (isReal_sum _ _ fun k => ((v5_real x0 x1 x2 x3 h0 h1 h2 h3) _))

/-- Layer 1: the number of rows, 4096, repeated along the columns. -/
theorem v7_pos :
    IsPosV (val_main_v7 (F := Ideal)) := by
  intro i
  rw [val_main_v7_apply, val_main_cst_0_apply]
  exact n4096_word

/-- Layer 1: the column means. -/
theorem v8_real (h0 : IsRealV x0) (h1 : IsRealV x1) (h2 : IsRealV x2) (h3 : IsRealV x3) :
    IsRealV (val_main_v8 (F := Ideal) x0 x1 x2 x3) := by
  intro i
  rw [val_main_v8_apply]
  exact isReal_div ((v6_real x0 x1 x2 x3 h0 h1 h2 h3) i) (v7_pos i)

/-- Layer 1: the means as a row. -/
theorem v9_real (h0 : IsRealV x0) (h1 : IsRealV x1) (h2 : IsRealV x2) (h3 : IsRealV x3) :
    IsRealV (val_main_v9 (F := Ideal) x0 x1 x2 x3) := by
  intro i
  rw [val_main_v9_apply]
  exact ((v8_real x0 x1 x2 x3 h0 h1 h2 h3) _)

/-- Layer 1: the means repeated down the rows. -/
theorem v10_real (h0 : IsRealV x0) (h1 : IsRealV x1) (h2 : IsRealV x2) (h3 : IsRealV x3) :
    IsRealV (val_main_v10 (F := Ideal) x0 x1 x2 x3) := by
  intro i
  rw [val_main_v10_apply]
  exact ((v9_real x0 x1 x2 x3 h0 h1 h2 h3) _)

/-- Layer 1: the deviations from the column mean. -/
theorem v11_real (h0 : IsRealV x0) (h1 : IsRealV x1) (h2 : IsRealV x2) (h3 : IsRealV x3) :
    IsRealV (val_main_v11 (F := Ideal) x0 x1 x2 x3) := by
  intro i
  rw [val_main_v11_apply]
  exact isReal_sub ((v5_real x0 x1 x2 x3 h0 h1 h2 h3) i) ((v10_real x0 x1 x2 x3 h0 h1 h2 h3) i)

/-- Layer 1: the squared deviations, nonnegative reals. -/
theorem v12_nonneg (h0 : IsRealV x0) (h1 : IsRealV x1) (h2 : IsRealV x2) (h3 : IsRealV x3) :
    IsNonnegV (val_main_v12 (F := Ideal) x0 x1 x2 x3) := by
  intro i
  rw [val_main_v12_apply]
  exact isNonneg_mul_self ((v11_real x0 x1 x2 x3 h0 h1 h2 h3) i)

/-- Layer 1: the column sums of the squared deviations, from the zero word: nonnegative. -/
theorem v13_nonneg (h0 : IsRealV x0) (h1 : IsRealV x1) (h2 : IsRealV x2) (h3 : IsRealV x3) :
    IsNonnegV (val_main_v13 (F := Ideal) x0 x1 x2 x3) := by
  intro i
  rw [val_main_v13_apply, val_main_cst_1_apply]
  exact isNonneg_add zero_word (isNonneg_sum _ _ fun k => ((v12_nonneg x0 x1 x2 x3 h0 h1 h2 h3) _))

/-- Layer 1: 4096 again, repeated along the columns. -/
theorem v14_pos :
    IsPosV (val_main_v14 (F := Ideal)) := by
  intro i
  rw [val_main_v14_apply, val_main_cst_2_apply]
  exact n4096_word

/-- Layer 1: the column variances, means of squares: nonnegative. -/
theorem v15_nonneg (h0 : IsRealV x0) (h1 : IsRealV x1) (h2 : IsRealV x2) (h3 : IsRealV x3) :
    IsNonnegV (val_main_v15 (F := Ideal) x0 x1 x2 x3) := by
  intro i
  rw [val_main_v15_apply]
  exact isNonneg_div ((v13_nonneg x0 x1 x2 x3 h0 h1 h2 h3) i) (v14_pos i)

/-- Layer 1: the means as a row, a second time. -/
theorem v16_real (h0 : IsRealV x0) (h1 : IsRealV x1) (h2 : IsRealV x2) (h3 : IsRealV x3) :
    IsRealV (val_main_v16 (F := Ideal) x0 x1 x2 x3) := by
  intro i
  rw [val_main_v16_apply]
  exact ((v8_real x0 x1 x2 x3 h0 h1 h2 h3) _)

/-- Layer 1: and repeated down the rows. -/
theorem v17_real (h0 : IsRealV x0) (h1 : IsRealV x1) (h2 : IsRealV x2) (h3 : IsRealV x3) :
    IsRealV (val_main_v17 (F := Ideal) x0 x1 x2 x3) := by
  intro i
  rw [val_main_v17_apply]
  exact ((v16_real x0 x1 x2 x3 h0 h1 h2 h3) _)

/-- Layer 1: the deviations, a second time. -/
theorem v18_real (h0 : IsRealV x0) (h1 : IsRealV x1) (h2 : IsRealV x2) (h3 : IsRealV x3) :
    IsRealV (val_main_v18 (F := Ideal) x0 x1 x2 x3) := by
  intro i
  rw [val_main_v18_apply]
  exact isReal_sub ((v5_real x0 x1 x2 x3 h0 h1 h2 h3) i) ((v17_real x0 x1 x2 x3 h0 h1 h2 h3) i)

/-- Layer 1: the scale as a row. -/
theorem v19_real (h4 : IsRealV x4) :
    IsRealV (val_main_v19 (F := Ideal) x4) := by
  intro i
  rw [val_main_v19_apply]
  exact h4 _

/-- Layer 1: the scale repeated down the rows. -/
theorem v20_real (h4 : IsRealV x4) :
    IsRealV (val_main_v20 (F := Ideal) x4) := by
  intro i
  rw [val_main_v20_apply]
  exact ((v19_real x4 h4) _)

/-- Layer 1: the scaled deviations. -/
theorem v21_real (h0 : IsRealV x0) (h1 : IsRealV x1) (h2 : IsRealV x2) (h3 : IsRealV x3) (h4 : IsRealV x4) :
    IsRealV (val_main_v21 (F := Ideal) x0 x1 x2 x3 x4) := by
  intro i
  rw [val_main_v21_apply]
  exact isReal_mul ((v20_real x4 h4) i) ((v18_real x0 x1 x2 x3 h0 h1 h2 h3) i)

/-- Layer 1: ε repeated along the columns. -/
theorem v22_pos :
    IsPosV (val_main_v22 (F := Ideal)) := by
  intro i
  rw [val_main_v22_apply, val_main_cst_3_apply]
  exact eps_word

/-- Layer 1: variance plus ε, a POSITIVE real. -/
theorem v23_pos (h0 : IsRealV x0) (h1 : IsRealV x1) (h2 : IsRealV x2) (h3 : IsRealV x3) :
    IsPosV (val_main_v23 (F := Ideal) x0 x1 x2 x3) := by
  intro i
  rw [val_main_v23_apply]
  exact isPos_add ((v15_nonneg x0 x1 x2 x3 h0 h1 h2 h3) i) (v22_pos i)

/-- Layer 1: its square root, the column deviation: a positive real. -/
theorem v24_pos (h0 : IsRealV x0) (h1 : IsRealV x1) (h2 : IsRealV x2) (h3 : IsRealV x3) :
    IsPosV (val_main_v24 (F := Ideal) x0 x1 x2 x3) := by
  intro i
  rw [val_main_v24_apply]
  exact isPos_sqrt ((v23_pos x0 x1 x2 x3 h0 h1 h2 h3) i)

/-- Layer 1: the deviations as a row. -/
theorem v25_pos (h0 : IsRealV x0) (h1 : IsRealV x1) (h2 : IsRealV x2) (h3 : IsRealV x3) :
    IsPosV (val_main_v25 (F := Ideal) x0 x1 x2 x3) := by
  intro i
  rw [val_main_v25_apply]
  exact ((v24_pos x0 x1 x2 x3 h0 h1 h2 h3) _)

/-- Layer 1: and repeated down the rows. -/
theorem v26_pos (h0 : IsRealV x0) (h1 : IsRealV x1) (h2 : IsRealV x2) (h3 : IsRealV x3) :
    IsPosV (val_main_v26 (F := Ideal) x0 x1 x2 x3) := by
  intro i
  rw [val_main_v26_apply]
  exact ((v25_pos x0 x1 x2 x3 h0 h1 h2 h3) _)

/-- Layer 1: the quotient by the deviation; the divisor is a nonzero real, so the quotient is real. -/
theorem v27_real (h0 : IsRealV x0) (h1 : IsRealV x1) (h2 : IsRealV x2) (h3 : IsRealV x3) (h4 : IsRealV x4) :
    IsRealV (val_main_v27 (F := Ideal) x0 x1 x2 x3 x4) := by
  intro i
  rw [val_main_v27_apply]
  exact isReal_div ((v21_real x0 x1 x2 x3 x4 h0 h1 h2 h3 h4) i) ((v26_pos x0 x1 x2 x3 h0 h1 h2 h3) i)

/-- Layer 1: the shift as a row. -/
theorem v28_real (h5 : IsRealV x5) :
    IsRealV (val_main_v28 (F := Ideal) x5) := by
  intro i
  rw [val_main_v28_apply]
  exact h5 _

/-- Layer 1: the shift repeated down the rows. -/
theorem v29_real (h5 : IsRealV x5) :
    IsRealV (val_main_v29 (F := Ideal) x5) := by
  intro i
  rw [val_main_v29_apply]
  exact ((v28_real x5 h5) _)

/-- Layer 1: the normalised features, the layer's output. -/
theorem v30_real (h0 : IsRealV x0) (h1 : IsRealV x1) (h2 : IsRealV x2) (h3 : IsRealV x3) (h4 : IsRealV x4) (h5 : IsRealV x5) :
    IsRealV (val_main_v30 (F := Ideal) x0 x1 x2 x3 x4 x5) := by
  intro i
  rw [val_main_v30_apply]
  exact isReal_add ((v27_real x0 x1 x2 x3 x4 h0 h1 h2 h3 h4) i) ((v29_real x5 h5) i)

/-- Layer 2: the features times the weight matrix, a finite sum of products of reals. -/
theorem v31_real (h0 : IsRealV x0) (h1 : IsRealV x1) (h2 : IsRealV x2) (h3 : IsRealV x3) (h4 : IsRealV x4) (h5 : IsRealV x5) (h6 : IsRealV x6) :
    IsRealV (val_main_v31 (F := Ideal) x0 x1 x2 x3 x4 x5 x6) := by
  intro i
  rw [val_main_v31_apply]
  exact isReal_sum _ _ fun k => isReal_mul ((v30_real x0 x1 x2 x3 x4 x5 h0 h1 h2 h3 h4 h5) _) (h6 _)

/-- Layer 2: the adjacency times that product. -/
theorem v32_real (h0 : IsRealV x0) (h1 : IsRealV x1) (h2 : IsRealV x2) (h3 : IsRealV x3) (h4 : IsRealV x4) (h5 : IsRealV x5) (h6 : IsRealV x6) :
    IsRealV (val_main_v32 (F := Ideal) x0 x1 x2 x3 x4 x5 x6) := by
  intro i
  rw [val_main_v32_apply]
  exact isReal_sum _ _ fun k => isReal_mul (h1 _) ((v31_real x0 x1 x2 x3 x4 x5 x6 h0 h1 h2 h3 h4 h5 h6) _)

/-- Layer 2: the bias as a row. -/
theorem v33_real (h7 : IsRealV x7) :
    IsRealV (val_main_v33 (F := Ideal) x7) := by
  intro i
  rw [val_main_v33_apply]
  exact h7 _

/-- Layer 2: the bias repeated down the rows. -/
theorem v34_real (h7 : IsRealV x7) :
    IsRealV (val_main_v34 (F := Ideal) x7) := by
  intro i
  rw [val_main_v34_apply]
  exact ((v33_real x7 h7) _)

/-- Layer 2: the propagation plus the bias. -/
theorem v35_real (h0 : IsRealV x0) (h1 : IsRealV x1) (h2 : IsRealV x2) (h3 : IsRealV x3) (h4 : IsRealV x4) (h5 : IsRealV x5) (h6 : IsRealV x6) (h7 : IsRealV x7) :
    IsRealV (val_main_v35 (F := Ideal) x0 x1 x2 x3 x4 x5 x6 x7) := by
  intro i
  rw [val_main_v35_apply]
  exact isReal_add ((v32_real x0 x1 x2 x3 x4 x5 x6 h0 h1 h2 h3 h4 h5 h6) i) ((v34_real x7 h7) i)

/-- Layer 2: the table of zeros the activation compares with. -/
theorem call1_v0_nonneg :
    IsNonnegV (val_main_call1_v0 (F := Ideal)) := by
  intro i
  rw [val_main_call1_v0_apply, val_main_call1_cst_apply]
  exact zero_word

/-- Layer 2: the activation, the larger of the entry and 0. -/
theorem v36_real (h0 : IsRealV x0) (h1 : IsRealV x1) (h2 : IsRealV x2) (h3 : IsRealV x3) (h4 : IsRealV x4) (h5 : IsRealV x5) (h6 : IsRealV x6) (h7 : IsRealV x7) :
    IsRealV (val_main_v36 (F := Ideal) x0 x1 x2 x3 x4 x5 x6 x7) := by
  intro i
  rw [val_main_v36_apply]
  exact isReal_max ((v35_real x0 x1 x2 x3 x4 x5 x6 x7 h0 h1 h2 h3 h4 h5 h6 h7) i) (call1_v0_nonneg i).isReal

/-- Layer 2: the column sums of the activation, from the zero word. -/
theorem v37_real (h0 : IsRealV x0) (h1 : IsRealV x1) (h2 : IsRealV x2) (h3 : IsRealV x3) (h4 : IsRealV x4) (h5 : IsRealV x5) (h6 : IsRealV x6) (h7 : IsRealV x7) :
    IsRealV (val_main_v37 (F := Ideal) x0 x1 x2 x3 x4 x5 x6 x7) := by
  intro i
  rw [val_main_v37_apply, val_main_cst_4_apply]
  exact isReal_add zero_word.isReal (isReal_sum _ _ fun k => ((v36_real x0 x1 x2 x3 x4 x5 x6 x7 h0 h1 h2 h3 h4 h5 h6 h7) _))

/-- Layer 2: the number of rows, 4096, repeated along the columns. -/
theorem v38_pos :
    IsPosV (val_main_v38 (F := Ideal)) := by
  intro i
  rw [val_main_v38_apply, val_main_cst_5_apply]
  exact n4096_word

/-- Layer 2: the column means. -/
theorem v39_real (h0 : IsRealV x0) (h1 : IsRealV x1) (h2 : IsRealV x2) (h3 : IsRealV x3) (h4 : IsRealV x4) (h5 : IsRealV x5) (h6 : IsRealV x6) (h7 : IsRealV x7) :
    IsRealV (val_main_v39 (F := Ideal) x0 x1 x2 x3 x4 x5 x6 x7) := by
  intro i
  rw [val_main_v39_apply]
  exact isReal_div ((v37_real x0 x1 x2 x3 x4 x5 x6 x7 h0 h1 h2 h3 h4 h5 h6 h7) i) (v38_pos i)

/-- Layer 2: the means as a row. -/
theorem v40_real (h0 : IsRealV x0) (h1 : IsRealV x1) (h2 : IsRealV x2) (h3 : IsRealV x3) (h4 : IsRealV x4) (h5 : IsRealV x5) (h6 : IsRealV x6) (h7 : IsRealV x7) :
    IsRealV (val_main_v40 (F := Ideal) x0 x1 x2 x3 x4 x5 x6 x7) := by
  intro i
  rw [val_main_v40_apply]
  exact ((v39_real x0 x1 x2 x3 x4 x5 x6 x7 h0 h1 h2 h3 h4 h5 h6 h7) _)

/-- Layer 2: the means repeated down the rows. -/
theorem v41_real (h0 : IsRealV x0) (h1 : IsRealV x1) (h2 : IsRealV x2) (h3 : IsRealV x3) (h4 : IsRealV x4) (h5 : IsRealV x5) (h6 : IsRealV x6) (h7 : IsRealV x7) :
    IsRealV (val_main_v41 (F := Ideal) x0 x1 x2 x3 x4 x5 x6 x7) := by
  intro i
  rw [val_main_v41_apply]
  exact ((v40_real x0 x1 x2 x3 x4 x5 x6 x7 h0 h1 h2 h3 h4 h5 h6 h7) _)

/-- Layer 2: the deviations from the column mean. -/
theorem v42_real (h0 : IsRealV x0) (h1 : IsRealV x1) (h2 : IsRealV x2) (h3 : IsRealV x3) (h4 : IsRealV x4) (h5 : IsRealV x5) (h6 : IsRealV x6) (h7 : IsRealV x7) :
    IsRealV (val_main_v42 (F := Ideal) x0 x1 x2 x3 x4 x5 x6 x7) := by
  intro i
  rw [val_main_v42_apply]
  exact isReal_sub ((v36_real x0 x1 x2 x3 x4 x5 x6 x7 h0 h1 h2 h3 h4 h5 h6 h7) i) ((v41_real x0 x1 x2 x3 x4 x5 x6 x7 h0 h1 h2 h3 h4 h5 h6 h7) i)

/-- Layer 2: the squared deviations, nonnegative reals. -/
theorem v43_nonneg (h0 : IsRealV x0) (h1 : IsRealV x1) (h2 : IsRealV x2) (h3 : IsRealV x3) (h4 : IsRealV x4) (h5 : IsRealV x5) (h6 : IsRealV x6) (h7 : IsRealV x7) :
    IsNonnegV (val_main_v43 (F := Ideal) x0 x1 x2 x3 x4 x5 x6 x7) := by
  intro i
  rw [val_main_v43_apply]
  exact isNonneg_mul_self ((v42_real x0 x1 x2 x3 x4 x5 x6 x7 h0 h1 h2 h3 h4 h5 h6 h7) i)

/-- Layer 2: the column sums of the squared deviations, from the zero word: nonnegative. -/
theorem v44_nonneg (h0 : IsRealV x0) (h1 : IsRealV x1) (h2 : IsRealV x2) (h3 : IsRealV x3) (h4 : IsRealV x4) (h5 : IsRealV x5) (h6 : IsRealV x6) (h7 : IsRealV x7) :
    IsNonnegV (val_main_v44 (F := Ideal) x0 x1 x2 x3 x4 x5 x6 x7) := by
  intro i
  rw [val_main_v44_apply, val_main_cst_6_apply]
  exact isNonneg_add zero_word (isNonneg_sum _ _ fun k => ((v43_nonneg x0 x1 x2 x3 x4 x5 x6 x7 h0 h1 h2 h3 h4 h5 h6 h7) _))

/-- Layer 2: 4096 again, repeated along the columns. -/
theorem v45_pos :
    IsPosV (val_main_v45 (F := Ideal)) := by
  intro i
  rw [val_main_v45_apply, val_main_cst_7_apply]
  exact n4096_word

/-- Layer 2: the column variances, means of squares: nonnegative. -/
theorem v46_nonneg (h0 : IsRealV x0) (h1 : IsRealV x1) (h2 : IsRealV x2) (h3 : IsRealV x3) (h4 : IsRealV x4) (h5 : IsRealV x5) (h6 : IsRealV x6) (h7 : IsRealV x7) :
    IsNonnegV (val_main_v46 (F := Ideal) x0 x1 x2 x3 x4 x5 x6 x7) := by
  intro i
  rw [val_main_v46_apply]
  exact isNonneg_div ((v44_nonneg x0 x1 x2 x3 x4 x5 x6 x7 h0 h1 h2 h3 h4 h5 h6 h7) i) (v45_pos i)

/-- Layer 2: the means as a row, a second time. -/
theorem v47_real (h0 : IsRealV x0) (h1 : IsRealV x1) (h2 : IsRealV x2) (h3 : IsRealV x3) (h4 : IsRealV x4) (h5 : IsRealV x5) (h6 : IsRealV x6) (h7 : IsRealV x7) :
    IsRealV (val_main_v47 (F := Ideal) x0 x1 x2 x3 x4 x5 x6 x7) := by
  intro i
  rw [val_main_v47_apply]
  exact ((v39_real x0 x1 x2 x3 x4 x5 x6 x7 h0 h1 h2 h3 h4 h5 h6 h7) _)

/-- Layer 2: and repeated down the rows. -/
theorem v48_real (h0 : IsRealV x0) (h1 : IsRealV x1) (h2 : IsRealV x2) (h3 : IsRealV x3) (h4 : IsRealV x4) (h5 : IsRealV x5) (h6 : IsRealV x6) (h7 : IsRealV x7) :
    IsRealV (val_main_v48 (F := Ideal) x0 x1 x2 x3 x4 x5 x6 x7) := by
  intro i
  rw [val_main_v48_apply]
  exact ((v47_real x0 x1 x2 x3 x4 x5 x6 x7 h0 h1 h2 h3 h4 h5 h6 h7) _)

/-- Layer 2: the deviations, a second time. -/
theorem v49_real (h0 : IsRealV x0) (h1 : IsRealV x1) (h2 : IsRealV x2) (h3 : IsRealV x3) (h4 : IsRealV x4) (h5 : IsRealV x5) (h6 : IsRealV x6) (h7 : IsRealV x7) :
    IsRealV (val_main_v49 (F := Ideal) x0 x1 x2 x3 x4 x5 x6 x7) := by
  intro i
  rw [val_main_v49_apply]
  exact isReal_sub ((v36_real x0 x1 x2 x3 x4 x5 x6 x7 h0 h1 h2 h3 h4 h5 h6 h7) i) ((v48_real x0 x1 x2 x3 x4 x5 x6 x7 h0 h1 h2 h3 h4 h5 h6 h7) i)

/-- Layer 2: the scale as a row. -/
theorem v50_real (h8 : IsRealV x8) :
    IsRealV (val_main_v50 (F := Ideal) x8) := by
  intro i
  rw [val_main_v50_apply]
  exact h8 _

/-- Layer 2: the scale repeated down the rows. -/
theorem v51_real (h8 : IsRealV x8) :
    IsRealV (val_main_v51 (F := Ideal) x8) := by
  intro i
  rw [val_main_v51_apply]
  exact ((v50_real x8 h8) _)

/-- Layer 2: the scaled deviations. -/
theorem v52_real (h0 : IsRealV x0) (h1 : IsRealV x1) (h2 : IsRealV x2) (h3 : IsRealV x3) (h4 : IsRealV x4) (h5 : IsRealV x5) (h6 : IsRealV x6) (h7 : IsRealV x7) (h8 : IsRealV x8) :
    IsRealV (val_main_v52 (F := Ideal) x0 x1 x2 x3 x4 x5 x6 x7 x8) := by
  intro i
  rw [val_main_v52_apply]
  exact isReal_mul ((v51_real x8 h8) i) ((v49_real x0 x1 x2 x3 x4 x5 x6 x7 h0 h1 h2 h3 h4 h5 h6 h7) i)

/-- Layer 2: ε repeated along the columns. -/
theorem v53_pos :
    IsPosV (val_main_v53 (F := Ideal)) := by
  intro i
  rw [val_main_v53_apply, val_main_cst_8_apply]
  exact eps_word

/-- Layer 2: variance plus ε, a POSITIVE real. -/
theorem v54_pos (h0 : IsRealV x0) (h1 : IsRealV x1) (h2 : IsRealV x2) (h3 : IsRealV x3) (h4 : IsRealV x4) (h5 : IsRealV x5) (h6 : IsRealV x6) (h7 : IsRealV x7) :
    IsPosV (val_main_v54 (F := Ideal) x0 x1 x2 x3 x4 x5 x6 x7) := by
  intro i
  rw [val_main_v54_apply]
  exact isPos_add ((v46_nonneg x0 x1 x2 x3 x4 x5 x6 x7 h0 h1 h2 h3 h4 h5 h6 h7) i) (v53_pos i)

/-- Layer 2: its square root, the column deviation: a positive real. -/
theorem v55_pos (h0 : IsRealV x0) (h1 : IsRealV x1) (h2 : IsRealV x2) (h3 : IsRealV x3) (h4 : IsRealV x4) (h5 : IsRealV x5) (h6 : IsRealV x6) (h7 : IsRealV x7) :
    IsPosV (val_main_v55 (F := Ideal) x0 x1 x2 x3 x4 x5 x6 x7) := by
  intro i
  rw [val_main_v55_apply]
  exact isPos_sqrt ((v54_pos x0 x1 x2 x3 x4 x5 x6 x7 h0 h1 h2 h3 h4 h5 h6 h7) i)

/-- Layer 2: the deviations as a row. -/
theorem v56_pos (h0 : IsRealV x0) (h1 : IsRealV x1) (h2 : IsRealV x2) (h3 : IsRealV x3) (h4 : IsRealV x4) (h5 : IsRealV x5) (h6 : IsRealV x6) (h7 : IsRealV x7) :
    IsPosV (val_main_v56 (F := Ideal) x0 x1 x2 x3 x4 x5 x6 x7) := by
  intro i
  rw [val_main_v56_apply]
  exact ((v55_pos x0 x1 x2 x3 x4 x5 x6 x7 h0 h1 h2 h3 h4 h5 h6 h7) _)

/-- Layer 2: and repeated down the rows. -/
theorem v57_pos (h0 : IsRealV x0) (h1 : IsRealV x1) (h2 : IsRealV x2) (h3 : IsRealV x3) (h4 : IsRealV x4) (h5 : IsRealV x5) (h6 : IsRealV x6) (h7 : IsRealV x7) :
    IsPosV (val_main_v57 (F := Ideal) x0 x1 x2 x3 x4 x5 x6 x7) := by
  intro i
  rw [val_main_v57_apply]
  exact ((v56_pos x0 x1 x2 x3 x4 x5 x6 x7 h0 h1 h2 h3 h4 h5 h6 h7) _)

/-- Layer 2: the quotient by the deviation; the divisor is a nonzero real, so the quotient is real. -/
theorem v58_real (h0 : IsRealV x0) (h1 : IsRealV x1) (h2 : IsRealV x2) (h3 : IsRealV x3) (h4 : IsRealV x4) (h5 : IsRealV x5) (h6 : IsRealV x6) (h7 : IsRealV x7) (h8 : IsRealV x8) :
    IsRealV (val_main_v58 (F := Ideal) x0 x1 x2 x3 x4 x5 x6 x7 x8) := by
  intro i
  rw [val_main_v58_apply]
  exact isReal_div ((v52_real x0 x1 x2 x3 x4 x5 x6 x7 x8 h0 h1 h2 h3 h4 h5 h6 h7 h8) i) ((v57_pos x0 x1 x2 x3 x4 x5 x6 x7 h0 h1 h2 h3 h4 h5 h6 h7) i)

/-- Layer 2: the shift as a row. -/
theorem v59_real (h9 : IsRealV x9) :
    IsRealV (val_main_v59 (F := Ideal) x9) := by
  intro i
  rw [val_main_v59_apply]
  exact h9 _

/-- Layer 2: the shift repeated down the rows. -/
theorem v60_real (h9 : IsRealV x9) :
    IsRealV (val_main_v60 (F := Ideal) x9) := by
  intro i
  rw [val_main_v60_apply]
  exact ((v59_real x9 h9) _)

/-- Layer 2: the normalised features, the layer's output. -/
theorem v61_real (h0 : IsRealV x0) (h1 : IsRealV x1) (h2 : IsRealV x2) (h3 : IsRealV x3) (h4 : IsRealV x4) (h5 : IsRealV x5) (h6 : IsRealV x6) (h7 : IsRealV x7) (h8 : IsRealV x8) (h9 : IsRealV x9) :
    IsRealV (val_main_v61 (F := Ideal) x0 x1 x2 x3 x4 x5 x6 x7 x8 x9) := by
  intro i
  rw [val_main_v61_apply]
  exact isReal_add ((v58_real x0 x1 x2 x3 x4 x5 x6 x7 x8 h0 h1 h2 h3 h4 h5 h6 h7 h8) i) ((v60_real x9 h9) i)

/-- The second layer's output times the third layer's weight matrix: the feature table the third layer starts from. -/
theorem v62_real (h0 : IsRealV x0) (h1 : IsRealV x1) (h2 : IsRealV x2) (h3 : IsRealV x3) (h4 : IsRealV x4) (h5 : IsRealV x5) (h6 : IsRealV x6) (h7 : IsRealV x7) (h8 : IsRealV x8) (h9 : IsRealV x9) (h10 : IsRealV x10) :
    IsRealV (val_main_v62 (F := Ideal) x0 x1 x2 x3 x4 x5 x6 x7 x8 x9 x10) := by
  intro i
  rw [val_main_v62_apply]
  exact isReal_sum _ _ fun k => isReal_mul ((v61_real x0 x1 x2 x3 x4 x5 x6 x7 x8 x9 h0 h1 h2 h3 h4 h5 h6 h7 h8 h9) _) (h10 _)

end Stages

/-- The third layer's feature table is real when the arguments are. -/
theorem z_real (x0 : (⟨S4096x512, .f32⟩ : BufTy).Contents (Elt Ideal)) (x1 : (⟨S4096x4096, .f32⟩ : BufTy).Contents (Elt Ideal)) (x2 : (⟨S512x512, .f32⟩ : BufTy).Contents (Elt Ideal)) (x3 x4 x5 : (⟨S512, .f32⟩ : BufTy).Contents (Elt Ideal)) (x6 : (⟨S512x512, .f32⟩ : BufTy).Contents (Elt Ideal)) (x7 x8 x9 : (⟨S512, .f32⟩ : BufTy).Contents (Elt Ideal)) (x10 : (⟨S512x512, .f32⟩ : BufTy).Contents (Elt Ideal))
    (h0 : IsRealV x0) (h1 : IsRealV x1) (h2 : IsRealV x2) (h3 : IsRealV x3) (h4 : IsRealV x4) (h5 : IsRealV x5)
    (h6 : IsRealV x6) (h7 : IsRealV x7) (h8 : IsRealV x8) (h9 : IsRealV x9) (h10 : IsRealV x10) :
    IsRealV (val_main_v62 (F := Ideal) x0 x1 x2 x3 x4 x5 x6 x7 x8 x9 x10) :=
  v62_real x0 x1 x2 x3 x4 x5 x6 x7 x8 x9 x10 h0 h1 h2 h3 h4 h5 h6 h7 h8 h9 h10

end Cert.ReferenceIdeal.Finite

end
-- ==== Proof.LibFiniteInputs.lean ====
/-
  A precondition "every element of the input has absolute value below +∞", read back: the input's elements are real
  numbers.

  On the extended reals the absolute value max x (-x) is below ⊤ exactly when x is neither ⊤ nor ⊥, that is when x is
  a real number. The precondition is printed as the conjunction, over all elements, of the one-bit comparisons
  |x| < (the pattern 0x7F800000, which denotes ⊤); when that conjunction is 1 every comparison is 1.
-/
import Idealize.ShloMosaic.Lib.ReduceAll
import Idealize.ShloMosaic.PureOps.Ideal.Laws

noncomputable section

namespace Cert.FiniteInputs

open Idealize.ShloMosaic

/-- The single-precision pattern 0x7F800000 denotes +∞. -/
theorem ofBits_f32_inf : Ideal.ofBits .f32 0x7F800000#32 = ⊤ := by
  simp [Ideal.ofBits, Ideal.ieee]

/-- The absolute value of an extended real is below ⊤ exactly when it is a real number. -/
theorem abs_lt_top_iff (x : EReal) : max x (-x) < ⊤ ↔ ∃ r : ℝ, x = (r : EReal) := by
  induction x using EReal.rec with
  | bot =>
    constructor
    · intro h
      rw [EReal.neg_bot, max_eq_right bot_le] at h
      exact absurd h (lt_irrefl _)
    · rintro ⟨r, hr⟩
      exact absurd hr.symm (EReal.coe_ne_bot r)
  | top =>
    constructor
    · intro h
      rw [max_eq_left (le_top)] at h
      exact absurd h (lt_irrefl _)
    · rintro ⟨r, hr⟩
      exact absurd hr.symm (EReal.coe_ne_top r)
  | coe r =>
    constructor
    · intro _
      exact ⟨r, rfl⟩
    · intro _
      rw [← EReal.coe_neg]
      exact max_lt (EReal.coe_lt_top r) (EReal.coe_lt_top (-r))

/-- One element of the precondition: the comparison |x| < T with T = ⊤, as a one-bit word equal to 1, says x is real. -/
theorem real_of_cmp_abs_lt {x T : EReal} (hT : T = ⊤) (h : Ideal.cmp .olt (max x (-x)) T = 1#1) :
    ∃ r : ℝ, x = (r : EReal) := by
  subst hT
  refine (abs_lt_top_iff x).mp ?_
  by_contra hn
  simp [Ideal.cmp, hn] at h

/-- THE PRECONDITION READ BACK: when the conjunction over all elements of the comparisons |v i| < top i is 1, top being
    ⊤ everywhere, every element of v is a real number. -/
theorem all_real_of_all_finite {s t u : Shape} {axes : List (Fin s.rank)} [Subsingleton t.Idx]
    (v top : FVec Ideal s .f32) (htop : ∀ i, top i = ⊤) (init : u.Idx → BitVec 1) (h : s.ReducesTo axes t)
    (hu : 0 < u.numel) (j : t.Idx)
    (e : Host.reduce IntOp.andi (cmpf .olt (Host.absf v) top) init h hu j = 1#1) (i : s.Idx) :
    ∃ r : ℝ, v i = (r : EReal) := by
  have hi : Ideal.cmp .olt (max (v i) (-(v i))) (top i) = 1#1 := Host.reduce_andi_all _ init h hu j e i
  exact real_of_cmp_abs_lt (htop i) hi

end Cert.FiniteInputs
-- ==== Proof.PreReal.lean ====
/-
  The precondition read back: when the conjunction, over the fourteen argument arrays, of "every element has absolute
  value below +∞" is 1, every element of every argument array is a real number.
-/
import proofs.«176912_g87187836109056_cont_sun_m_854_20_alg».proof.Pre_finite_inputs
import proofs.«176912_g87187836109056_cont_sun_m_854_20_alg».proof.Proof.Gen.Pre_finite_inputs
import proofs.«176912_g87187836109056_cont_sun_m_854_20_alg».proof.Proof.LibFiniteInputs
import Idealize.ShloMosaic.Lib.ReduceAll
import Idealize.ShloMosaic.Lib.ValueIdx
import Idealize.ShloMosaic.PureOps.Ideal.Laws

noncomputable section

namespace Cert.PreReal

open Cert.Pre_finite_inputs Idealize.ShloMosaic

/-- Every entry of the table is a real number. -/
def AllReal {ι : Type} (v : ι → EReal) : Prop := ∀ i, ∃ r : ℝ, v i = (r : EReal)

/-- The scalar shape has one index. -/
instance : Subsingleton S_.Idx := ⟨fun a b => funext fun d => d.elim0⟩

/-- One conjunct of the precondition: when the conjunction over all elements of "absolute value below the pattern of +∞"
    is 1, every element of the array is a real number. -/
theorem conj_real {s : Shape} {axes : List (Fin s.rank)} (v : FVec Ideal s .f32)
    (bc : S_.BroadcastsInDim s (![] : Fin 0 → Fin s.rank)) (hr : s.ReducesTo axes S_) (hu : 0 < S_.numel)
    (e : Host.reduce IntOp.andi
          (cmpf .olt (Host.absf v) (broadcastInDim s ![] bc (constant (F := Ideal) S_ .f32 0x7F800000#32)))
          (constantI S_ 1 1#1) hr hu ValueIdx.ix0 = 1#1) : AllReal v :=
  fun i => Cert.FiniteInputs.all_real_of_all_finite v _ (fun _ => Cert.FiniteInputs.ofBits_f32_inf) _ hr hu _ e i

/-- Under the precondition every argument array is real. -/
theorem inputs_real [Cert.Pre_finite_inputs.Facts] (a0 : FVec Ideal S4096x512 .f32) (a1 : FVec Ideal S4096x4096 .f32) (a2 : FVec Ideal S512x512 .f32) (a3 a4 a5 : FVec Ideal S512 .f32) (a6 : FVec Ideal S512x512 .f32) (a7 a8 a9 : FVec Ideal S512 .f32) (a10 : FVec Ideal S512x512 .f32) (a11 a12 a13 : FVec Ideal S512 .f32)
    (h : Cert.Pre_finite_inputs.fn (F := Ideal) a0 a1 a2 a3 a4 a5 a6 a7 a8 a9 a10 a11 a12 a13 = fun _ => 1#1) :
    AllReal a0 ∧ AllReal a1 ∧ AllReal a2 ∧ AllReal a3 ∧ AllReal a4 ∧ AllReal a5 ∧ AllReal a6 ∧ AllReal a7
      ∧ AllReal a8 ∧ AllReal a9 ∧ AllReal a10 ∧ AllReal a11 ∧ AllReal a12 ∧ AllReal a13 := by
  have h0 := congrFun h ValueIdx.ix0
  dsimp only [fn, fn_part1, fn_part2, fn_part3, fn_part4] at h0
  obtain ⟨h1, e13⟩ := IntOp.andi_eq_one.1 h0
  obtain ⟨h2, e12⟩ := IntOp.andi_eq_one.1 h1
  obtain ⟨h3, e11⟩ := IntOp.andi_eq_one.1 h2
  obtain ⟨h4, e10⟩ := IntOp.andi_eq_one.1 h3
  obtain ⟨h5, e9⟩ := IntOp.andi_eq_one.1 h4
  obtain ⟨h6, e8⟩ := IntOp.andi_eq_one.1 h5
  obtain ⟨h7, e7⟩ := IntOp.andi_eq_one.1 h6
  obtain ⟨h8, e6⟩ := IntOp.andi_eq_one.1 h7
  obtain ⟨h9, e5⟩ := IntOp.andi_eq_one.1 h8
  obtain ⟨h10, e4⟩ := IntOp.andi_eq_one.1 h9
  obtain ⟨h11, e3⟩ := IntOp.andi_eq_one.1 h10
  obtain ⟨h12, e2⟩ := IntOp.andi_eq_one.1 h11
  obtain ⟨e0, e1⟩ := IntOp.andi_eq_one.1 h12
  exact ⟨conj_real a0 _ _ _ e0, conj_real a1 _ _ _ e1, conj_real a2 _ _ _ e2, conj_real a3 _ _ _ e3,
    conj_real a4 _ _ _ e4, conj_real a5 _ _ _ e5, conj_real a6 _ _ _ e6, conj_real a7 _ _ _ e7,
    conj_real a8 _ _ _ e8, conj_real a9 _ _ _ e9, conj_real a10 _ _ _ e10, conj_real a11 _ _ _ e11,
    conj_real a12 _ _ _ e12, conj_real a13 _ _ _ e13⟩

end Cert.PreReal

end
-- ==== Proof.Law.lean ====
/-
  The one-pass batch normalisation is the textbook one on real columns.

  A column `y` of 4096 real entries is cut into four blocks of 1024 consecutive entries. Summing the four blocks'
  sums gives the column's sum, and likewise for the squares. With `μ = (Σ y)/4096`, the mean of the squares less
  `μ²` is the centred variance `(Σ (y − μ)²)/4096`, which is nonnegative; adding the positive `ε` makes the
  square root positive, so every quotient stays real, and over the reals
  `y·(g/σ) + (be − μ·(g/σ)) = g·(y − μ)/σ + be`.
-/
import proofs.«176912_g87187836109056_cont_sun_m_854_20_alg».proof.Proof.Spec
import proofs.«176912_g87187836109056_cont_sun_m_854_20_alg».proof.Proof.Consts
import proofs.«176912_g87187836109056_cont_sun_m_854_20_alg».proof.Proof.LibBatchNormAffine
import Mathlib.Tactic

noncomputable section

open scoped BigOperators

namespace Cert.Law

open Idealize.ShloMosaic Idealize.ShloMosaic.LibBatchNormAffine Cert.Spec Cert.Consts

/-- Block and place inside the block, against the node: `(i, r) ↦ 1024·i + r` is a bijection. -/
def blockEquiv : Fin 4 × Fin 1024 ≃ Fin 4096 where
  toFun x := blockRow x.1 x.2
  invFun p := (⟨p.val / 1024, by omega⟩, ⟨p.val % 1024, by omega⟩)
  left_inv := by
    rintro ⟨i, r⟩
    apply Prod.ext <;> apply Fin.ext <;> simp only [blockRow] <;> omega
  right_inv := by
    intro p
    apply Fin.ext
    simp only [blockRow]
    omega

/-- A sum over the 4096 nodes is the sum over the four blocks of the sums over each block's 1024 nodes. -/
theorem sum_blocks {M : Type*} [AddCommMonoid M] (f : Fin 4096 → M) :
    ∑ i : Fin 4, ∑ r : Fin 1024, f (blockRow i r) = ∑ p : Fin 4096, f p := by
  rw [← Finset.sum_product', Finset.univ_product_univ]
  exact Fintype.sum_equiv blockEquiv _ _ (fun x => rfl)

/-- THE LAW: on a real column the one-pass form, fed the four blocks' sums of the column and of its squares, is the
    textbook form. -/
theorem affine_eq_ref (y : Fin 4096 → ℝ) (g be : ℝ) (p : Fin 4096) :
    bnAffine (fun i => ∑ r : Fin 1024, (y (blockRow i r) : EReal))
        (fun i => ∑ r : Fin 1024, (y (blockRow i r) : EReal) * (y (blockRow i r) : EReal)) g be (y p)
      = bnRef (fun r => (y r : EReal)) g be (y p) := by
  obtain ⟨e, he, hε⟩ := eps_eq
  have hn : (4096 : ℝ) ≠ 0 := by norm_num
  have hcard : (Fintype.card (Fin 4096) : ℝ) = 4096 := by simp
  have hvar := var_of_sums_plain y 4096 hcard (by norm_num)
  have hnonneg := centred_var_nonneg y 4096 (by norm_num)
  have hv : 0 < (∑ i, (y i - (∑ j, y j) / 4096) * (y i - (∑ j, y j) / 4096)) / 4096 + e :=
    add_pos_of_nonneg_of_pos hnonneg he
  unfold bnAffine bnRef
  simp only []
  rw [sum_blocks (fun p => (y p : EReal)), sum_blocks (fun p => (y p : EReal) * (y p : EReal)), n4096_eq, hε]
  simp only [← EReal.coe_mul]
  rw [← coe_sum, ← coe_sum]
  simp only [div_coe_coe _ hn, ← EReal.coe_sub, ← EReal.coe_mul]
  rw [← coe_sum]
  simp only [div_coe_coe _ hn, ← EReal.coe_add, ← EReal.coe_sub, ← EReal.coe_mul]
  rw [hvar, sqrt_coe_of_nonneg hv.le]
  have hs : Real.sqrt ((∑ i, (y i - (∑ j, y j) / 4096) * (y i - (∑ j, y j) / 4096)) / 4096 + e) ≠ 0 :=
    ne_of_gt (Real.sqrt_pos.2 hv)
  simp only [div_coe_coe _ hs, ← EReal.coe_add, ← EReal.coe_sub, ← EReal.coe_mul]
  congr 1
  generalize Real.sqrt ((∑ i, (y i - (∑ j, y j) / 4096) * (y i - (∑ j, y j) / 4096)) / 4096 + e) = σ at hs ⊢
  generalize (∑ j, y j) / 4096 = μ
  field_simp
  ring

end Cert.Law

end
-- ==== Proof.ActReal.lean ====
/-
  The activated propagation of real data is real: a finite sum of products of reals, plus a real, capped below by 0.
-/
import proofs.«176912_g87187836109056_cont_sun_m_854_20_alg».proof.Proof.Spec
import proofs.«176912_g87187836109056_cont_sun_m_854_20_alg».proof.Proof.LibBatchNormAffine
import Mathlib.Tactic

noncomputable section

open scoped BigOperators

namespace Cert.ActReal

open Idealize.ShloMosaic Idealize.ShloMosaic.LibBatchNormAffine

/-- With a real adjacency, real features and a real bias, every activation is a real number. -/
theorem act_real (adj : Fin 4096 → Fin 4096 → EReal) (z : Fin 4096 → Fin 512 → EReal) (b : Fin 512 → EReal)
    (hadj : ∀ p k, ∃ r : ℝ, adj p k = (r : EReal)) (hz : ∀ k q, ∃ r : ℝ, z k q = (r : EReal))
    (hb : ∀ q, ∃ r : ℝ, b q = (r : EReal)) (p : Fin 4096) (q : Fin 512) :
    ∃ r : ℝ, Spec.act adj z b p q = (r : EReal) := by
  choose a ha using hadj
  choose w hw using hz
  choose v hv using hb
  refine ⟨max ((∑ k : Fin 4096, a p k * w k q) + v q) 0, ?_⟩
  unfold Spec.act
  simp only [ha, hw, hv]
  rw [dot_coe, ← EReal.coe_add, ← EReal.coe_zero]
  exact (EReal.coe_strictMono.monotone.map_max).symm

end Cert.ActReal

end
-- ==== Proof.Assemble.lean ====
/-
  The two idealized programs end with equal results.

  The reference's result at node `p`, feature `q` is the textbook batch normalisation of column `q` of the activated
  propagation `act adj z b3`, where `z` is the feature table its first two layers and the third feature product leave.
  The kernel program applies the same host operations to the same arguments, so its first region reads the same
  `adj`, `z`, `b3`; that region leaves the activation array and, per block of 1024 nodes, the column sums of the
  activation and of its squares; the second region normalises in one pass from those partial sums. Under the
  precondition every argument is real, so `z` is real (Finite), every activation is real (ActReal), and on a real
  column the one-pass form is the textbook form (Law).
-/
import proofs.«176912_g87187836109056_cont_sun_m_854_20_alg».proof.Defs
import proofs.«176912_g87187836109056_cont_sun_m_854_20_alg».proof.Proof.KernelRun
import proofs.«176912_g87187836109056_cont_sun_m_854_20_alg».proof.Proof.KernelValue
import proofs.«176912_g87187836109056_cont_sun_m_854_20_alg».proof.Proof.Finite
import proofs.«176912_g87187836109056_cont_sun_m_854_20_alg».proof.Proof.PreReal
import proofs.«176912_g87187836109056_cont_sun_m_854_20_alg».proof.Proof.Law
import proofs.«176912_g87187836109056_cont_sun_m_854_20_alg».proof.Proof.ActReal
import proofs.«176912_g87187836109056_cont_sun_m_854_20_alg».proof.Proof.Gen.Pre_finite_inputs

set_option maxRecDepth 16384

noncomputable section

open scoped BigOperators

namespace Cert.Assemble

open Cert.KernelIdeal.Gen Idealize.ShloMosaic Idealize.ShloMosaic.TcCoe Idealize.ShloMosaic.ValueIdx Idealize.SL.Sem
open Cert.ReferenceIdeal.Read

variable (m : (ℓ : Loc Cert.KernelIdeal.nD Cert.KernelIdeal.τ Cert.KernelIdeal.sig) → Buf (Elt Ideal) ℓ) (ρ : Dev Cert.KernelIdeal.nD → PrngReg)

/-- The one-pass form depends on its data only through their values. -/
theorem bnAffine_congr {s1 s1' s2 s2' : Fin 4 → EReal} {g g' be be' yp yp' : EReal} (h1 : ∀ i, s1 i = s1' i)
    (h2 : ∀ i, s2 i = s2' i) (hg : g = g') (hbe : be = be') (hy : yp = yp') :
    Spec.bnAffine s1 s2 g be yp = Spec.bnAffine s1' s2' g' be' yp' := by
  rw [funext h1, funext h2, hg, hbe, hy]

/-- The textbook form depends on its data only through their values. -/
theorem bnRef_congr {y y' : Fin 4096 → EReal} {g g' be be' yp yp' : EReal} (h : ∀ r, y r = y' r) (hg : g = g')
    (hbe : be = be') (hy : yp = yp') : Spec.bnRef y g be yp = Spec.bnRef y' g' be' yp' := by
  rw [funext h, hg, hbe, hy]

/-- The kernel program's result buffer, entry by entry, is the reference's result term of the same arguments. -/
theorem result_at (hpre : Cert.Pre_KernelIdeal m) (c : Dev Cert.KernelIdeal.nD) (p : Fin 4096) (q : Fin 512) :
    (W8 m ρ c (Proc.devRef .tc Cert.KernelIdeal.main_v68) : Cert.KernelIdeal.S4096x512.Idx → EReal) (ix2 p q)
      = val_main_v92 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (ix2 p q) := by
  -- the arguments are real
  obtain ⟨r0, r1, r2, r3, r4, r5, r6, r7, r8, r9, r10, r11, r12, r13⟩ := Cert.PreReal.inputs_real _ _ _ _ _ _ _ _ _ _ _ _ _ _ (hpre c)
  have hZ := Cert.ReferenceIdeal.Finite.z_real (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) r0 r1 r2 r3 r4 r5 r6 r7 r8 r9 r10
  -- the activation is real
  have hact : ∀ r : Fin 4096, ∃ y : ℝ, Spec.act (Cert.ReferenceIdeal.RefTail.adjOf (m ((c.tc : Thread Cert.KernelIdeal.nD Cert.KernelIdeal.τ).loc Cert.KernelIdeal.main_arg1)))
      (Cert.ReferenceIdeal.RefTail.tabOf (val_main_v62 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))))
      (Cert.ReferenceIdeal.RefTail.vecOf (m ((c.tc : Thread Cert.KernelIdeal.nD Cert.KernelIdeal.τ).loc Cert.KernelIdeal.main_arg11))) r q = (y : EReal) := fun r =>
    Cert.ActReal.act_real _ _ _ (fun a k => r1 (ix2 a k)) (fun k j => hZ (ix2 k j)) (fun j => r11 (ix1 j)) r q
  choose y hy using hact
  obtain ⟨g, hg⟩ := r12 (ix1 q)
  obtain ⟨be, hbe⟩ := r13 (ix1 q)
  -- the first region's activation is the real column
  have hyK : ∀ r : Fin 4096, Spec.act (Cert.KernelIdeal.Region0.adjOf (V5 m ρ) c) (Cert.KernelIdeal.Region0.zOf (V5 m ρ) c) (Cert.KernelIdeal.Region0.bOf (V5 m ρ) c) r q = (y r : EReal) := by
    intro r
    rw [Cert.KernelValue.adj_read m ρ c, Cert.KernelValue.z_read m ρ c, Cert.KernelValue.b_read m ρ c]
    exact hy r
  have c0 : ∀ i : Fin 4, (∑ r : Fin 1024, Spec.act (Cert.KernelIdeal.Region0.adjOf (V5 m ρ) c) (Cert.KernelIdeal.Region0.zOf (V5 m ρ) c) (Cert.KernelIdeal.Region0.bOf (V5 m ρ) c) (Spec.blockRow i r) q)
      = ∑ r : Fin 1024, (y (Spec.blockRow i r) : EReal) := fun i =>
    Finset.sum_congr rfl fun r _ => hyK _
  have c1 : ∀ i : Fin 4, (∑ r : Fin 1024, Spec.act (Cert.KernelIdeal.Region0.adjOf (V5 m ρ) c) (Cert.KernelIdeal.Region0.zOf (V5 m ρ) c) (Cert.KernelIdeal.Region0.bOf (V5 m ρ) c) (Spec.blockRow i r) q * Spec.act (Cert.KernelIdeal.Region0.adjOf (V5 m ρ) c) (Cert.KernelIdeal.Region0.zOf (V5 m ρ) c) (Cert.KernelIdeal.Region0.bOf (V5 m ρ) c) (Spec.blockRow i r) q)
      = ∑ r : Fin 1024, (y (Spec.blockRow i r) : EReal) * (y (Spec.blockRow i r) : EReal) := fun i =>
    Finset.sum_congr rfl fun r _ => by rw [hyK]
  -- the kernel program's result in those terms
  have e0 : ∀ i : Fin 4, (V7 m ρ c Cert.KernelIdeal.main_v65_1 : Cert.KernelIdeal.S4x8x512.Idx → EReal) (ix3 i 0 q)
      = ∑ r : Fin 1024, (y (Spec.blockRow i r) : EReal) := fun i =>
    Eq.trans (α := EReal) (Cert.KernelValue.stat0_at m ρ c i q) (c0 i)
  have e1 : ∀ i : Fin 4, (V7 m ρ c Cert.KernelIdeal.main_v65_1 : Cert.KernelIdeal.S4x8x512.Idx → EReal) (ix3 i 1 q)
      = ∑ r : Fin 1024, (y (Spec.blockRow i r) : EReal) * (y (Spec.blockRow i r) : EReal) := fun i =>
    Eq.trans (α := EReal) (Cert.KernelValue.stat1_at m ρ c i q) (c1 i)
  have ey : (V7 m ρ c Cert.KernelIdeal.main_v65_0 : Cert.KernelIdeal.S4096x512.Idx → EReal) (ix2 p q) = (y p : EReal) :=
    Eq.trans (α := EReal) (Cert.KernelValue.act_read m ρ c p q) (hyK p)
  have eg : (V7 m ρ c Cert.KernelIdeal.main_v66 : Cert.KernelIdeal.S1x512.Idx → EReal) (ix2 0 q) = (g : EReal) :=
    Eq.trans (α := EReal) (Cert.KernelValue.scale_read m ρ c q) hg
  have ebe : (V7 m ρ c Cert.KernelIdeal.main_v67 : Cert.KernelIdeal.S1x512.Idx → EReal) (ix2 0 q) = (be : EReal) :=
    Eq.trans (α := EReal) (Cert.KernelValue.shift_read m ρ c q) hbe
  -- second region, the law, the reference
  rw [Cert.KernelValue.out_read m ρ c p q, bnAffine_congr e0 e1 eg ebe ey, Cert.Law.affine_eq_ref y g be p,
    Cert.ReferenceIdeal.RefTail.ref_at, bnRef_congr hy hg hbe (hy p)]

end Cert.Assemble

end
-- ==== Proof.lean ====
/-
  The certificate of a three-layer graph-convolution network with batch normalisation, whose third layer's
  propagation, bias, ReLU and batch normalisation run as two kernels: a propagation kernel over four blocks of 1024
  nodes (activation, and per block the column sums of the activation and of its squares) and a normalisation kernel
  that finishes the statistics from the four partial sums and applies one affine map per feature.

  The frames of the two kernel programs are the generated ones; the reference's frame is its run with the result
  dropped. The idealization rewrote nothing, so there is nothing to preserve. The two idealized programs end with
  equal results: the first two layers and the third feature product are the same host operations on both sides, the
  activation is the same sum, and on finite data the one-pass batch normalisation from the blocks' partial sums
  (mean of squares less squared mean, `y·s + (β − μ·s)` with `s = γ/√(var + ε)`) is the textbook one
  (`γ·(y − μ)/√(var + ε) + β` with the centred variance).
-/
import proofs.«176912_g87187836109056_cont_sun_m_854_20_alg».proof.Defs
import proofs.«176912_g87187836109056_cont_sun_m_854_20_alg».proof.Proof.Gen.Kernel
import proofs.«176912_g87187836109056_cont_sun_m_854_20_alg».proof.Proof.Gen.Kernel.Skeleton
import proofs.«176912_g87187836109056_cont_sun_m_854_20_alg».proof.Proof.Gen.Kernel.Launch
import proofs.«176912_g87187836109056_cont_sun_m_854_20_alg».proof.Proof.Gen.Kernel.Points
import proofs.«176912_g87187836109056_cont_sun_m_854_20_alg».proof.Proof.Gen.Kernel.Frame
import proofs.«176912_g87187836109056_cont_sun_m_854_20_alg».proof.Proof.Gen.KernelIdeal
import proofs.«176912_g87187836109056_cont_sun_m_854_20_alg».proof.Proof.Gen.KernelIdeal.Skeleton
import proofs.«176912_g87187836109056_cont_sun_m_854_20_alg».proof.Proof.Gen.KernelIdeal.Launch
import proofs.«176912_g87187836109056_cont_sun_m_854_20_alg».proof.Proof.Gen.KernelIdeal.Points
import proofs.«176912_g87187836109056_cont_sun_m_854_20_alg».proof.Proof.Gen.KernelIdeal.Frame
import proofs.«176912_g87187836109056_cont_sun_m_854_20_alg».proof.Proof.Gen.ReferenceIdeal
import proofs.«176912_g87187836109056_cont_sun_m_854_20_alg».proof.Proof.Gen.Pre_finite_inputs
import proofs.«176912_g87187836109056_cont_sun_m_854_20_alg».proof.Proof.Assemble
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs run, and end with the same result array: the kernel program's, named by its run, is
    entry by entry the reference's result term (Assemble.result_at) of arguments that agree. -/
theorem algebraic : Cert.algebraic_KernelIdeal_ReferenceIdeal := by
  intro m ρ m' ρ' hpre hagree
  refine ⟨fun c => Cert.KernelIdeal.Gen.W8 m ρ c (Proc.devRef .tc Cert.KernelIdeal.main_v68),
    Cert.KernelIdeal.KRun.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13⟩ := hagree c
  rw [Cert.ReferenceIdeal.Read.val_main_v92_eq, h0, h1, h2, h3, h4, h5, h6, h7, h8, h9, h10, h11, h12, h13]
  funext j
  obtain ⟨p, q, rfl⟩ : ∃ (p : Fin 4096) (q : Fin 512), j = ix2 p q := ⟨j 0, j 1, eq_ix2 j⟩
  exact (Cert.Assemble.result_at m ρ hpre c p q).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
